-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x64 .f32) (main_arg10 : FVec F S64 .f32) (main_arg11 : FVec F S64x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S128x320 : Shape := ⟨2, ![128, 320]⟩
abbrev S50000x320 : Shape := ⟨2, ![50000, 320]⟩
abbrev S2000x128 : Shape := ⟨2, ![2000, 128]⟩
abbrev S2000x320 : Shape := ⟨2, ![2000, 320]⟩
abbrev S50000x192 : Shape := ⟨2, ![50000, 192]⟩
abbrev S850000x192 : Shape := ⟨2, ![850000, 192]⟩
abbrev S1x128 : Shape := ⟨2, ![1, 128]⟩
abbrev S1x64 : Shape := ⟨2, ![1, 64]⟩
abbrev S1x1 : Shape := ⟨2, ![1, 1]⟩
abbrev S50000x1 : Shape := ⟨2, ![50000, 1]⟩
abbrev S2000x192 : Shape := ⟨2, ![2000, 192]⟩
abbrev S2000x1 : Shape := ⟨2, ![2000, 1]⟩
abbrev S2000x64 : Shape := ⟨2, ![2000, 64]⟩
abbrev S2000 : Shape := ⟨1, ![2000]⟩
abbrev S850000x128 : Shape := ⟨2, ![850000, 128]⟩

abbrev nBuf : Space → Nat
  | .hbm => 103
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S50000, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S128x320, .f32⟩
  | .hbm, ⟨56, _⟩ => ⟨S50000x320, .f32⟩
  | .hbm, ⟨57, _⟩ => ⟨S50000x192, .f32⟩
  | .hbm, ⟨58, _⟩ => ⟨S50000x192, .bf16⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x192, .bf16⟩
  | .hbm, ⟨68, _⟩ => ⟨S850000x192, .f32⟩
  | .hbm, ⟨69, _⟩ => ⟨S850000x1, .f32⟩
  | .hbm, ⟨70, _⟩ => ⟨S850000x192, .f32⟩
  | .hbm, ⟨71, _⟩ => ⟨S850000x192, .f32⟩
  | .hbm, ⟨72, _⟩ => ⟨S_, .f32⟩
  | .hbm, ⟨73, _⟩ => ⟨S50000x192, .f32⟩
  | .hbm, ⟨74, _⟩ => ⟨S850000x1, .i32⟩
  | .hbm, ⟨75, _⟩ => ⟨S50000x192, .f32⟩
  | .hbm, ⟨76, _⟩ => ⟨S1x128, .f32⟩
  | .hbm, ⟨77, _⟩ => ⟨S1x64, .f32⟩
  | .hbm, ⟨78, _⟩ => ⟨S1x128, .f32⟩
  | .hbm, ⟨79, _⟩ => ⟨S1x64, .f32⟩
  | .hbm, ⟨80, _⟩ => ⟨S1x1, .f32⟩
  | .hbm, ⟨81, _⟩ => ⟨S50000x128, .f32⟩
  | .hbm, ⟨82, _⟩ => ⟨S50000x1, .f32⟩
  | .hbm, ⟨83, _⟩ => ⟨S50000x128, .bf16⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .bf16⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x320, .f32⟩
  | .local _ .vmem, ⟨3, _⟩ => ⟨S2000x320, .f32⟩
  | .local _ .vmem, ⟨4, _⟩ => ⟨S2000x320, .f32⟩
  | .local _ .vmem, ⟨5, _⟩ => ⟨S2000x320, .f32⟩
  | .local _ .vmem, ⟨6, _⟩ => ⟨S2000x320, .f32⟩
  | .local _ .vmem, ⟨7, _⟩ => ⟨S2000x192, .f32⟩
  | .local _ .vmem, ⟨8, _⟩ => ⟨S2000x192, .f32⟩
  | .local _ .vmem, ⟨9, _⟩ => ⟨S1x128, .f32⟩
  | .local _ .vmem, ⟨10, _⟩ => ⟨S1x64, .f32⟩
  | .local _ .vmem, ⟨11, _⟩ => ⟨S1x128, .f32⟩
  | .local _ .vmem, ⟨12, _⟩ => ⟨S1x64, .f32⟩
  | .local _ .vmem, ⟨13, _⟩ => ⟨S1x1, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55_0 : Ref sig .tc := ⟨.hbm, 81, rfl⟩
abbrev main_v55_1 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  concatenates_S128x128_S128x64_S128x128_S128x320_d1 : Shape.Concatenates [S128x128, S128x64, S128x128] S128x320 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x320_S128x320_0_0 : ∀ a, (![0, 0] : Fin 2 → Nat) a + S128x320.size a ≤ S128x320.size a
  h_S128x320 : 0 < S128x320.numel
  shapeCasts_S128x320_S128x320 : S128x320.ShapeCasts S128x320
  inb_S2000x320_S2000x320_0_0 : ∀ a, (![0, 0] : Fin 2 → Nat) a + S2000x320.size a ≤ S2000x320.size a
  h_S2000x320 : 0 < S2000x320.numel
  slices_S50000x320_S50000x192_0_0 : S50000x320.Slices ![0, 0] S50000x192
  bcast_S850000x1_S850000x192_0_1 : S850000x1.BroadcastsInDim S850000x192 (![0, 1] : Fin 2 → Fin S850000x192.rank)
  bcast_S_S50000x192 : S_.BroadcastsInDim S50000x192 (![] : Fin 0 → Fin S50000x192.rank)
  shapeCasts_S128_S1x128 : S128.ShapeCasts S1x128
  shapeCasts_S64_S1x64 : S64.ShapeCasts S1x64
  shapeCasts_S64x1_S1x64 : S64x1.ShapeCasts S1x64
  shapeCasts_S1_S1x1 : S1.ShapeCasts S1x1
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  slices_S2000x192_o0_0_S2000x128 : S2000x192.Slices ![0, 0] S2000x128
  slices_S2000x192_o0_128_S2000x64 : S2000x192.Slices ![0, 128] S2000x64
  inb_S2000x320_S2000x128_0_192 : ∀ a, (![0, 192] : Fin 2 → Nat) a + S2000x128.size a ≤ S2000x320.size a
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S2000x128 : S1x128.Broadcasts S2000x128
  broadcasts_S1x64_S2000x64 : S1x64.Broadcasts S2000x64
  reduces_S2000x64_S2000 : S2000x64.Reduces [1] S2000
  shapeCasts_S2000_S2000x1 : S2000.ShapeCasts S2000x1
  broadcasts_S1x1_S2000x1 : S1x1.Broadcasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x320_S2000x320_1_0_0_1_n_n_wf : DotDims.WF S2000x128 S128x320 S2000x320 [1] [0] [0] [1] [] []
  gather_S50000x192_S850000x1_S850000x192_1_0_n_n_0_1_1192_wf : GatherDims.WF S50000x192 S850000x1 S850000x192 [1] [0] [] [0] [] 1 ![1, 192]
  scatter_S50000x192_S850000x1_S850000x192_1_0_0_1_wf : ScatterDims.WF S50000x192 S850000x1 S850000x192 [1] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x320.size a ≤ S128x320.size a
  hwx0_1 : ∀ i : grid0.Coords, EltTy.bits .f32 = 32 ∨ (Rect.block (s := S128x320) S128x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x320.size a ≤ S50000x320.size a
  hwx0_2 : ∀ i : grid0.Coords, EltTy.bits .f32 = 32 ∨ (Rect.block (s := S50000x320) S2000x320.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x320.size a ≤ S50000x320.size a
  hwx1_0 : ∀ i : grid1.Coords, EltTy.bits .f32 = 32 ∨ (Rect.block (s := S50000x320) S2000x320.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x192.size a ≤ S50000x192.size a
  hwx1_1 : ∀ i : grid1.Coords, EltTy.bits .f32 = 32 ∨ (Rect.block (s := S50000x192) S2000x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S50000x1.size a
  hwx1_9 : ∀ i : grid1.Coords, EltTy.bits .f32 = 32 ∨ (Rect.block (s := S50000x1) S2000x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x320_S2000x320_1_0_0_1_n_n : DotDims S2000x128 S128x320 S2000x320 where
  lhsContracting := [1]
  rhsContracting := [0]
  lhsNonContracting := [0]
  rhsNonContracting := [1]
  lhsBatch := []
  rhsBatch := []
  wf := dot_S2000x128_S128x320_S2000x320_1_0_0_1_n_n_wf
def gather_S50000x192_S850000x1_S850000x192_1_0_n_n_0_1_1192 : GatherDims S50000x192 S850000x1 S850000x192 where
  offsetDims := [1]
  collapsedSliceDims := [0]
  operandBatchingDims := []
  startIndicesBatchingDims := []
  startIndexMap := [0]
  indexVectorDim := 1
  sliceSizes := ![1, 192]
  wf := gather_S50000x192_S850000x1_S850000x192_1_0_n_n_0_1_1192_wf
def scatter_S50000x192_S850000x1_S850000x192_1_0_0_1 : ScatterDims S50000x192 S850000x1 S850000x192 where
  updateWindowDims := [1]
  insertedWindowDims := [0]
  scatterDimsToOperandDims := [0]
  indexVectorDim := 1
  wf := scatter_S50000x192_S850000x1_S850000x192_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v55_1) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 224
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x64, .f32⟩
  | 79 => ⟨S50000, .i32⟩
  | 80 => ⟨S850000, .i32⟩
  | 81 => ⟨S850000, .i32⟩
  | 82 => ⟨S_, .f32⟩
  | 83 => ⟨S50000, .f32⟩
  | 84 => ⟨S850000, .f32⟩
  | 85 => ⟨S_, .f32⟩
  | 86 => ⟨S50000, .f32⟩
  | 87 => ⟨S850000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x1, .f32⟩
  | 127 => ⟨S850000x64, .f32⟩
  | _ => ⟨S50000x128, .f32⟩

abbrev hbmTy0_1 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S50000x1, .f32⟩
  | 12 => ⟨S1x1, .f32⟩
  | 13 => ⟨S50000x1, .f32⟩
  | 14 => ⟨S50000x1, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S_, .f32⟩
  | 21 => ⟨S50000x1, .f32⟩
  | 22 => ⟨S50000x1, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x1, .f32⟩
  | 29 => ⟨S50000x1, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S50000, .i32⟩
  | 37 => ⟨S850000, .i32⟩
  | 38 => ⟨S850000, .i32⟩
  | 39 => ⟨S_, .f32⟩
  | 40 => ⟨S50000, .f32⟩
  | 41 => ⟨S850000, .f32⟩
  | 42 => ⟨S_, .f32⟩
  | 43 => ⟨S50000, .f32⟩
  | 44 => ⟨S850000x1, .i32⟩
  | 45 => ⟨S50000, .f32⟩
  | 46 => ⟨S_, .f32⟩
  | 47 => ⟨S50000, .f32⟩
  | 48 => ⟨S50000, .i1⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v62 : Ref sig .tc := ⟨.hbm, 96, rfl⟩
abbrev main_c_13 : Ref sig .tc := ⟨.hbm, 97, rfl⟩
abbrev main_v63 : Ref sig .tc := ⟨.hbm, 98, rfl⟩
abbrev main_v64 : Ref sig .tc := ⟨.hbm, 99, rfl⟩
abbrev main_c_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_15 : Ref sig .tc := ⟨.hbm, 107, rfl⟩
abbrev main_v71 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_17 : Ref sig .tc := ⟨.hbm, 117, rfl⟩
abbrev main_v79 : Ref sig .tc := ⟨.hbm, 118, rfl⟩
abbrev main_v80 : Ref sig .tc := ⟨.hbm, 119, rfl⟩
abbrev main_c_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call3_cst : Ref sig .tc := ⟨.hbm, 136, rfl⟩
abbrev main_call3_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_20 : Ref sig .tc := ⟨.hbm, 145, rfl⟩
abbrev main_v102 : Ref sig .tc := ⟨.hbm, 146, rfl⟩
abbrev main_v103 : Ref sig .tc := ⟨.hbm, 147, rfl⟩
abbrev main_cst_21 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_22 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_23 : Ref sig .tc := ⟨.hbm, 167, rfl⟩
abbrev main_v121 : Ref sig .tc := ⟨.hbm, 168, rfl⟩
abbrev main_v122 : Ref sig .tc := ⟨.hbm, 169, rfl⟩
abbrev main_cst_24 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_25 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_26 : Ref sig .tc := ⟨.hbm, 178, rfl⟩
abbrev main_call4_v0 : Ref sig .tc := ⟨.hbm, 179, rfl⟩
abbrev main_call4_v1 : Ref sig .tc := ⟨.hbm, 180, rfl⟩
abbrev main_v129 : Ref sig .tc := ⟨.hbm, 181, rfl⟩
abbrev main_c_27 : Ref sig .tc := ⟨.hbm, 182, rfl⟩
abbrev main_v130 : Ref sig .tc := ⟨.hbm, 183, rfl⟩
abbrev main_v131 : Ref sig .tc := ⟨.hbm, 184, rfl⟩
abbrev main_c_28 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_c_29 : Ref sig .tc := ⟨.hbm, 192, rfl⟩
abbrev main_v138 : Ref sig .tc := ⟨.hbm, 193, rfl⟩
abbrev main_v139 : Ref sig .tc := ⟨.hbm, 194, rfl⟩
abbrev main_c_30 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_31 : Ref sig .tc := ⟨.hbm, 202, rfl⟩
abbrev main_v146 : Ref sig .tc := ⟨.hbm, 203, rfl⟩
abbrev main_v147 : Ref sig .tc := ⟨.hbm, 204, rfl⟩
abbrev main_c_32 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_33 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_call5_cst : Ref sig .tc := ⟨.hbm, 221, rfl⟩
abbrev main_call5_v0 : Ref sig .tc := ⟨.hbm, 222, rfl⟩
abbrev main_v162 : Ref sig .tc := ⟨.hbm, 223, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRegion0.lean ====
/- REGION 0 of @main: the first kernel call. At each of the 25 grid points the body multiplies a 2000×128 block of
   rows (window 0) by a resident 128×320 matrix (window 1), both rounded to bf16, accumulating in f32 from zero,
   and stores the 2000×320 product over the whole staging buffer of window 2. Stated at an arbitrary entry
   valuation `V`: the windows' blocks, the buffer the body leaves, the body's triple, the pipeline's proof data and
   its body obligation. -/
import proofs.«173817_j3994319585552_2_alg».proof.Proof.Gen.Kernel.Launch
import proofs.«173817_j3994319585552_2_alg».proof.Proof.Gen.Kernel.Skeleton
import proofs.«173817_j3994319585552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds, at every grid point, the block of its array that the point addresses,
    whether the pipeline fetched at that point or kept the buffer from the point before (then the block index did
    not move): for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds, at every grid point, the block of its array that the point addresses,
    whether the pipeline fetched at that point or kept the buffer from the point before (then the block index did
    not move): for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev r0_0 : Rect S2000x128 := Rect.unit (s := S2000x128) ![0, 0] S2000x128.size inb_S2000x128_S2000x128_0_0
abbrev r0_1 : Rect S128x320 := Rect.unit (s := S128x320) ![0, 0] S128x320.size inb_S128x320_S128x320_0_0
abbrev r0_2 : Rect S2000x320 := Rect.unit (s := S2000x320) ![0, 0] S2000x320.size inb_S2000x320_S2000x320_0_0

/-! ## What the body leaves in the output window's buffer -/

/-- Window 2's staging buffer after the body, as a function of the two input blocks: one store, of the product,
    over the whole buffer. What the buffer held before is read by the body and discarded. -/
def out0_2 (x0 : Vec F S2000x128 .f32) (x1 : Vec F S128x320 .f32) : Vec F S2000x320 .f32 :=
  View.canon [⟨r0_2, k0_pay1 (View.ld x0 r0_0) (View.ld x1 r0_1)⟩]

/-- The single store covers the buffer. -/
theorem cover0_2 (p0 : Vec F S2000x320 .f32) (y : S2000x320.Idx) :
    ∃ pc ∈ ([⟨r0_2, p0⟩] : List (View.Piece (Elt F) S2000x320 .f32)), y ∈ pc.1.set :=
  View.cover_of_tiled [⟨r0_2, p0⟩] S2000x320.size (by rfl) y

/-! ## The body's triple -/

set_option maxHeartbeats 1000000 in
/-- On whole staging memrefs, the inputs holding `x0`, `x1` and the output holding anything, the body runs to a state
    where the inputs are unchanged and the output holds `out0_2 x0 x1`, at every grid coordinate. -/
theorem sound_kernel0 (c : Dev nD) (E : Set ℕ) (i : grid0.Coords) (arg1 : Memref sig .tc .vmem S2000x128 .f32) (harg1 : arg1.IsWhole)
    (arg2 : Memref sig .tc .vmem S128x320 .f32) (harg2 : arg2.IsWhole) (arg3 : Memref sig .tc .vmem S2000x320 .f32) (harg3 : arg3.IsWhole)
    (x0 : Vec F S2000x128 .f32) (x1 : Vec F S128x320 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input buffer still at its block and the output buffer at `out0_2` of the two input blocks; the invariant is the
    untouched scoped rest and generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.KernelRegion1.lean ====
/- REGION 1 of @main: the second kernel call. At each of the 25 grid points the body reads a 2000×192 block (window 1)
   whose first 128 columns, plus a resident bias row (window 2), clamped below at zero, are one candidate; whose last
   64 columns, plus a bias row (window 3), clamped, weighted by a row (window 5), summed along each row, shifted by a
   scalar (window 6) and passed through the logistic function, give a gate per row; and reads columns 192..319 of a
   2000×320 block (window 0), plus a bias row (window 4), as the other candidate. It stores the gated mixture of the
   two candidates, rounded to bf16 and multiplied by a resident 128×128 matrix (window 7), over the whole staging
   buffer of window 8, and the gate over the whole staging buffer of window 9. Stated at an arbitrary entry valuation
   `V`: the windows' blocks, the buffers the body leaves, the body's triple, the pipeline's proof data and its body
   obligation. -/
import proofs.«173817_j3994319585552_2_alg».proof.Proof.Gen.Kernel.Launch
import proofs.«173817_j3994319585552_2_alg».proof.Proof.Gen.Kernel.Skeleton
import proofs.«173817_j3994319585552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds, at every grid point, the block of its array that the point addresses,
    whether the pipeline fetched at that point or kept the buffer from the point before (then the block index did
    not move): for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: whole staging buffers, but for the read of columns 192..319 of
    window 0's buffer -/

abbrev r1_0s : Rect S2000x320 := Rect.unit (s := S2000x320) ![0, 192] S2000x128.size inb_S2000x320_S2000x128_0_192
abbrev r1_1 : Rect S2000x192 := Rect.unit (s := S2000x192) ![0, 0] S2000x192.size inb_S2000x192_S2000x192_0_0
abbrev r1_2 : Rect S1x128 := Rect.unit (s := S1x128) ![0, 0] S1x128.size inb_S1x128_S1x128_0_0
abbrev r1_3 : Rect S1x64 := Rect.unit (s := S1x64) ![0, 0] S1x64.size inb_S1x64_S1x64_0_0
abbrev r1_4 : Rect S1x128 := Rect.unit (s := S1x128) ![0, 0] S1x128.size inb_S1x128_S1x128_0_0
abbrev r1_5 : Rect S1x64 := Rect.unit (s := S1x64) ![0, 0] S1x64.size inb_S1x64_S1x64_0_0
abbrev r1_6 : Rect S1x1 := Rect.unit (s := S1x1) ![0, 0] S1x1.size inb_S1x1_S1x1_0_0
abbrev r1_7 : Rect S128x128 := Rect.unit (s := S128x128) ![0, 0] S128x128.size inb_S128x128_S128x128_0_0
abbrev r1_8 : Rect S2000x128 := Rect.unit (s := S2000x128) ![0, 0] S2000x128.size inb_S2000x128_S2000x128_0_0
abbrev r1_9 : Rect S2000x1 := Rect.unit (s := S2000x1) ![0, 0] S2000x1.size inb_S2000x1_S2000x1_0_0

/-! ## What the body leaves in the output windows' buffers -/

/-- Window 8's staging buffer after the body, as a function of the eight input blocks: one store, of the product of
    the gated mixture by the resident matrix, over the whole buffer. -/
def out1_8 (x0 : Vec F S2000x320 .f32) (x1 : Vec F S2000x192 .f32) (x2 : Vec F S1x128 .f32) (x3 : Vec F S1x64 .f32) (x4 : Vec F S1x128 .f32) (x5 : Vec F S1x64 .f32) (x6 : Vec F S1x1 .f32) (x7 : Vec F S128x128 .f32) : Vec F S2000x128 .f32 :=
  View.canon [⟨r1_8, k1_pay1 (k1_pay3 (View.ld x1 r1_1) (View.ld x2 r1_2))
    (k1_pay4 (View.ld x1 r1_1) (View.ld x3 r1_3) (View.ld x5 r1_5) (View.ld x6 r1_6))
    (k1_pay5 (View.ld x0 r1_0s) (View.ld x4 r1_4)) (View.ld x7 r1_7)⟩]

/-- Window 9's staging buffer after the body: one store, of the gate, over the whole buffer. -/
def out1_9 (x1 : Vec F S2000x192 .f32) (x3 : Vec F S1x64 .f32) (x5 : Vec F S1x64 .f32) (x6 : Vec F S1x1 .f32) : Vec F S2000x1 .f32 :=
  View.canon [⟨r1_9, k1_pay4 (View.ld x1 r1_1) (View.ld x3 r1_3) (View.ld x5 r1_5) (View.ld x6 r1_6)⟩]

/-- Each single store covers its buffer. -/
theorem cover1_8 (p0 : Vec F S2000x128 .f32) (y : S2000x128.Idx) :
    ∃ pc ∈ ([⟨r1_8, p0⟩] : List (View.Piece (Elt F) S2000x128 .f32)), y ∈ pc.1.set :=
  View.cover_of_tiled [⟨r1_8, p0⟩] S2000x128.size (by rfl) y
theorem cover1_9 (p0 : Vec F S2000x1 .f32) (y : S2000x1.Idx) :
    ∃ pc ∈ ([⟨r1_9, p0⟩] : List (View.Piece (Elt F) S2000x1 .f32)), y ∈ pc.1.set :=
  View.cover_of_tiled [⟨r1_9, p0⟩] S2000x1.size (by rfl) y

/-! ## The body's triple -/

set_option maxHeartbeats 4000000 in
/-- On whole staging memrefs, the inputs holding `x0`..`x7` and the outputs holding anything, the body runs, through
    the part that computes the two candidates and the gate, to a state where the inputs are unchanged and the outputs
    hold `out1_8` and `out1_9` of the inputs, at every grid coordinate. -/
theorem sound_kernel1 (c : Dev nD) (E : Set ℕ) (i : grid1.Coords)
    (arg1 : Memref sig .tc .vmem S2000x320 .f32) (harg1 : arg1.IsWhole)
    (arg2 : Memref sig .tc .vmem S2000x192 .f32) (harg2 : arg2.IsWhole)
    (arg3 : Memref sig .tc .vmem S1x128 .f32) (harg3 : arg3.IsWhole)
    (arg4 : Memref sig .tc .vmem S1x64 .f32) (harg4 : arg4.IsWhole)
    (arg5 : Memref sig .tc .vmem S1x128 .f32) (harg5 : arg5.IsWhole)
    (arg6 : Memref sig .tc .vmem S1x64 .f32) (harg6 : arg6.IsWhole)
    (arg7 : Memref sig .tc .vmem S1x1 .f32) (harg7 : arg7.IsWhole)
    (arg8 : Memref sig .tc .vmem S128x128 .f32) (harg8 : arg8.IsWhole)
    (arg9 : Memref sig .tc .vmem S2000x128 .f32) (harg9 : arg9.IsWhole)
    (arg10 : Memref sig .tc .vmem S2000x1 .f32) (harg10 : arg10.IsWhole)
    (x0 : Vec F S2000x320 .f32) (x1 : Vec F S2000x192 .f32) (x2 : Vec F S1x128 .f32) (x3 : Vec F S1x64 .f32) (x4 : Vec F S1x128 .f32) (x5 : Vec F S1x64 .f32) (x6 : Vec F S1x1 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x1 x3 x5 x6)) -∗ K ⟨⟩))
      ⊢ wp frame (wpE (defs₀ (F := F)) Variants.none c none) E (cc1__kernel i arg1 harg1 arg2 harg2 arg3 harg3 arg4 harg4 arg5 harg5 arg6 harg6 arg7 harg7 arg8 harg8 arg9 harg9 arg10 harg10) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- The proof data of pipeline 1 on core `c`: the arrays as the region finds them; after the body at point `t` each
    input buffer still at its block and the two output buffers at `out1_8`, `out1_9` of the input blocks; the
    invariant is the untouched scoped rest and generator register; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 1 t) (iblk1 V c 3 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 1 t) (iblk1 V c 3 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.KernelRegion2.lean ====
/- REGION 2 of @main: the third kernel call. At each of the 25 grid points the body adds a resident 1×128 bias row
   (window 1), broadcast down the rows, to a 2000×128 block (window 0), clamps below at zero, and stores the result
   over the whole staging buffer of window 2. Stated at an arbitrary entry valuation `V`: the windows' blocks, the
   buffer the body leaves, the body's triple, the pipeline's proof data and its body obligation. -/
import proofs.«173817_j3994319585552_2_alg».proof.Proof.Gen.Kernel.Launch
import proofs.«173817_j3994319585552_2_alg».proof.Proof.Gen.Kernel.Skeleton
import proofs.«173817_j3994319585552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds, at every grid point, the block of its array that the point addresses,
    whether the pipeline fetched at that point or kept the buffer from the point before (then the block index did
    not move): for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds, at every grid point, the block of its array that the point addresses,
    whether the pipeline fetched at that point or kept the buffer from the point before (then the block index did
    not move): for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole staging buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S2000x128 := Rect.unit (s := S2000x128) ![0, 0] S2000x128.size inb_S2000x128_S2000x128_0_0

/-! ## What the body leaves in the output window's buffer -/

/-- Window 2's staging buffer after the body, as a function of the two input blocks: one store, of the clamped sum,
    over the whole buffer. What the buffer held before is read by the body and discarded. -/
def out2_2 (x0 : Vec F S2000x128 .f32) (x1 : Vec F S1x128 .f32) : Vec F S2000x128 .f32 :=
  View.canon [⟨r2_2, k2_pay1 (View.ld x0 r2_0) (View.ld x1 r2_1)⟩]

/-- The single store covers the buffer. -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- On whole staging memrefs, the inputs holding `x0`, `x1` and the output holding anything, the body runs to a state
    where the inputs are unchanged and the output holds `out2_2 x0 x1`, at every grid coordinate. -/
theorem sound_kernel2 (c : Dev nD) (E : Set ℕ) (i : grid2.Coords) (arg1 : Memref sig .tc .vmem S2000x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input buffer still at its block and the output buffer at `out2_2` of the two input blocks; the invariant is the
    untouched scoped rest and generator register; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regs

end
-- ==== Proof.KernelRun.lean ====
/- THE RUN of @main over its three kernel regions. The valuations between @main's items (Gen.V0 … Gen.V8) are written
   over unknown contents `outs` that the regions leave in their output arrays; here those unknowns are chosen: each
   output array ends at what its pipeline's write-backs fold to, from the region's entry valuation. The choice is made
   in stages, because each region's entry valuation depends only on the outputs of the regions before it. With that
   choice each region is a segment from the valuation before it to the valuation after it, the conditional frame
   applies, and the same launch read at every unscoped buffer says the final memory is `Gen.V8`. -/
import proofs.«173817_j3994319585552_2_alg».proof.Proof.Gen.Kernel.Regions
import proofs.«173817_j3994319585552_2_alg».proof.Proof.KernelRegion0
import proofs.«173817_j3994319585552_2_alg».proof.Proof.KernelRegion1
import proofs.«173817_j3994319585552_2_alg».proof.Proof.KernelRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, chosen in stages -/

/-- Core `c`'s launch contents at a TensorCore reference: the default for every unknown that no valuation reads. -/
abbrev launchAt (c : Dev nD) : (r : Ref sig .tc) → Buf (Elt F) ((c : Thread nD τ).loc r) := fun r => m ((c : Thread nD τ).loc r)

/-- Region 0's entry valuation at the TensorCore's references: it depends on no unknown. -/
abbrev Win0 : (c : Dev nD) → (b : Ref sig .tc) → Buf (Elt F) ((c : Thread nD τ).loc b) := fun c b => Gen.V3 m c b
/-- What region 0's write-backs leave in its output array. -/
def o4 (c : Dev nD) : Buf (Elt F) ((c : Thread nD τ).loc main_v33) := (dat0 (Win0 m) c).arrAt 2 cfg0.N
/-- First stage: only region 0's output is chosen. -/
def outsA : Gen.Outs (F := F) := fun _ r c =>
  Function.update (β := fun r : Ref sig .tc => Buf (Elt F) ((c : Thread nD τ).loc r)) (launchAt m c) main_v33 (o4 m c) r

/-- Region 1's entry valuation over the first stage. -/
abbrev Win1A : (c : Dev nD) → (b : Ref sig .tc) → Buf (Elt F) ((c : Thread nD τ).loc b) := fun c b => Gen.V5 m (outsA m) c b
/-- What region 1's write-backs leave in its two output arrays, from that entry valuation. -/
def o6_0 (c : Dev nD) : Buf (Elt F) ((c : Thread nD τ).loc main_v55_0) := (dat1 (Win1A m) c).arrAt 8 cfg1.N
def o6_1 (c : Dev nD) : Buf (Elt F) ((c : Thread nD τ).loc main_v55_1) := (dat1 (Win1A m) c).arrAt 9 cfg1.N
/-- Second stage: regions 0 and 1. -/
def outsB : Gen.Outs (F := F) := fun n r c => match n with
  | 4 => outsA m 4 r c
  | _ => Function.update (β := fun r : Ref sig .tc => Buf (Elt F) ((c : Thread nD τ).loc r))
      (Function.update (β := fun r : Ref sig .tc => Buf (Elt F) ((c : Thread nD τ).loc r)) (launchAt m c) main_v55_0 (o6_0 m c)) main_v55_1 (o6_1 m c) r

/-- Region 2's entry valuation over the second stage. -/
abbrev Win2B : (c : Dev nD) → (b : Ref sig .tc) → Buf (Elt F) ((c : Thread nD τ).loc b) := fun c b => Gen.V7 m (outsB m) c b
/-- What region 2's write-backs leave in its output array, from that entry valuation. -/
def o8 (c : Dev nD) : Buf (Elt F) ((c : Thread nD τ).loc main_v72) := (dat2 (Win2B m) c).arrAt 2 cfg2.N
/-- The contents the three regions leave. -/
def outs : Gen.Outs (F := F) := fun n r c => match n with
  | 4 => outsA m 4 r c
  | 6 => outsB m 6 r c
  | _ => Function.update (β := fun r : Ref sig .tc => Buf (Elt F) ((c : Thread nD τ).loc r)) (launchAt m c) main_v72 (o8 m c) r

/-- The stages at the item numbers the valuations read them at: the match on the number, reduced. -/
theorem outs_at4 (r : Ref sig .tc) (c : Dev nD) : outs m 4 r c = outsA m 4 r c := rfl
theorem outs_at6 (r : Ref sig .tc) (c : Dev nD) : outs m 6 r c = outsB m 6 r c := rfl
theorem outsB_at4 (r : Ref sig .tc) (c : Dev nD) : outsB m 4 r c = outsA m 4 r c := rfl
theorem outsB_at6 (r : Ref sig .tc) (c : Dev nD) : outsB m 6 r c =
    Function.update (β := fun r : Ref sig .tc => Buf (Elt F) ((c : Thread nD τ).loc r))
      (Function.update (β := fun r : Ref sig .tc => Buf (Elt F) ((c : Thread nD τ).loc r)) (launchAt m c) main_v55_0 (o6_0 m c)) main_v55_1 (o6_1 m c) r := rfl
theorem outs_at8 (r : Ref sig .tc) (c : Dev nD) : outs m 8 r c =
    Function.update (β := fun r : Ref sig .tc => Buf (Elt F) ((c : Thread nD τ).loc r)) (launchAt m c) main_v72 (o8 m c) r := rfl
theorem outsA_at (n : ℕ) (r : Ref sig .tc) (c : Dev nD) : outsA m n r c =
    Function.update (β := fun r : Ref sig .tc => Buf (Elt F) ((c : Thread nD τ).loc r)) (launchAt m c) main_v33 (o4 m c) r := rfl

/-- A later stage does not change what an earlier valuation reads: the valuation after region 0 reads the unknowns
    at item 4 only, the one after region 1 at items 4 and 6 only. -/
theorem V4_outs (c : Dev nD) : Gen.V4 m (outs m) c = Gen.V4 m (outsA m) c :=
  congrArg (fun x => Function.update (Gen.V3 m c) (Proc.devRef .tc main_v33) x) (outs_at4 m main_v33 c)
theorem V5_outs (c : Dev nD) : Gen.V5 m (outs m) c = Gen.V5 m (outsA m) c :=
  congrArg (fun W => StableHlo.after hostOps1 W) (V4_outs m c)
theorem V4_outsB (c : Dev nD) : Gen.V4 m (outsB m) c = Gen.V4 m (outsA m) c :=
  congrArg (fun x => Function.update (Gen.V3 m c) (Proc.devRef .tc main_v33) x) (outsB_at4 m main_v33 c)
theorem V5_outsB (c : Dev nD) : Gen.V5 m (outsB m) c = Gen.V5 m (outsA m) c :=
  congrArg (fun W => StableHlo.after hostOps1 W) (V4_outsB m c)
theorem V6_outs (c : Dev nD) : Gen.V6 m (outs m) c = Gen.V6 m (outsB m) c := by
  show Function.update (Function.update (Gen.V5 m (outs m) c) (Proc.devRef .tc main_v55_0) (outs m 6 main_v55_0 c)) (Proc.devRef .tc main_v55_1) (outs m 6 main_v55_1 c)
    = Function.update (Function.update (Gen.V5 m (outsB m) c) (Proc.devRef .tc main_v55_0) (outsB m 6 main_v55_0 c)) (Proc.devRef .tc main_v55_1) (outsB m 6 main_v55_1 c)
  rw [V5_outs, V5_outsB, outs_at6, outs_at6]
theorem V7_outs (c : Dev nD) : Gen.V7 m (outs m) c = Gen.V7 m (outsB m) c :=
  congrArg (fun W => StableHlo.after hostOps2 W) (V6_outs m c)

/-- The entry valuations of regions 1 and 2 and the three exit valuations, at the TensorCore's references. -/
abbrev Win1 : (c : Dev nD) → (b : Ref sig .tc) → Buf (Elt F) ((c : Thread nD τ).loc b) := fun c b => Gen.V5 m (outs m) c b
abbrev Win2 : (c : Dev nD) → (b : Ref sig .tc) → Buf (Elt F) ((c : Thread nD τ).loc b) := fun c b => Gen.V7 m (outs m) c b
abbrev Wout0 : (c : Dev nD) → (b : Ref sig .tc) → Buf (Elt F) ((c : Thread nD τ).loc b) := fun c b => Gen.V4 m (outs m) c b
abbrev Wout1 : (c : Dev nD) → (b : Ref sig .tc) → Buf (Elt F) ((c : Thread nD τ).loc b) := fun c b => Gen.V6 m (outs m) c b
abbrev Wout2 : (c : Dev nD) → (b : Ref sig .tc) → Buf (Elt F) ((c : Thread nD τ).loc b) := fun c b => Gen.V8 m (outs m) c b

theorem Win1_eq : Win1 m = Win1A m :=
  funext fun c => funext fun b => congrFun (V5_outs m c) (Proc.devRef .tc b)
theorem Win2_eq : Win2 m = Win2B m :=
  funext fun c => funext fun b => congrFun (V7_outs m c) (Proc.devRef .tc b)

/-- The chosen contents, as equations over the final choice: each output array holds what its pipeline's write-backs
    fold to from the region's entry valuation. -/
theorem outs_4 (c : Dev nD) : outs m 4 main_v33 c = (dat0 (Win0 m) c).arrAt 2 cfg0.N := by
  rw [outs_at4, outsA_at, Function.update_self]; rfl
theorem outs_6_0 (c : Dev nD) : outs m 6 main_v55_0 c = (dat1 (Win1 m) c).arrAt 8 cfg1.N := by
  rw [outs_at6, outsB_at6, Function.update_of_ne (by decide), Function.update_self, Win1_eq]; rfl
theorem outs_6_1 (c : Dev nD) : outs m 6 main_v55_1 c = (dat1 (Win1 m) c).arrAt 9 cfg1.N := by
  rw [outs_at6, outsB_at6, Function.update_self, Win1_eq]; rfl
theorem outs_8 (c : Dev nD) : outs m 8 main_v72 c = (dat2 (Win2 m) c).arrAt 2 cfg2.N := by
  rw [outs_at8, Function.update_self, Win2_eq]; rfl

/-! ## Each region's arrays at its exit valuation, and the rest untouched -/

-- An input array is never written back, so it ends at the entry valuation, which the exit valuation keeps off the
-- region's outputs; an output array ends at the chosen contents, which is what the exit valuation holds there.
theorem hF0_0 (c : Dev nD) : (dat0 (Win0 m) c).arrAt 0 cfg0.N = Wout0 m c (Pipeline.arrRef spec0 0) :=
  ((dat0 (Win0 m) c).arrAt_in 0 rfl _).trans ((A_eq0 (Win0 m) c 0).trans (Gen.V4_of m (outs m) c main_arg0 (by decide)).symm)
theorem hF0_1 (c : Dev nD) : (dat0 (Win0 m) c).arrAt 1 cfg0.N = Wout0 m c (Pipeline.arrRef spec0 1) :=
  ((dat0 (Win0 m) c).arrAt_in 1 rfl _).trans ((A_eq0 (Win0 m) c 1).trans (Gen.V4_of m (outs m) c main_v32 (by decide)).symm)
theorem hF0_2 (c : Dev nD) : (dat0 (Win0 m) c).arrAt 2 cfg0.N = Wout0 m c (Pipeline.arrRef spec0 2) := by
  rw [← outs_4]
  exact (Function.update_self (β := fun b : DevRef τ sig => BufTy.Contents (Elt F) b.ty) (Proc.devRef .tc main_v33) (outs m 4 main_v33 c) (Gen.V3 m c)).symm
theorem hF0 (c : Dev nD) : ∀ w : Fin 3, (dat0 (Win0 m) c).arrAt w cfg0.N = Wout0 m c (Pipeline.arrRef spec0 w) := fun
  | 0 => hF0_0 m c
  | 1 => hF0_1 m c
  | 2 => hF0_2 m c
  | ⟨_ + 3, h⟩ => absurd h (Nat.not_lt.2 (Nat.le_add_left _ _))
theorem hrest0 (c : Dev nD) : ∀ b, b ∉ Finset.univ.image (Pipeline.arrRef spec0) → Wout0 m c b = Win0 m c b :=
  fun b hb => Gen.V4_of m (outs m) c b fun h => by
    simp only [List.mem_cons, List.mem_nil_iff, or_false] at h
    subst h
    exact hb (Finset.mem_image.mpr ⟨2, Finset.mem_univ _, rfl⟩)

theorem hF1_0 (c : Dev nD) : (dat1 (Win1 m) c).arrAt 0 cfg1.N = Wout1 m c (Pipeline.arrRef spec1 0) :=
  ((dat1 (Win1 m) c).arrAt_in 0 rfl _).trans ((A_eq1 (Win1 m) c 0).trans (Gen.V6_of m (outs m) c main_v33 (by decide)).symm)
theorem hF1_1 (c : Dev nD) : (dat1 (Win1 m) c).arrAt 1 cfg1.N = Wout1 m c (Pipeline.arrRef spec1 1) :=
  ((dat1 (Win1 m) c).arrAt_in 1 rfl _).trans ((A_eq1 (Win1 m) c 1).trans (Gen.V6_of m (outs m) c main_v49 (by decide)).symm)
theorem hF1_2 (c : Dev nD) : (dat1 (Win1 m) c).arrAt 2 cfg1.N = Wout1 m c (Pipeline.arrRef spec1 2) :=
  ((dat1 (Win1 m) c).arrAt_in 2 rfl _).trans ((A_eq1 (Win1 m) c 2).trans (Gen.V6_of m (outs m) c main_v50 (by decide)).symm)
theorem hF1_3 (c : Dev nD) : (dat1 (Win1 m) c).arrAt 3 cfg1.N = Wout1 m c (Pipeline.arrRef spec1 3) :=
  ((dat1 (Win1 m) c).arrAt_in 3 rfl _).trans ((A_eq1 (Win1 m) c 3).trans (Gen.V6_of m (outs m) c main_v51 (by decide)).symm)
theorem hF1_4 (c : Dev nD) : (dat1 (Win1 m) c).arrAt 4 cfg1.N = Wout1 m c (Pipeline.arrRef spec1 4) :=
  ((dat1 (Win1 m) c).arrAt_in 4 rfl _).trans ((A_eq1 (Win1 m) c 4).trans (Gen.V6_of m (outs m) c main_v52 (by decide)).symm)
theorem hF1_5 (c : Dev nD) : (dat1 (Win1 m) c).arrAt 5 cfg1.N = Wout1 m c (Pipeline.arrRef spec1 5) :=
  ((dat1 (Win1 m) c).arrAt_in 5 rfl _).trans ((A_eq1 (Win1 m) c 5).trans (Gen.V6_of m (outs m) c main_v53 (by decide)).symm)
theorem hF1_6 (c : Dev nD) : (dat1 (Win1 m) c).arrAt 6 cfg1.N = Wout1 m c (Pipeline.arrRef spec1 6) :=
  ((dat1 (Win1 m) c).arrAt_in 6 rfl _).trans ((A_eq1 (Win1 m) c 6).trans (Gen.V6_of m (outs m) c main_v54 (by decide)).symm)
theorem hF1_7 (c : Dev nD) : (dat1 (Win1 m) c).arrAt 7 cfg1.N = Wout1 m c (Pipeline.arrRef spec1 7) :=
  ((dat1 (Win1 m) c).arrAt_in 7 rfl _).trans ((A_eq1 (Win1 m) c 7).trans (Gen.V6_of m (outs m) c main_arg5 (by decide)).symm)
theorem hF1_8 (c : Dev nD) : (dat1 (Win1 m) c).arrAt 8 cfg1.N = Wout1 m c (Pipeline.arrRef spec1 8) := by
  rw [← outs_6_0]
  exact ((Function.update_of_ne (β := fun b : DevRef τ sig => BufTy.Contents (Elt F) b.ty) (StableHlo.devRef_ne_of_ne (by decide) : (Proc.devRef .tc main_v55_0 : DevRef τ sig) ≠ Proc.devRef .tc main_v55_1) (outs m 6 main_v55_1 c) _).trans
    (Function.update_self (β := fun b : DevRef τ sig => BufTy.Contents (Elt F) b.ty) (Proc.devRef .tc main_v55_0) (outs m 6 main_v55_0 c) (Gen.V5 m (outs m) c))).symm
theorem hF1_9 (c : Dev nD) : (dat1 (Win1 m) c).arrAt 9 cfg1.N = Wout1 m c (Pipeline.arrRef spec1 9) := by
  rw [← outs_6_1]
  exact (Function.update_self (β := fun b : DevRef τ sig => BufTy.Contents (Elt F) b.ty) (Proc.devRef .tc main_v55_1) (outs m 6 main_v55_1 c) _).symm
theorem hF1 (c : Dev nD) : ∀ w : Fin 10, (dat1 (Win1 m) c).arrAt w cfg1.N = Wout1 m c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => hF1_8 m c
  | 9 => hF1_9 m c
  | ⟨_ + 10, h⟩ => absurd h (Nat.not_lt.2 (Nat.le_add_left _ _))
theorem hrest1 (c : Dev nD) : ∀ b, b ∉ Finset.univ.image (Pipeline.arrRef spec1) → Wout1 m c b = Win1 m c b :=
  fun b hb => Gen.V6_of m (outs m) c b fun h => by
    simp only [List.mem_cons, List.mem_nil_iff, or_false] at h
    rcases h with rfl | rfl
    · exact hb (Finset.mem_image.mpr ⟨8, Finset.mem_univ _, rfl⟩)
    · exact hb (Finset.mem_image.mpr ⟨9, Finset.mem_univ _, rfl⟩)

theorem hF2_0 (c : Dev nD) : (dat2 (Win2 m) c).arrAt 0 cfg2.N = Wout2 m c (Pipeline.arrRef spec2 0) :=
  ((dat2 (Win2 m) c).arrAt_in 0 rfl _).trans ((A_eq2 (Win2 m) c 0).trans (Gen.V8_of m (outs m) c main_v70 (by decide)).symm)
theorem hF2_1 (c : Dev nD) : (dat2 (Win2 m) c).arrAt 1 cfg2.N = Wout2 m c (Pipeline.arrRef spec2 1) :=
  ((dat2 (Win2 m) c).arrAt_in 1 rfl _).trans ((A_eq2 (Win2 m) c 1).trans (Gen.V8_of m (outs m) c main_v71 (by decide)).symm)
theorem hF2_2 (c : Dev nD) : (dat2 (Win2 m) c).arrAt 2 cfg2.N = Wout2 m c (Pipeline.arrRef spec2 2) := by
  rw [← outs_8]
  exact (Function.update_self (β := fun b : DevRef τ sig => BufTy.Contents (Elt F) b.ty) (Proc.devRef .tc main_v72) (outs m 8 main_v72 c) (Gen.V7 m (outs m) c)).symm
theorem hF2 (c : Dev nD) : ∀ w : Fin 3, (dat2 (Win2 m) c).arrAt w cfg2.N = Wout2 m c (Pipeline.arrRef spec2 w) := fun
  | 0 => hF2_0 m c
  | 1 => hF2_1 m c
  | 2 => hF2_2 m c
  | ⟨_ + 3, h⟩ => absurd h (Nat.not_lt.2 (Nat.le_add_left _ _))
theorem hrest2 (c : Dev nD) : ∀ b, b ∉ Finset.univ.image (Pipeline.arrRef spec2) → Wout2 m c b = Win2 m c b :=
  fun b hb => Gen.V8_of m (outs m) c b fun h => by
    simp only [List.mem_cons, List.mem_nil_iff, or_false] at h
    subst h
    exact hb (Finset.mem_image.mpr ⟨2, Finset.mem_univ _, rfl⟩)

/-! ## The proof data family and the thread state -/

/-- Every pipeline's proof data, each at its region's entry valuation: a literal match, so that at a numeral it
    reduces to the region's own. -/
def pdats : (p : Fin 3) → (c : Dev nD) → Dat τ (Elt F) Unit ℕ (UR sig nD τ) ℕ (cfgs p) c
  | ⟨0, _⟩ => fun c => dat0 (Win0 m) c
  | ⟨1, _⟩ => fun c => dat1 (Win1 m) c
  | ⟨2, _⟩ => fun c => dat2 (Win2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between any two items: the core's generator register at some state and its dues,
    which are none. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-- The rest state ends owing nothing: the dues are its second half. -/
theorem hR_owes (c : Dev nD) : R (F := F) c ⊢ (iprop(∃ W, owes (c : Thread nD τ) (0 : CellTallies nD τ sig Unit) W) : sProp 𝕄) := by
  iintro ⟨-, HO⟩; iexact HO

/-! ## The regions as segments -/

-- the library's entry and exit lemmas are stated over a pinned configuration; unifying them with the printed one
-- takes unfolding plain definitions inside a metavariable's type
set_option backward.isDefEq.respectTransparency.types false in
/-- Region 0 as a segment over the thread state: entered holding every unscoped buffer at `Gen.V3`, left holding
    them at `Gen.V4`. On entry its arrays are split off the unscoped buffers and the generator register goes into
    the pipeline's invariant; on exit the arrays, at what the write-backs leave, rejoin the untouched rest at the exit
    valuation, and the register comes back. Nothing is owed throughout and the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Win0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Win0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Win0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Win0 m c) (Wout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over a pinned configuration; unifying them with the printed one
-- takes unfolding plain definitions inside a metavariable's type
set_option backward.isDefEq.respectTransparency.types false in
/-- Region 1 as a segment over the thread state: entered holding every unscoped buffer at `Gen.V5`, left holding
    them at `Gen.V6`. On entry its arrays are split off the unscoped buffers and the generator register goes into
    the pipeline's invariant; on exit the arrays, at what the write-backs leave, rejoin the untouched rest at the exit
    valuation, and the register comes back. Nothing is owed throughout and the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Win1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Win1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Win1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Win1 m c) (Wout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over a pinned configuration; unifying them with the printed one
-- takes unfolding plain definitions inside a metavariable's type
set_option backward.isDefEq.respectTransparency.types false in
/-- Region 2 as a segment over the thread state: entered holding every unscoped buffer at `Gen.V7`, left holding
    them at `Gen.V8`. On entry its arrays are split off the unscoped buffers and the generator register goes into
    the pipeline's invariant; on exit the arrays, at what the write-backs leave, rejoin the untouched rest at the exit
    valuation, and the register comes back. Nothing is owed throughout and the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Win2 m) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Win2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Win2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Win2 m c) (Wout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the conditional frame's implicit arguments are found by unifying its conclusion with this one, through pinned
-- configurations
set_option backward.isDefEq.respectTransparency.types false in
/-- THE FRAME, at any `F`: from any memory with zero counters every weakly fair execution of @main terminates and every
    final memory holds each argument array as launched. The conditional frame, at the three segment records above;
    the rest state is made at launch from the generator register and the empty dues, and ends owing nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE3 := hR_owes)
    (reg0 m) (fun _ => .rfl) (fun _ => .rfl)
    (reg1 m) (fun _ => .rfl) (fun _ => .rfl)
    (reg2 m) (fun _ => .rfl) (fun _ => .rfl)

set_option backward.isDefEq.respectTransparency.types false in
/-- THE RUN, NAMED: the same launch over the same segments, read at every unscoped buffer instead of at the arguments
    only — every final memory holds, at each unscoped TensorCore buffer of each core, the last valuation `Gen.V8` at
    the chosen contents. -/
theorem run_named (ρ : Dev nD → PrngReg) : θ_run defs (onTc (τ := τ) (main (F := F))) ⟨m, fun _ => 0, ρ⟩ (fun r => ∀ (c : Dev nD),
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (hR_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := (fun c s => ∀ b ∈ Pipeline.ucRefs τ sig, s.mem (((c : Thread nD τ)).1, b) = Gen.V8 m (outs m) c b))
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

end Cert.Kernel.Regs

end
-- ==== Proof.KernelIdealRegion0.lean ====
/- REGION 0 of @main: the first kernel call. At each of the 25 grid points the body multiplies a 2000×128 block of
   rows (window 0) by a resident 128×320 matrix (window 1), both rounded to bf16, accumulating in f32 from zero,
   and stores the 2000×320 product over the whole staging buffer of window 2. Stated at an arbitrary entry
   valuation `V`: the windows' blocks, the buffer the body leaves, the body's triple, the pipeline's proof data and
   its body obligation. -/
import proofs.«173817_j3994319585552_2_alg».proof.Proof.Gen.KernelIdeal.Launch
import proofs.«173817_j3994319585552_2_alg».proof.Proof.Gen.KernelIdeal.Skeleton
import proofs.«173817_j3994319585552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds, at every grid point, the block of its array that the point addresses,
    whether the pipeline fetched at that point or kept the buffer from the point before (then the block index did
    not move): for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds, at every grid point, the block of its array that the point addresses,
    whether the pipeline fetched at that point or kept the buffer from the point before (then the block index did
    not move): for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole staging buffer -/

abbrev r0_0 : Rect S2000x128 := Rect.unit (s := S2000x128) ![0, 0] S2000x128.size inb_S2000x128_S2000x128_0_0
abbrev r0_1 : Rect S128x320 := Rect.unit (s := S128x320) ![0, 0] S128x320.size inb_S128x320_S128x320_0_0
abbrev r0_2 : Rect S2000x320 := Rect.unit (s := S2000x320) ![0, 0] S2000x320.size inb_S2000x320_S2000x320_0_0

/-! ## What the body leaves in the output window's buffer -/

/-- Window 2's staging buffer after the body, as a function of the two input blocks: one store, of the product,
    over the whole buffer. What the buffer held before is read by the body and discarded. -/
def out0_2 (x0 : Vec F S2000x128 .f32) (x1 : Vec F S128x320 .f32) : Vec F S2000x320 .f32 :=
  View.canon [⟨r0_2, k0_pay1 (View.ld x0 r0_0) (View.ld x1 r0_1)⟩]

/-- The single store covers the buffer. -/
theorem cover0_2 (p0 : Vec F S2000x320 .f32) (y : S2000x320.Idx) :
    ∃ pc ∈ ([⟨r0_2, p0⟩] : List (View.Piece (Elt F) S2000x320 .f32)), y ∈ pc.1.set :=
  View.cover_of_tiled [⟨r0_2, p0⟩] S2000x320.size (by rfl) y

/-! ## The body's triple -/

set_option maxHeartbeats 1000000 in
/-- On whole staging memrefs, the inputs holding `x0`, `x1` and the output holding anything, the body runs to a state
    where the inputs are unchanged and the output holds `out0_2 x0 x1`, at every grid coordinate. -/
theorem sound_kernel0 (c : Dev nD) (E : Set ℕ) (i : grid0.Coords) (arg1 : Memref sig .tc .vmem S2000x128 .f32) (harg1 : arg1.IsWhole)
    (arg2 : Memref sig .tc .vmem S128x320 .f32) (harg2 : arg2.IsWhole) (arg3 : Memref sig .tc .vmem S2000x320 .f32) (harg3 : arg3.IsWhole)
    (x0 : Vec F S2000x128 .f32) (x1 : Vec F S128x320 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input buffer still at its block and the output buffer at `out0_2` of the two input blocks; the invariant is the
    untouched scoped rest and generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.KernelIdealRegion1.lean ====
/- REGION 1 of @main: the second kernel call. At each of the 25 grid points the body reads a 2000×192 block (window 1)
   whose first 128 columns, plus a resident bias row (window 2), clamped below at zero, are one candidate; whose last
   64 columns, plus a bias row (window 3), clamped, weighted by a row (window 5), summed along each row, shifted by a
   scalar (window 6) and passed through the logistic function, give a gate per row; and reads columns 192..319 of a
   2000×320 block (window 0), plus a bias row (window 4), as the other candidate. It stores the gated mixture of the
   two candidates, rounded to bf16 and multiplied by a resident 128×128 matrix (window 7), over the whole staging
   buffer of window 8, and the gate over the whole staging buffer of window 9. Stated at an arbitrary entry valuation
   `V`: the windows' blocks, the buffers the body leaves, the body's triple, the pipeline's proof data and its body
   obligation. -/
import proofs.«173817_j3994319585552_2_alg».proof.Proof.Gen.KernelIdeal.Launch
import proofs.«173817_j3994319585552_2_alg».proof.Proof.Gen.KernelIdeal.Skeleton
import proofs.«173817_j3994319585552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds, at every grid point, the block of its array that the point addresses,
    whether the pipeline fetched at that point or kept the buffer from the point before (then the block index did
    not move): for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds, at every grid point, the block of its array that the point addresses,
    whether the pipeline fetched at that point or kept the buffer from the point before (then the block index did
    not move): for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: whole staging buffers, but for the read of columns 192..319 of
    window 0's buffer -/

abbrev r1_0s : Rect S2000x320 := Rect.unit (s := S2000x320) ![0, 192] S2000x128.size inb_S2000x320_S2000x128_0_192
abbrev r1_1 : Rect S2000x192 := Rect.unit (s := S2000x192) ![0, 0] S2000x192.size inb_S2000x192_S2000x192_0_0
abbrev r1_2 : Rect S1x128 := Rect.unit (s := S1x128) ![0, 0] S1x128.size inb_S1x128_S1x128_0_0
abbrev r1_3 : Rect S1x64 := Rect.unit (s := S1x64) ![0, 0] S1x64.size inb_S1x64_S1x64_0_0
abbrev r1_4 : Rect S1x128 := Rect.unit (s := S1x128) ![0, 0] S1x128.size inb_S1x128_S1x128_0_0
abbrev r1_5 : Rect S1x64 := Rect.unit (s := S1x64) ![0, 0] S1x64.size inb_S1x64_S1x64_0_0
abbrev r1_6 : Rect S1x1 := Rect.unit (s := S1x1) ![0, 0] S1x1.size inb_S1x1_S1x1_0_0
abbrev r1_7 : Rect S128x128 := Rect.unit (s := S128x128) ![0, 0] S128x128.size inb_S128x128_S128x128_0_0
abbrev r1_8 : Rect S2000x128 := Rect.unit (s := S2000x128) ![0, 0] S2000x128.size inb_S2000x128_S2000x128_0_0
abbrev r1_9 : Rect S2000x1 := Rect.unit (s := S2000x1) ![0, 0] S2000x1.size inb_S2000x1_S2000x1_0_0

/-! ## What the body leaves in the output windows' buffers -/

/-- Window 8's staging buffer after the body, as a function of the eight input blocks: one store, of the product of
    the gated mixture by the resident matrix, over the whole buffer. -/
def out1_8 (x0 : Vec F S2000x320 .f32) (x1 : Vec F S2000x192 .f32) (x2 : Vec F S1x128 .f32) (x3 : Vec F S1x64 .f32) (x4 : Vec F S1x128 .f32) (x5 : Vec F S1x64 .f32) (x6 : Vec F S1x1 .f32) (x7 : Vec F S128x128 .f32) : Vec F S2000x128 .f32 :=
  View.canon [⟨r1_8, k1_pay1 (k1_pay3 (View.ld x1 r1_1) (View.ld x2 r1_2))
    (k1_pay4 (View.ld x1 r1_1) (View.ld x3 r1_3) (View.ld x5 r1_5) (View.ld x6 r1_6))
    (k1_pay5 (View.ld x0 r1_0s) (View.ld x4 r1_4)) (View.ld x7 r1_7)⟩]

/-- Window 9's staging buffer after the body: one store, of the gate, over the whole buffer. -/
def out1_9 (x1 : Vec F S2000x192 .f32) (x3 : Vec F S1x64 .f32) (x5 : Vec F S1x64 .f32) (x6 : Vec F S1x1 .f32) : Vec F S2000x1 .f32 :=
  View.canon [⟨r1_9, k1_pay4 (View.ld x1 r1_1) (View.ld x3 r1_3) (View.ld x5 r1_5) (View.ld x6 r1_6)⟩]

/-- Each single store covers its buffer. -/
theorem cover1_8 (p0 : Vec F S2000x128 .f32) (y : S2000x128.Idx) :
    ∃ pc ∈ ([⟨r1_8, p0⟩] : List (View.Piece (Elt F) S2000x128 .f32)), y ∈ pc.1.set :=
  View.cover_of_tiled [⟨r1_8, p0⟩] S2000x128.size (by rfl) y
theorem cover1_9 (p0 : Vec F S2000x1 .f32) (y : S2000x1.Idx) :
    ∃ pc ∈ ([⟨r1_9, p0⟩] : List (View.Piece (Elt F) S2000x1 .f32)), y ∈ pc.1.set :=
  View.cover_of_tiled [⟨r1_9, p0⟩] S2000x1.size (by rfl) y

/-! ## The body's triple -/

set_option maxHeartbeats 4000000 in
/-- On whole staging memrefs, the inputs holding `x0`..`x7` and the outputs holding anything, the body runs, through
    the part that computes the two candidates and the gate, to a state where the inputs are unchanged and the outputs
    hold `out1_8` and `out1_9` of the inputs, at every grid coordinate. -/
theorem sound_kernel1 (c : Dev nD) (E : Set ℕ) (i : grid1.Coords)
    (arg1 : Memref sig .tc .vmem S2000x320 .f32) (harg1 : arg1.IsWhole)
    (arg2 : Memref sig .tc .vmem S2000x192 .f32) (harg2 : arg2.IsWhole)
    (arg3 : Memref sig .tc .vmem S1x128 .f32) (harg3 : arg3.IsWhole)
    (arg4 : Memref sig .tc .vmem S1x64 .f32) (harg4 : arg4.IsWhole)
    (arg5 : Memref sig .tc .vmem S1x128 .f32) (harg5 : arg5.IsWhole)
    (arg6 : Memref sig .tc .vmem S1x64 .f32) (harg6 : arg6.IsWhole)
    (arg7 : Memref sig .tc .vmem S1x1 .f32) (harg7 : arg7.IsWhole)
    (arg8 : Memref sig .tc .vmem S128x128 .f32) (harg8 : arg8.IsWhole)
    (arg9 : Memref sig .tc .vmem S2000x128 .f32) (harg9 : arg9.IsWhole)
    (arg10 : Memref sig .tc .vmem S2000x1 .f32) (harg10 : arg10.IsWhole)
    (x0 : Vec F S2000x320 .f32) (x1 : Vec F S2000x192 .f32) (x2 : Vec F S1x128 .f32) (x3 : Vec F S1x64 .f32) (x4 : Vec F S1x128 .f32) (x5 : Vec F S1x64 .f32) (x6 : Vec F S1x1 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x1 x3 x5 x6)) -∗ K ⟨⟩))
      ⊢ wp frame (wpE (defs₀ (F := F)) Variants.none c none) E (cc1__kernel i arg1 harg1 arg2 harg2 arg3 harg3 arg4 harg4 arg5 harg5 arg6 harg6 arg7 harg7 arg8 harg8 arg9 harg9 arg10 harg10) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- The proof data of pipeline 1 on core `c`: the arrays as the region finds them; after the body at point `t` each
    input buffer still at its block and the two output buffers at `out1_8`, `out1_9` of the input blocks; the
    invariant is the untouched scoped rest and generator register; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 1 t) (iblk1 V c 3 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 1 t) (iblk1 V c 3 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the input memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.KernelIdealRegion2.lean ====
/- REGION 2 of @main: the third kernel call. At each of the 25 grid points the body adds a resident 1×128 bias row
   (window 1), broadcast down the rows, to a 2000×128 block (window 0), clamps below at zero, and stores the result
   over the whole staging buffer of window 2. Stated at an arbitrary entry valuation `V`: the windows' blocks, the
   buffer the body leaves, the body's triple, the pipeline's proof data and its body obligation. -/
import proofs.«173817_j3994319585552_2_alg».proof.Proof.Gen.KernelIdeal.Launch
import proofs.«173817_j3994319585552_2_alg».proof.Proof.Gen.KernelIdeal.Skeleton
import proofs.«173817_j3994319585552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided structurally, one step per row
set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! ## The windows' blocks -/

/-- The block of window `w`'s array that grid point `t` addresses, read off the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds, at every grid point, the block of its array that the point addresses,
    whether the pipeline fetched at that point or kept the buffer from the point before (then the block index did
    not move): for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds, at every grid point, the block of its array that the point addresses,
    whether the pipeline fetched at that point or kept the buffer from the point before (then the block index did
    not move): for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole staging buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S2000x128 := Rect.unit (s := S2000x128) ![0, 0] S2000x128.size inb_S2000x128_S2000x128_0_0

/-! ## What the body leaves in the output window's buffer -/

/-- Window 2's staging buffer after the body, as a function of the two input blocks: one store, of the clamped sum,
    over the whole buffer. What the buffer held before is read by the body and discarded. -/
def out2_2 (x0 : Vec F S2000x128 .f32) (x1 : Vec F S1x128 .f32) : Vec F S2000x128 .f32 :=
  View.canon [⟨r2_2, k2_pay1 (View.ld x0 r2_0) (View.ld x1 r2_1)⟩]

/-- The single store covers the buffer. -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- On whole staging memrefs, the inputs holding `x0`, `x1` and the output holding anything, the body runs to a state
    where the inputs are unchanged and the output holds `out2_2 x0 x1`, at every grid coordinate. -/
theorem sound_kernel2 (c : Dev nD) (E : Set ℕ) (i : grid2.Coords) (arg1 : Memref sig .tc .vmem S2000x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input buffer still at its block and the output buffer at `out2_2` of the two input blocks; the invariant is the
    untouched scoped rest and generator register; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regs

end
-- ==== Proof.KernelIdealRun.lean ====
/- THE RUN of @main over its three kernel regions. The valuations between @main's items (Gen.V0 … Gen.V8) are written
   over unknown contents `outs` that the regions leave in their output arrays; here those unknowns are chosen: each
   output array ends at what its pipeline's write-backs fold to, from the region's entry valuation. The choice is made
   in stages, because each region's entry valuation depends only on the outputs of the regions before it. With that
   choice each region is a segment from the valuation before it to the valuation after it, the conditional frame
   applies, and the same launch read at every unscoped buffer says the final memory is `Gen.V8`. -/
import proofs.«173817_j3994319585552_2_alg».proof.Proof.Gen.KernelIdeal.Regions
import proofs.«173817_j3994319585552_2_alg».proof.Proof.KernelIdealRegion0
import proofs.«173817_j3994319585552_2_alg».proof.Proof.KernelIdealRegion1
import proofs.«173817_j3994319585552_2_alg».proof.Proof.KernelIdealRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, chosen in stages -/

/-- Core `c`'s launch contents at a TensorCore reference: the default for every unknown that no valuation reads. -/
abbrev launchAt (c : Dev nD) : (r : Ref sig .tc) → Buf (Elt F) ((c : Thread nD τ).loc r) := fun r => m ((c : Thread nD τ).loc r)

/-- Region 0's entry valuation at the TensorCore's references: it depends on no unknown. -/
abbrev Win0 : (c : Dev nD) → (b : Ref sig .tc) → Buf (Elt F) ((c : Thread nD τ).loc b) := fun c b => Gen.V3 m c b
/-- What region 0's write-backs leave in its output array. -/
def o4 (c : Dev nD) : Buf (Elt F) ((c : Thread nD τ).loc main_v33) := (dat0 (Win0 m) c).arrAt 2 cfg0.N
/-- First stage: only region 0's output is chosen. -/
def outsA : Gen.Outs (F := F) := fun _ r c =>
  Function.update (β := fun r : Ref sig .tc => Buf (Elt F) ((c : Thread nD τ).loc r)) (launchAt m c) main_v33 (o4 m c) r

/-- Region 1's entry valuation over the first stage. -/
abbrev Win1A : (c : Dev nD) → (b : Ref sig .tc) → Buf (Elt F) ((c : Thread nD τ).loc b) := fun c b => Gen.V5 m (outsA m) c b
/-- What region 1's write-backs leave in its two output arrays, from that entry valuation. -/
def o6_0 (c : Dev nD) : Buf (Elt F) ((c : Thread nD τ).loc main_v55_0) := (dat1 (Win1A m) c).arrAt 8 cfg1.N
def o6_1 (c : Dev nD) : Buf (Elt F) ((c : Thread nD τ).loc main_v55_1) := (dat1 (Win1A m) c).arrAt 9 cfg1.N
/-- Second stage: regions 0 and 1. -/
def outsB : Gen.Outs (F := F) := fun n r c => match n with
  | 4 => outsA m 4 r c
  | _ => Function.update (β := fun r : Ref sig .tc => Buf (Elt F) ((c : Thread nD τ).loc r))
      (Function.update (β := fun r : Ref sig .tc => Buf (Elt F) ((c : Thread nD τ).loc r)) (launchAt m c) main_v55_0 (o6_0 m c)) main_v55_1 (o6_1 m c) r

/-- Region 2's entry valuation over the second stage. -/
abbrev Win2B : (c : Dev nD) → (b : Ref sig .tc) → Buf (Elt F) ((c : Thread nD τ).loc b) := fun c b => Gen.V7 m (outsB m) c b
/-- What region 2's write-backs leave in its output array, from that entry valuation. -/
def o8 (c : Dev nD) : Buf (Elt F) ((c : Thread nD τ).loc main_v72) := (dat2 (Win2B m) c).arrAt 2 cfg2.N
/-- The contents the three regions leave. -/
def outs : Gen.Outs (F := F) := fun n r c => match n with
  | 4 => outsA m 4 r c
  | 6 => outsB m 6 r c
  | _ => Function.update (β := fun r : Ref sig .tc => Buf (Elt F) ((c : Thread nD τ).loc r)) (launchAt m c) main_v72 (o8 m c) r

/-- The stages at the item numbers the valuations read them at: the match on the number, reduced. -/
theorem outs_at4 (r : Ref sig .tc) (c : Dev nD) : outs m 4 r c = outsA m 4 r c := rfl
theorem outs_at6 (r : Ref sig .tc) (c : Dev nD) : outs m 6 r c = outsB m 6 r c := rfl
theorem outsB_at4 (r : Ref sig .tc) (c : Dev nD) : outsB m 4 r c = outsA m 4 r c := rfl
theorem outsB_at6 (r : Ref sig .tc) (c : Dev nD) : outsB m 6 r c =
    Function.update (β := fun r : Ref sig .tc => Buf (Elt F) ((c : Thread nD τ).loc r))
      (Function.update (β := fun r : Ref sig .tc => Buf (Elt F) ((c : Thread nD τ).loc r)) (launchAt m c) main_v55_0 (o6_0 m c)) main_v55_1 (o6_1 m c) r := rfl
theorem outs_at8 (r : Ref sig .tc) (c : Dev nD) : outs m 8 r c =
    Function.update (β := fun r : Ref sig .tc => Buf (Elt F) ((c : Thread nD τ).loc r)) (launchAt m c) main_v72 (o8 m c) r := rfl
theorem outsA_at (n : ℕ) (r : Ref sig .tc) (c : Dev nD) : outsA m n r c =
    Function.update (β := fun r : Ref sig .tc => Buf (Elt F) ((c : Thread nD τ).loc r)) (launchAt m c) main_v33 (o4 m c) r := rfl

/-- A later stage does not change what an earlier valuation reads: the valuation after region 0 reads the unknowns
    at item 4 only, the one after region 1 at items 4 and 6 only. -/
theorem V4_outs (c : Dev nD) : Gen.V4 m (outs m) c = Gen.V4 m (outsA m) c :=
  congrArg (fun x => Function.update (Gen.V3 m c) (Proc.devRef .tc main_v33) x) (outs_at4 m main_v33 c)
theorem V5_outs (c : Dev nD) : Gen.V5 m (outs m) c = Gen.V5 m (outsA m) c :=
  congrArg (fun W => StableHlo.after hostOps1 W) (V4_outs m c)
theorem V4_outsB (c : Dev nD) : Gen.V4 m (outsB m) c = Gen.V4 m (outsA m) c :=
  congrArg (fun x => Function.update (Gen.V3 m c) (Proc.devRef .tc main_v33) x) (outsB_at4 m main_v33 c)
theorem V5_outsB (c : Dev nD) : Gen.V5 m (outsB m) c = Gen.V5 m (outsA m) c :=
  congrArg (fun W => StableHlo.after hostOps1 W) (V4_outsB m c)
theorem V6_outs (c : Dev nD) : Gen.V6 m (outs m) c = Gen.V6 m (outsB m) c := by
  show Function.update (Function.update (Gen.V5 m (outs m) c) (Proc.devRef .tc main_v55_0) (outs m 6 main_v55_0 c)) (Proc.devRef .tc main_v55_1) (outs m 6 main_v55_1 c)
    = Function.update (Function.update (Gen.V5 m (outsB m) c) (Proc.devRef .tc main_v55_0) (outsB m 6 main_v55_0 c)) (Proc.devRef .tc main_v55_1) (outsB m 6 main_v55_1 c)
  rw [V5_outs, V5_outsB, outs_at6, outs_at6]
theorem V7_outs (c : Dev nD) : Gen.V7 m (outs m) c = Gen.V7 m (outsB m) c :=
  congrArg (fun W => StableHlo.after hostOps2 W) (V6_outs m c)

/-- The entry valuations of regions 1 and 2 and the three exit valuations, at the TensorCore's references. -/
abbrev Win1 : (c : Dev nD) → (b : Ref sig .tc) → Buf (Elt F) ((c : Thread nD τ).loc b) := fun c b => Gen.V5 m (outs m) c b
abbrev Win2 : (c : Dev nD) → (b : Ref sig .tc) → Buf (Elt F) ((c : Thread nD τ).loc b) := fun c b => Gen.V7 m (outs m) c b
abbrev Wout0 : (c : Dev nD) → (b : Ref sig .tc) → Buf (Elt F) ((c : Thread nD τ).loc b) := fun c b => Gen.V4 m (outs m) c b
abbrev Wout1 : (c : Dev nD) → (b : Ref sig .tc) → Buf (Elt F) ((c : Thread nD τ).loc b) := fun c b => Gen.V6 m (outs m) c b
abbrev Wout2 : (c : Dev nD) → (b : Ref sig .tc) → Buf (Elt F) ((c : Thread nD τ).loc b) := fun c b => Gen.V8 m (outs m) c b

theorem Win1_eq : Win1 m = Win1A m :=
  funext fun c => funext fun b => congrFun (V5_outs m c) (Proc.devRef .tc b)
theorem Win2_eq : Win2 m = Win2B m :=
  funext fun c => funext fun b => congrFun (V7_outs m c) (Proc.devRef .tc b)

/-- The chosen contents, as equations over the final choice: each output array holds what its pipeline's write-backs
    fold to from the region's entry valuation. -/
theorem outs_4 (c : Dev nD) : outs m 4 main_v33 c = (dat0 (Win0 m) c).arrAt 2 cfg0.N := by
  rw [outs_at4, outsA_at, Function.update_self]; rfl
theorem outs_6_0 (c : Dev nD) : outs m 6 main_v55_0 c = (dat1 (Win1 m) c).arrAt 8 cfg1.N := by
  rw [outs_at6, outsB_at6, Function.update_of_ne (by decide), Function.update_self, Win1_eq]; rfl
theorem outs_6_1 (c : Dev nD) : outs m 6 main_v55_1 c = (dat1 (Win1 m) c).arrAt 9 cfg1.N := by
  rw [outs_at6, outsB_at6, Function.update_self, Win1_eq]; rfl
theorem outs_8 (c : Dev nD) : outs m 8 main_v72 c = (dat2 (Win2 m) c).arrAt 2 cfg2.N := by
  rw [outs_at8, Function.update_self, Win2_eq]; rfl

/-! ## Each region's arrays at its exit valuation, and the rest untouched -/

-- An input array is never written back, so it ends at the entry valuation, which the exit valuation keeps off the
-- region's outputs; an output array ends at the chosen contents, which is what the exit valuation holds there.
theorem hF0_0 (c : Dev nD) : (dat0 (Win0 m) c).arrAt 0 cfg0.N = Wout0 m c (Pipeline.arrRef spec0 0) :=
  ((dat0 (Win0 m) c).arrAt_in 0 rfl _).trans ((A_eq0 (Win0 m) c 0).trans (Gen.V4_of m (outs m) c main_arg0 (by decide)).symm)
theorem hF0_1 (c : Dev nD) : (dat0 (Win0 m) c).arrAt 1 cfg0.N = Wout0 m c (Pipeline.arrRef spec0 1) :=
  ((dat0 (Win0 m) c).arrAt_in 1 rfl _).trans ((A_eq0 (Win0 m) c 1).trans (Gen.V4_of m (outs m) c main_v32 (by decide)).symm)
theorem hF0_2 (c : Dev nD) : (dat0 (Win0 m) c).arrAt 2 cfg0.N = Wout0 m c (Pipeline.arrRef spec0 2) := by
  rw [← outs_4]
  exact (Function.update_self (β := fun b : DevRef τ sig => BufTy.Contents (Elt F) b.ty) (Proc.devRef .tc main_v33) (outs m 4 main_v33 c) (Gen.V3 m c)).symm
theorem hF0 (c : Dev nD) : ∀ w : Fin 3, (dat0 (Win0 m) c).arrAt w cfg0.N = Wout0 m c (Pipeline.arrRef spec0 w) := fun
  | 0 => hF0_0 m c
  | 1 => hF0_1 m c
  | 2 => hF0_2 m c
  | ⟨_ + 3, h⟩ => absurd h (Nat.not_lt.2 (Nat.le_add_left _ _))
theorem hrest0 (c : Dev nD) : ∀ b, b ∉ Finset.univ.image (Pipeline.arrRef spec0) → Wout0 m c b = Win0 m c b :=
  fun b hb => Gen.V4_of m (outs m) c b fun h => by
    simp only [List.mem_cons, List.mem_nil_iff, or_false] at h
    subst h
    exact hb (Finset.mem_image.mpr ⟨2, Finset.mem_univ _, rfl⟩)

theorem hF1_0 (c : Dev nD) : (dat1 (Win1 m) c).arrAt 0 cfg1.N = Wout1 m c (Pipeline.arrRef spec1 0) :=
  ((dat1 (Win1 m) c).arrAt_in 0 rfl _).trans ((A_eq1 (Win1 m) c 0).trans (Gen.V6_of m (outs m) c main_v33 (by decide)).symm)
theorem hF1_1 (c : Dev nD) : (dat1 (Win1 m) c).arrAt 1 cfg1.N = Wout1 m c (Pipeline.arrRef spec1 1) :=
  ((dat1 (Win1 m) c).arrAt_in 1 rfl _).trans ((A_eq1 (Win1 m) c 1).trans (Gen.V6_of m (outs m) c main_v49 (by decide)).symm)
theorem hF1_2 (c : Dev nD) : (dat1 (Win1 m) c).arrAt 2 cfg1.N = Wout1 m c (Pipeline.arrRef spec1 2) :=
  ((dat1 (Win1 m) c).arrAt_in 2 rfl _).trans ((A_eq1 (Win1 m) c 2).trans (Gen.V6_of m (outs m) c main_v50 (by decide)).symm)
theorem hF1_3 (c : Dev nD) : (dat1 (Win1 m) c).arrAt 3 cfg1.N = Wout1 m c (Pipeline.arrRef spec1 3) :=
  ((dat1 (Win1 m) c).arrAt_in 3 rfl _).trans ((A_eq1 (Win1 m) c 3).trans (Gen.V6_of m (outs m) c main_v51 (by decide)).symm)
theorem hF1_4 (c : Dev nD) : (dat1 (Win1 m) c).arrAt 4 cfg1.N = Wout1 m c (Pipeline.arrRef spec1 4) :=
  ((dat1 (Win1 m) c).arrAt_in 4 rfl _).trans ((A_eq1 (Win1 m) c 4).trans (Gen.V6_of m (outs m) c main_v52 (by decide)).symm)
theorem hF1_5 (c : Dev nD) : (dat1 (Win1 m) c).arrAt 5 cfg1.N = Wout1 m c (Pipeline.arrRef spec1 5) :=
  ((dat1 (Win1 m) c).arrAt_in 5 rfl _).trans ((A_eq1 (Win1 m) c 5).trans (Gen.V6_of m (outs m) c main_v53 (by decide)).symm)
theorem hF1_6 (c : Dev nD) : (dat1 (Win1 m) c).arrAt 6 cfg1.N = Wout1 m c (Pipeline.arrRef spec1 6) :=
  ((dat1 (Win1 m) c).arrAt_in 6 rfl _).trans ((A_eq1 (Win1 m) c 6).trans (Gen.V6_of m (outs m) c main_v54 (by decide)).symm)
theorem hF1_7 (c : Dev nD) : (dat1 (Win1 m) c).arrAt 7 cfg1.N = Wout1 m c (Pipeline.arrRef spec1 7) :=
  ((dat1 (Win1 m) c).arrAt_in 7 rfl _).trans ((A_eq1 (Win1 m) c 7).trans (Gen.V6_of m (outs m) c main_arg5 (by decide)).symm)
theorem hF1_8 (c : Dev nD) : (dat1 (Win1 m) c).arrAt 8 cfg1.N = Wout1 m c (Pipeline.arrRef spec1 8) := by
  rw [← outs_6_0]
  exact ((Function.update_of_ne (β := fun b : DevRef τ sig => BufTy.Contents (Elt F) b.ty) (StableHlo.devRef_ne_of_ne (by decide) : (Proc.devRef .tc main_v55_0 : DevRef τ sig) ≠ Proc.devRef .tc main_v55_1) (outs m 6 main_v55_1 c) _).trans
    (Function.update_self (β := fun b : DevRef τ sig => BufTy.Contents (Elt F) b.ty) (Proc.devRef .tc main_v55_0) (outs m 6 main_v55_0 c) (Gen.V5 m (outs m) c))).symm
theorem hF1_9 (c : Dev nD) : (dat1 (Win1 m) c).arrAt 9 cfg1.N = Wout1 m c (Pipeline.arrRef spec1 9) := by
  rw [← outs_6_1]
  exact (Function.update_self (β := fun b : DevRef τ sig => BufTy.Contents (Elt F) b.ty) (Proc.devRef .tc main_v55_1) (outs m 6 main_v55_1 c) _).symm
theorem hF1 (c : Dev nD) : ∀ w : Fin 10, (dat1 (Win1 m) c).arrAt w cfg1.N = Wout1 m c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => hF1_8 m c
  | 9 => hF1_9 m c
  | ⟨_ + 10, h⟩ => absurd h (Nat.not_lt.2 (Nat.le_add_left _ _))
theorem hrest1 (c : Dev nD) : ∀ b, b ∉ Finset.univ.image (Pipeline.arrRef spec1) → Wout1 m c b = Win1 m c b :=
  fun b hb => Gen.V6_of m (outs m) c b fun h => by
    simp only [List.mem_cons, List.mem_nil_iff, or_false] at h
    rcases h with rfl | rfl
    · exact hb (Finset.mem_image.mpr ⟨8, Finset.mem_univ _, rfl⟩)
    · exact hb (Finset.mem_image.mpr ⟨9, Finset.mem_univ _, rfl⟩)

theorem hF2_0 (c : Dev nD) : (dat2 (Win2 m) c).arrAt 0 cfg2.N = Wout2 m c (Pipeline.arrRef spec2 0) :=
  ((dat2 (Win2 m) c).arrAt_in 0 rfl _).trans ((A_eq2 (Win2 m) c 0).trans (Gen.V8_of m (outs m) c main_v70 (by decide)).symm)
theorem hF2_1 (c : Dev nD) : (dat2 (Win2 m) c).arrAt 1 cfg2.N = Wout2 m c (Pipeline.arrRef spec2 1) :=
  ((dat2 (Win2 m) c).arrAt_in 1 rfl _).trans ((A_eq2 (Win2 m) c 1).trans (Gen.V8_of m (outs m) c main_v71 (by decide)).symm)
theorem hF2_2 (c : Dev nD) : (dat2 (Win2 m) c).arrAt 2 cfg2.N = Wout2 m c (Pipeline.arrRef spec2 2) := by
  rw [← outs_8]
  exact (Function.update_self (β := fun b : DevRef τ sig => BufTy.Contents (Elt F) b.ty) (Proc.devRef .tc main_v72) (outs m 8 main_v72 c) (Gen.V7 m (outs m) c)).symm
theorem hF2 (c : Dev nD) : ∀ w : Fin 3, (dat2 (Win2 m) c).arrAt w cfg2.N = Wout2 m c (Pipeline.arrRef spec2 w) := fun
  | 0 => hF2_0 m c
  | 1 => hF2_1 m c
  | 2 => hF2_2 m c
  | ⟨_ + 3, h⟩ => absurd h (Nat.not_lt.2 (Nat.le_add_left _ _))
theorem hrest2 (c : Dev nD) : ∀ b, b ∉ Finset.univ.image (Pipeline.arrRef spec2) → Wout2 m c b = Win2 m c b :=
  fun b hb => Gen.V8_of m (outs m) c b fun h => by
    simp only [List.mem_cons, List.mem_nil_iff, or_false] at h
    subst h
    exact hb (Finset.mem_image.mpr ⟨2, Finset.mem_univ _, rfl⟩)

/-! ## The proof data family and the thread state -/

/-- Every pipeline's proof data, each at its region's entry valuation: a literal match, so that at a numeral it
    reduces to the region's own. -/
def pdats : (p : Fin 3) → (c : Dev nD) → Dat τ (Elt F) Unit ℕ (UR sig nD τ) ℕ (cfgs p) c
  | ⟨0, _⟩ => fun c => dat0 (Win0 m) c
  | ⟨1, _⟩ => fun c => dat1 (Win1 m) c
  | ⟨2, _⟩ => fun c => dat2 (Win2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between any two items: the core's generator register at some state and its dues,
    which are none. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-- The rest state ends owing nothing: the dues are its second half. -/
theorem hR_owes (c : Dev nD) : R (F := F) c ⊢ (iprop(∃ W, owes (c : Thread nD τ) (0 : CellTallies nD τ sig Unit) W) : sProp 𝕄) := by
  iintro ⟨-, HO⟩; iexact HO

/-! ## The regions as segments -/

-- the library's entry and exit lemmas are stated over a pinned configuration; unifying them with the printed one
-- takes unfolding plain definitions inside a metavariable's type
set_option backward.isDefEq.respectTransparency.types false in
/-- Region 0 as a segment over the thread state: entered holding every unscoped buffer at `Gen.V3`, left holding
    them at `Gen.V4`. On entry its arrays are split off the unscoped buffers and the generator register goes into
    the pipeline's invariant; on exit the arrays, at what the write-backs leave, rejoin the untouched rest at the exit
    valuation, and the register comes back. Nothing is owed throughout and the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Win0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Win0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Win0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Win0 m c) (Wout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over a pinned configuration; unifying them with the printed one
-- takes unfolding plain definitions inside a metavariable's type
set_option backward.isDefEq.respectTransparency.types false in
/-- Region 1 as a segment over the thread state: entered holding every unscoped buffer at `Gen.V5`, left holding
    them at `Gen.V6`. On entry its arrays are split off the unscoped buffers and the generator register goes into
    the pipeline's invariant; on exit the arrays, at what the write-backs leave, rejoin the untouched rest at the exit
    valuation, and the register comes back. Nothing is owed throughout and the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Win1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Win1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Win1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Win1 m c) (Wout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over a pinned configuration; unifying them with the printed one
-- takes unfolding plain definitions inside a metavariable's type
set_option backward.isDefEq.respectTransparency.types false in
/-- Region 2 as a segment over the thread state: entered holding every unscoped buffer at `Gen.V7`, left holding
    them at `Gen.V8`. On entry its arrays are split off the unscoped buffers and the generator register goes into
    the pipeline's invariant; on exit the arrays, at what the write-backs leave, rejoin the untouched rest at the exit
    valuation, and the register comes back. Nothing is owed throughout and the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Win2 m) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Win2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Win2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Win2 m c) (Wout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the conditional frame's implicit arguments are found by unifying its conclusion with this one, through pinned
-- configurations
set_option backward.isDefEq.respectTransparency.types false in
/-- THE FRAME, at any `F`: from any memory with zero counters every weakly fair execution of @main terminates and every
    final memory holds each argument array as launched. The conditional frame, at the three segment records above;
    the rest state is made at launch from the generator register and the empty dues, and ends owing nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE3 := hR_owes)
    (reg0 m) (fun _ => .rfl) (fun _ => .rfl)
    (reg1 m) (fun _ => .rfl) (fun _ => .rfl)
    (reg2 m) (fun _ => .rfl) (fun _ => .rfl)

set_option backward.isDefEq.respectTransparency.types false in
/-- THE RUN, NAMED: the same launch over the same segments, read at every unscoped buffer instead of at the arguments
    only — every final memory holds, at each unscoped TensorCore buffer of each core, the last valuation `Gen.V8` at
    the chosen contents. -/
theorem run_named (ρ : Dev nD → PrngReg) : θ_run defs (onTc (τ := τ) (main (F := F))) ⟨m, fun _ => 0, ρ⟩ (fun r => ∀ (c : Dev nD),
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (hR_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := (fun c s => ∀ b ∈ Pipeline.ucRefs τ sig, s.mem (((c : Thread nD τ)).1, b) = Gen.V8 m (outs m) c b))
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

end Cert.KernelIdeal.Regs

end
-- ==== Proof.HostVals.lean ====
/-
  What the host lines of the kernel program leave in their buffers before the first product, on the extended reals.

  The edge list with one self-loop per node appended: sources s, destinations d, weights w (the loops' weights are 1);
  deg v = sum of w over the edges into v; dinv = 1 / sqrt deg where deg > 0, else 0;
  norm e = dinv (s e) * w e * dinv (d e), the indices read NumPy-style (a negative index counts from the end).
  These are, operation for operation, the reference program's own lines: each buffer holds the reference's stage
  of the same arguments.  The joined weight matrix is W1, Wl, Ws side by side.
-/
import proofs.«173817_j3994319585552_2_alg».proof.Proof.Gen.KernelIdeal.Regions
import proofs.«173817_j3994319585552_2_alg».proof.Proof.Gen.ReferenceIdeal.Read
import Idealize.ShloMosaic.Lib.StableHlo.Run

noncomputable section

namespace Cert.KernelIdeal.HostVal

open Idealize.ShloMosaic Idealize.ShloMosaic.TcCoe Idealize.SL.Sem Idealize.ShloMosaic.StableHlo
open Cert.KernelIdeal Cert.KernelIdeal.Gen

section Lines
variable (W : Valuation τ sig (Elt Ideal))

/-! ### The first line of operations: edges, weights, degrees -/

theorem s0_v5 : (after hostOps0 W (Proc.devRef .tc main_v5) : (⟨S850000, .i32⟩ : BufTy).Contents (Elt Ideal))
    = Cert.ReferenceIdeal.Read.val_main_v6 (F := Ideal) (W (Proc.devRef .tc main_arg1)) := by
  simp only [hostOps0]; after_results; rfl
theorem s0_v6 : (after hostOps0 W (Proc.devRef .tc main_v6) : (⟨S850000, .i32⟩ : BufTy).Contents (Elt Ideal))
    = Cert.ReferenceIdeal.Read.val_main_v7 (F := Ideal) (W (Proc.devRef .tc main_arg1)) := by
  simp only [hostOps0]; after_results; rfl
theorem s0_v8 : (after hostOps0 W (Proc.devRef .tc main_v8) : (⟨S850000, .f32⟩ : BufTy).Contents (Elt Ideal))
    = Cert.ReferenceIdeal.Read.val_main_v9 (F := Ideal) (W (Proc.devRef .tc main_arg2)) := by
  simp only [hostOps0]; after_results; rfl
theorem s0_v13 : (after hostOps0 W (Proc.devRef .tc main_v13) : (⟨S50000, .i1⟩ : BufTy).Contents (Elt Ideal))
    = Cert.ReferenceIdeal.Read.val_main_v14 (F := Ideal) (W (Proc.devRef .tc main_arg1)) (W (Proc.devRef .tc main_arg2)) := by
  simp only [hostOps0]; after_results; rfl
theorem s0_v14 : (after hostOps0 W (Proc.devRef .tc main_v14) : (⟨S50000, .f32⟩ : BufTy).Contents (Elt Ideal))
    = Cert.ReferenceIdeal.Read.val_main_v15 (F := Ideal) (W (Proc.devRef .tc main_arg1)) (W (Proc.devRef .tc main_arg2)) := by
  simp only [hostOps0]; after_results; rfl
theorem s0_cst2 : (after hostOps0 W (Proc.devRef .tc main_cst_2) : (⟨S_, .f32⟩ : BufTy).Contents (Elt Ideal))
    = Cert.ReferenceIdeal.Read.val_main_cst_2 (F := Ideal) := by
  simp only [hostOps0]; after_results; rfl

/-! ### The selection of the inverse square roots where the degree is positive -/

theorem s01_v15 : (after hostOps0_1 W (Proc.devRef .tc main_v15) : (⟨S50000, .f32⟩ : BufTy).Contents (Elt Ideal))
    = select (W (Proc.devRef .tc main_v13)) (W (Proc.devRef .tc main_v14))
        (broadcastInDim S50000 ![] bcast_S_S50000 (W (Proc.devRef .tc main_cst_2))) := by
  simp only [hostOps0_1]; after_results; rfl

/-! ### The edge normalisation and the joined weights -/

/-- An index vector read NumPy-style (a negative index has the extent added) and laid out as a column. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The edge normalisation from the per-node factors, the edge ends and the edge weights. -/
def normOf (dinv : FVec Ideal S50000 .f32) (s d : IVec S850000 32) (w : FVec Ideal S850000 .f32) : FVec Ideal S850000 .f32 :=
  mulf (F := Ideal) (φ := .f32) (mulf (F := Ideal) (φ := .f32) (Host.gather gather_S50000_S850000x1_S850000_n_0_n_n_0_1_1 dinv (wrapCol s)) w)
    (Host.gather gather_S50000_S850000x1_S850000_n_0_n_n_0_1_1 dinv (wrapCol d))

theorem s02_v31 : (after hostOps0_2 W (Proc.devRef .tc main_v31) : (⟨S850000, .f32⟩ : BufTy).Contents (Elt Ideal))
    = normOf (W (Proc.devRef .tc main_v15)) (W (Proc.devRef .tc main_v5)) (W (Proc.devRef .tc main_v6)) (W (Proc.devRef .tc main_v8)) := by
  simp only [hostOps0_2]; after_results_simp
  unfold normOf wrapCol
  rfl

end Lines

end Cert.KernelIdeal.HostVal

end
-- ==== Proof.HostVals2.lean ====
/-
  What the host lines between the regions leave in their buffers, on the extended reals.

  After the first product P [50000, 320]: its first 192 columns are gathered at the edges' sources, scaled by the edge
  normalisation and scatter-added at the edges' destinations — the aggregated array [50000, 192]; the bias vectors, the
  weight column and the scalar bias are laid out as rows.  After the second product H [50000, 128]: the same
  aggregation of its 128 columns.  The roundings of the gathered rows to the narrow float format and back are the identity
  on the extended reals; they are kept here as printed.
-/
import proofs.«173817_j3994319585552_2_alg».proof.Proof.HostVals
import Idealize.ShloMosaic.Lib.StableHlo.Run

noncomputable section

namespace Cert.KernelIdeal.HostVal

open Idealize.ShloMosaic Idealize.ShloMosaic.TcCoe Idealize.SL.Sem Idealize.ShloMosaic.StableHlo
open Cert.KernelIdeal Cert.KernelIdeal.Gen

/-- A destination index vector laid out as a column. -/
def dstCol (d : IVec S850000 32) : IVec S850000x1 32 := broadcastInDim S850000x1 ![0] bcast_S850000_S850000x1_0 d

/-- The aggregation of the first 192 columns of the first product. -/
def agg192 (P : FVec Ideal S50000x320 .f32) (s d : IVec S850000 32) (nrm : FVec Ideal S850000 .f32) : FVec Ideal S50000x192 .f32 :=
  Host.scatterAdd scatter_S50000x192_S850000x1_S850000x192_1_0_0_1
    (broadcastInDim S50000x192 ![] bcast_S_S50000x192 (constant (F := Ideal) S_ .f32 0x00000000#32))
    (dstCol d)
    (mulf (F := Ideal) (φ := .f32)
      (extf .f32 (Host.gather gather_S50000x192_S850000x1_S850000x192_1_0_n_n_0_1_1192
        (truncf .bf16 (extractStridedSlice S50000x192 ![0, 0] P slices_S50000x320_S50000x192_0_0) bitsLt_bf16_f32) (wrapCol s)) bitsLt_bf16_f32)
      (broadcastInDim S850000x192 ![0, 1] bcast_S850000x1_S850000x192_0_1 (broadcastInDim S850000x1 ![0] bcast_S850000_S850000x1_0 nrm)))

/-- The aggregation of the second product. -/
def agg128 (H : FVec Ideal S50000x128 .f32) (s d : IVec S850000 32) (nrm : FVec Ideal S850000 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (dstCol d)
    (mulf (F := Ideal) (φ := .f32)
      (extf .f32 (Host.gather gather_S50000x128_S850000x1_S850000x128_1_0_n_n_0_1_1128
        (truncf .bf16 H bitsLt_bf16_f32) (wrapCol s)) bitsLt_bf16_f32)
      (broadcastInDim S850000x128 ![0, 1] bcast_S850000x1_S850000x128_0_1 (broadcastInDim S850000x1 ![0] bcast_S850000_S850000x1_0 nrm)))

section Lines
variable (W : Valuation τ sig (Elt Ideal))

theorem s1_v49 : (after hostOps1 W (Proc.devRef .tc main_v49) : (⟨S50000x192, .f32⟩ : BufTy).Contents (Elt Ideal))
    = agg192 (W (Proc.devRef .tc main_v33)) (W (Proc.devRef .tc main_v5)) (W (Proc.devRef .tc main_v6)) (W (Proc.devRef .tc main_v31)) := by
  simp only [hostOps1]; after_results_simp
  unfold agg192 dstCol wrapCol
  rfl
theorem s1_v50 : (after hostOps1 W (Proc.devRef .tc main_v50) : (⟨S1x128, .f32⟩ : BufTy).Contents (Elt Ideal))
    = shapeCast S1x128 (W (Proc.devRef .tc main_arg4)) shapeCasts_S128_S1x128 := by
  simp only [hostOps1]; after_results_simp; rfl
theorem s1_v51 : (after hostOps1 W (Proc.devRef .tc main_v51) : (⟨S1x64, .f32⟩ : BufTy).Contents (Elt Ideal))
    = shapeCast S1x64 (W (Proc.devRef .tc main_arg10)) shapeCasts_S64_S1x64 := by
  simp only [hostOps1]; after_results_simp; rfl
theorem s1_v52 : (after hostOps1 W (Proc.devRef .tc main_v52) : (⟨S1x128, .f32⟩ : BufTy).Contents (Elt Ideal))
    = shapeCast S1x128 (W (Proc.devRef .tc main_arg8)) shapeCasts_S128_S1x128 := by
  simp only [hostOps1]; after_results_simp; rfl
theorem s1_v53 : (after hostOps1 W (Proc.devRef .tc main_v53) : (⟨S1x64, .f32⟩ : BufTy).Contents (Elt Ideal))
    = shapeCast S1x64 (W (Proc.devRef .tc main_arg11)) shapeCasts_S64x1_S1x64 := by
  simp only [hostOps1]; after_results_simp; rfl
theorem s1_v54 : (after hostOps1 W (Proc.devRef .tc main_v54) : (⟨S1x1, .f32⟩ : BufTy).Contents (Elt Ideal))
    = shapeCast S1x1 (W (Proc.devRef .tc main_arg12)) shapeCasts_S1_S1x1 := by
  simp only [hostOps1]; after_results_simp; rfl

theorem s2_v70 : (after hostOps2 W (Proc.devRef .tc main_v70) : (⟨S50000x128, .f32⟩ : BufTy).Contents (Elt Ideal))
    = agg128 (W (Proc.devRef .tc main_v55_0)) (W (Proc.devRef .tc main_v5)) (W (Proc.devRef .tc main_v6)) (W (Proc.devRef .tc main_v31)) := by
  simp only [hostOps2]; after_results_simp
  unfold agg128 dstCol wrapCol
  rfl
theorem s2_v71 : (after hostOps2 W (Proc.devRef .tc main_v71) : (⟨S1x128, .f32⟩ : BufTy).Contents (Elt Ideal))
    = shapeCast S1x128 (W (Proc.devRef .tc main_arg6)) shapeCasts_S128_S1x128 := by
  simp only [hostOps2]; after_results_simp; rfl

end Lines

end Cert.KernelIdeal.HostVal

end
-- ==== Proof.HostVals32.lean ====
/-
  The joined weight matrix the first product reads: W1, Wl and Ws side by side along the columns, whatever the lines
  before it computed (none of them writes an argument).
-/
import proofs.«173817_j3994319585552_2_alg».proof.Proof.Gen.KernelIdeal.Regions
import Idealize.ShloMosaic.Lib.StableHlo.Run
import Idealize.ShloMosaic.PureOps.Ideal

noncomputable section

namespace Cert.KernelIdeal.HostVal

open Idealize.ShloMosaic Idealize.ShloMosaic.TcCoe Idealize.SL.Sem Idealize.ShloMosaic.StableHlo
open Cert.KernelIdeal Cert.KernelIdeal.Gen

section Lines
variable (W : Valuation τ sig (Elt Ideal))

/-- A three-operand host operation writes its function of the three operands' contents, each taken at its own buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The fold of a line of operations followed by one more operation. -/
theorem after_snoc {τ : Topo} {sig : RefSig} {Val : EltTy → Type} (ops : List (HloOp τ sig Val)) (op : HloOp τ sig Val)
    (V : Valuation τ sig Val) : after (ops ++ [op]) V = op.result (after ops V) := by
  induction ops generalizing V with
  | nil => rfl
  | cons o os ih => simp only [List.cons_append, after_cons]; exact ih _

theorem s02_v32 : (after hostOps0_2 W (Proc.devRef .tc main_v32) : (⟨S128x320, .f32⟩ : BufTy).Contents (Elt Ideal))
    = concatenate S128x320 1 [⟨S128x128, W (Proc.devRef .tc main_arg3)⟩, ⟨S128x64, W (Proc.devRef .tc main_arg9)⟩,
        ⟨S128x128, W (Proc.devRef .tc main_arg7)⟩] concatenates_S128x128_S128x64_S128x128_S128x320_d1 := by
  have hne : (hostOps0_2 : List (HloOp τ sig (Elt Ideal))) ≠ [] := List.cons_ne_nil _ _
  have hw : (hostOps0_2 : List (HloOp τ sig (Elt Ideal))).dropLast.Forall
      fun op => op.writes ⊆ (hostOps0_2_W.map (Proc.devRef (τ := τ) .tc)).toFinset :=
    List.forall_iff_forall_mem.mpr fun op h =>
      List.forall_iff_forall_mem.mp hostOps0_2_writes op (List.mem_of_mem_dropLast h)
  have ha : ∀ r : Ref sig .tc, r ∉ hostOps0_2_W →
      after (hostOps0_2 : List (HloOp τ sig (Elt Ideal))).dropLast W (Proc.devRef .tc r) = W (Proc.devRef .tc r) :=
    fun r hr => after_of_writes_sub _ _ hw hr
  rw [← List.dropLast_append_getLast hne, after_snoc]
  show (nary ![main_arg3, main_arg9, main_arg7] main_v32 (fun u => concatenate S128x320 1 [⟨S128x128, u 0⟩, ⟨S128x64, u 1⟩, ⟨S128x128, u 2⟩]
    concatenates_S128x128_S128x64_S128x128_S128x320_d1) (by decide) (by decide)).result _ (Proc.devRef .tc main_v32) = _
  rw [nary3_result]
  show concatenate S128x320 1 [⟨S128x128, after (hostOps0_2 : List (HloOp τ sig (Elt Ideal))).dropLast W (Proc.devRef .tc main_arg3)⟩,
    ⟨S128x64, after (hostOps0_2 : List (HloOp τ sig (Elt Ideal))).dropLast W (Proc.devRef .tc main_arg9)⟩,
    ⟨S128x128, after (hostOps0_2 : List (HloOp τ sig (Elt Ideal))).dropLast W (Proc.devRef .tc main_arg7)⟩] _ = _
  rw [ha main_arg3 (by decide), ha main_arg9 (by decide), ha main_arg7 (by decide)]

end Lines

end Cert.KernelIdeal.HostVal

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Payloads.lean ====
/-
  The three kernel bodies' stored values read at one element, on the extended reals.

  Body 0 stores the product of its row block with the whole weight matrix: entry (p, q) is the sum over k of
  x (p, k) * w (k, q).  Body 2 stores max (a (p, c) + b (0, c), 0).  Body 1's pieces are read in Payloads1.
  A change of float format is the identity on the extended reals, so the roundings to the narrow format disappear.
-/
import proofs.«173817_j3994319585552_2_alg».proof.Proof.Gen.KernelIdeal.Skeleton
import proofs.«173817_j3994319585552_2_alg».proof.Proof.LibBlock
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- Body 0's stored block at (p, q): the row p of the block against column q of the weights. -/
theorem pay0_apply (v0 : FVec Ideal S2000x128 .f32) (v2 : FVec Ideal S128x320 .f32) (p : Fin 2000) (q : Fin 320) :
    k0_pay1 (F := Ideal) v0 v2 (ix2 p q) = ∑ k : Fin 128, v0 (ix2 p k) * v2 (ix2 k q) := by
  unfold k0_pay1
  refine (Cert.LibBlock.matmul_zero_ix2 dot_S2000x128_S128x320_S2000x320_1_0_0_1_n_n rfl rfl rfl rfl rfl rfl none _ _ p q).trans ?_
  refine Finset.sum_congr rfl fun k _ => ?_
  rw [shapeCast_self]
  rfl

/-- Body 2's stored block at (p, c): the bias row added to the block's row, cut off below at zero. -/
theorem pay2_apply (v0 : FVec Ideal S2000x128 .f32) (v2 : FVec Ideal S1x128 .f32) (p : Fin 2000) (c : Fin 128) :
    k2_pay1 (F := Ideal) v0 v2 (ix2 p c) = max (v0 (ix2 p c) + v2 (ix2 (0 : Fin 1) c)) (Ideal.ofBits .f32 0x00000000#32) := by
  unfold k2_pay1
  rw [shapeCast_self, shapeCast_self]
  show max (v0 (ix2 p c) + broadcastTo S2000x128 v2 broadcasts_S1x128_S2000x128 (ix2 p c)) _ = _
  rw [broadcastTo_1b_ab_apply]
  rfl

end Cert.KernelIdeal.Pay

end
-- ==== Proof.Blocks02.lean ====
/-
  From blocks to arrays, for the first and the last region.

  Each of the 25 grid points handles 2000 consecutive rows: point t reads rows [2000 t, 2000 t + 2000) of its row-blocked
  operand, the whole of its small operand, and writes the same rows of the result.  The blocks tile the result, so after
  the region the result array is one function of the operand arrays:
    first region:  (r, q) ↦ sum over k < 128 of X (r, k) * Wc (k, q);
    last region:   (r, c) ↦ max (A (r, c) + b (0, c), 0).
-/
import proofs.«173817_j3994319585552_2_alg».proof.Proof.KernelIdealRegion0
import proofs.«173817_j3994319585552_2_alg».proof.Proof.KernelIdealRegion2
import proofs.«173817_j3994319585552_2_alg».proof.Proof.Payloads
import Idealize.ShloMosaic.Lib.Pipeline.Value

noncomputable section

open scoped BigOperators

namespace Cert.KernelIdeal.Arr

open Idealize.ShloMosaic Idealize.ShloMosaic.TcCoe Idealize.ShloMosaic.ValueIdx Idealize.SL.Sem
open Cert.KernelIdeal Cert.KernelIdeal.Gen Cert.KernelIdeal.Regs

variable (V : (c : Dev nD) → (b : Ref sig .tc) → Buf (Elt Ideal) ((c : Thread nD τ).loc b))

/-! ## The first region: the product with the joined weights -/

/-- Rows of X against columns of Wc. -/
def prodG (X : S50000x128.Idx → EReal) (Wc : S128x320.Idx → EReal) : S50000x320.Idx → EReal :=
  fun i => ∑ k : Fin 128, X (ix2 (⟨(i 0).val, (i 0).isLt⟩ : Fin 50000) k) * Wc (ix2 k (⟨(i 1).val, (i 1).isLt⟩ : Fin 320))

/-- The block indices over the grid: point t takes row block t of the row-blocked windows and block 0 of the weights. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed0_eq (c : Dev nD) (t : Fin cfg0.N) :
    (dat0 V c).flushed 2 t = ((cfg0.win 2).blk t).view.read (Elt Ideal) (prodG (V c main_arg0) (V c main_v32)) := by
  show (cfg0.win 2).cut (grid0.coords t) ((dat0 V c).after 2 t) = _
  rw [after0_2]
  unfold out0_2
  rw [View.canon_unit_zero Cert.LibBlock.hz]
  simp only [View.ld_unit_zero (S := S2000x128) Cert.LibBlock.hz, View.ld_unit_zero (S := S128x320) Cert.LibBlock.hz]
  obtain ⟨e0, e1, e2, e3, e4, e5⟩ := idx_facts0 t
  funext j
  obtain ⟨p, q, rfl⟩ : ∃ (p : Fin 2000) (q : Fin 320), j = ix2 p q := ⟨j 0, j 1, eq_ix2 j⟩
  show k0_pay1 (F := Ideal) (iblk0 V c 0 t) (iblk0 V c 1 t) (ix2 p q)
    = prodG (V c main_arg0) (V c main_v32) (((cfg0.win 2).blk t).view.emb (ix2 p q))
  refine (Cert.KernelIdeal.Pay.pay0_apply _ _ p q).trans ?_
  unfold prodG
  refine Finset.sum_congr rfl fun k _ => ?_
  refine congrArg₂ (· * ·) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_v32 (((cfg0.win 1).blk t).view.emb (ix2 k q)) = V c main_v32 _
    refine congrArg (V c main_v32) (funext fun a => Fin.ext ?_)
    match a with
    | ⟨0, _⟩ => show win0_1.index t (0 : Fin 2) * 128 + 1 * k.val = k.val; omega
    | ⟨1, _⟩ => show win0_1.index t (1 : Fin 2) * 320 + 1 * q.val = win0_2.index t (1 : Fin 2) * 320 + 1 * q.val; omega

/-- An index is in point t's block iff each coordinate is in the block's range. -/
theorem mem_blk0 (t : Fin cfg0.N) (i : S50000x320.Idx) :
    i ∈ ((cfg0.win 2).blk t).view.set ↔ ∀ a : Fin 2, win0_2.index t a * S2000x320.size a ≤ (i a).val
      ∧ (i a).val < win0_2.index t a * S2000x320.size a + S2000x320.size a := by
  show i ∈ ((View.whole main_v33).slice (win0_2.rect t)).set ↔ _
  rw [View.set_slice_whole, Rect.mem_set_unit]
  exact Iff.rfl

/-- Row r lies in the block of point r / 2000. -/
theorem cover0 (i : S50000x320.Idx) : ∃ t : Fin cfg0.N, (cfg0.win 2).flush t = true ∧ i ∈ ((cfg0.win 2).blk t).view.set := by
  have hi0 : (i 0).val < 50000 := (i 0).isLt
  have hi1 : (i 1).val < 320 := (i 1).isLt
  have hN : cfg0.N = 25 := N_0
  let t : Fin cfg0.N := ⟨(i 0).val / 2000, by rw [hN]; omega⟩
  obtain ⟨-, -, -, -, e4, e5⟩ := idx_facts0 t
  refine ⟨t, flush0_2 t, ?_⟩
  rw [mem_blk0]
  intro a
  have ht : t.val = (i 0).val / 2000 := rfl
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 320 ≤ (i 1).val ∧ (i 1).val < win0_2.index t (1 : Fin 2) * 320 + 320; omega

/-- After the first region its result array is the product of the node features with the joined weights. -/
theorem final0 (c : Dev nD) : (dat0 V c).arrAt 2 cfg0.N = prodG (V c main_arg0) (V c main_v32) :=
  (dat0 V c).arrAt_eq_of_cover 2 _ (fun t _ => flushed0_eq V c t) (cover0)

/-! ## The last region: bias and cut-off at zero -/

/-- The bias row added to every row, cut off below at zero. -/
def biasReluG (A : S50000x128.Idx → EReal) (b : S1x128.Idx → EReal) : S50000x128.Idx → EReal :=
  fun i => max (A i + b (ix2 (0 : Fin 1) (⟨(i 1).val, (i 1).isLt⟩ : Fin 128))) (Ideal.ofBits .f32 0x00000000#32)

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 V c).flushed 2 t = ((cfg2.win 2).blk t).view.read (Elt Ideal) (biasReluG (V c main_v70) (V c main_v71)) := by
  show (cfg2.win 2).cut (grid2.coords t) ((dat2 V c).after 2 t) = _
  rw [after2_2]
  unfold out2_2
  rw [View.canon_unit_zero Cert.LibBlock.hz]
  simp only [View.ld_unit_zero (S := S2000x128) Cert.LibBlock.hz, View.ld_unit_zero (S := S1x128) Cert.LibBlock.hz]
  obtain ⟨e0, e1, e2, e3, e4, e5⟩ := idx_facts2 t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
    = biasReluG (V c main_v70) (V c main_v71) (((cfg2.win 2).blk t).view.emb (ix2 p q))
  refine (Cert.KernelIdeal.Pay.pay2_apply _ _ p q).trans ?_
  unfold biasReluG
  refine congrArg (fun x => max x (Ideal.ofBits .f32 0x00000000#32)) ?_
  refine congrArg₂ (· + ·) ?_ ?_
  · show V c main_v70 (((cfg2.win 0).blk t).view.emb (ix2 p q)) = V c main_v70 _
    refine congrArg (V c main_v70) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * q.val = win2_2.index t (1 : Fin 2) * 128 + 1 * q.val; omega
  · show V c main_v71 (((cfg2.win 1).blk t).view.emb (ix2 (0 : Fin 1) q)) = V c main_v71 _
    refine congrArg (V c main_v71) (funext fun a => Fin.ext ?_)
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega

theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v72).slice (win2_2.rect t)).set ↔ _
  rw [View.set_slice_whole, Rect.mem_set_unit]
  exact Iff.rfl

theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, e4, e5⟩ := idx_facts2 t
  refine ⟨t, flush2_2 t, ?_⟩
  rw [mem_blk2]
  intro a
  have ht : t.val = (i 0).val / 2000 := rfl
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the last region its result array is the aggregated array plus the bias row, cut off at zero. -/
theorem final2 (c : Dev nD) : (dat2 V c).arrAt 2 cfg2.N = biasReluG (V c main_v70) (V c main_v71) :=
  (dat2 V c).arrAt_eq_of_cover 2 _ (fun t _ => flushed2_eq V c t) (cover2)

end Cert.KernelIdeal.Arr

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payloads1.lean ====
/-
  Body 1's pieces read at one element, on the extended reals.

  With a the aggregated block [2000, 192], pr the projected block [2000, 320] and the bias rows b1, bl, bs, the
  weight row wl2 and the scalar bl2:
    neighbours (p, c) = max (a (p, c) + b1 (0, c), 0)                                   c < 128
    logit p           = (sum over k < 64 of max (a (p, 128 + k) + bl (0, k), 0) * wl2 (0, k)) + bl2 (0, 0)
    score p           = 1 / (1 + exp (0 - logit p))
    self (p, c)       = pr (p, 192 + c) + bs (0, c)
    stored (p, q)     = sum over k < 128 of ((1 - score p) * neighbours (p, k) + score p * self (p, k)) * w2 (k, q).
-/
import proofs.«173817_j3994319585552_2_alg».proof.Proof.Gen.KernelIdeal.Skeleton
import proofs.«173817_j3994319585552_2_alg».proof.Proof.LibBlock
import proofs.«173817_j3994319585552_2_alg».proof.Proof.LibRowSum
import proofs.«173817_j3994319585552_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The neighbour term at (p, c): the first 128 columns of the aggregated block plus the bias row, cut off at zero. -/
theorem pay3_apply (v0 : FVec Ideal S2000x192 .f32) (v6 : FVec Ideal S1x128 .f32) (p : Fin 2000) (c : Fin 128) :
    k1_pay3 (F := Ideal) v0 v6 (ix2 p c)
      = max (v0 (ix2 p (⟨c.val, by have := c.isLt; omega⟩ : Fin 192)) + v6 (ix2 (0 : Fin 1) c)) (Ideal.ofBits .f32 0x00000000#32) := by
  unfold k1_pay3 k1_pay2
  simp only [shapeCast_self]
  show max (extractStridedSlice S2000x128 ![0, 0] v0 slices_S2000x192_o0_0_S2000x128 (ix2 p c)
      + broadcastTo S2000x128 v6 broadcasts_S1x128_S2000x128 (ix2 p c)) _ = _
  rw [broadcastTo_1b_ab_apply, slice2_axis1_apply 0 v0 _ p c ⟨c.val, by have := c.isLt; omega⟩ (by simp)]
  rfl

/-- The self term at (p, c): the projected block's entry plus the bias row. -/
theorem pay5_apply (v4 : FVec Ideal S2000x128 .f32) (v10 : FVec Ideal S1x128 .f32) (p : Fin 2000) (c : Fin 128) :
    k1_pay5 (F := Ideal) v4 v10 (ix2 p c) = v4 (ix2 p c) + v10 (ix2 (0 : Fin 1) c) := by
  unfold k1_pay5
  simp only [shapeCast_self]
  show v4 (ix2 p c) + broadcastTo S2000x128 v10 broadcasts_S1x128_S2000x128 (ix2 p c) = _
  rw [broadcastTo_1b_ab_apply]

/-- The leader logit of row p: the second group of 64 columns, biased and cut off at zero, against the weight row, plus
    the scalar bias. -/
def logit (v0 : FVec Ideal S2000x192 .f32) (v8 v12 : FVec Ideal S1x64 .f32) (v14 : FVec Ideal S1x1 .f32) (p : Fin 2000) : EReal :=
  (∑ k : Fin 64, max (v0 (ix2 p (⟨128 + k.val, by have := k.isLt; omega⟩ : Fin 192)) + v8 (ix2 (0 : Fin 1) k))
      (Ideal.ofBits .f32 0x00000000#32) * v12 (ix2 (0 : Fin 1) k)) + v14 (ix2 (0 : Fin 1) (0 : Fin 1))

/-- The leader score of row p is the logistic form 1 / (1 + exp (0 - logit)). -/
theorem pay4_apply (v0 : FVec Ideal S2000x192 .f32) (v8 v12 : FVec Ideal S1x64 .f32) (v14 : FVec Ideal S1x1 .f32)
    (p : Fin 2000) (u : Fin 1) :
    k1_pay4 (F := Ideal) v0 v8 v12 v14 (ix2 p u)
      = Ideal.div (Ideal.ofBits .f32 0x3F800000#32)
          (Ideal.ofBits .f32 0x3F800000#32 + Ideal.exp (Ideal.ofBits .f32 0x00000000#32 - logit v0 v8 v12 v14 p)) := by
  unfold k1_pay4 k1_pay2
  simp only [shapeCast_self]
  refine congrArg (fun t => Ideal.div (Ideal.ofBits .f32 0x3F800000#32)
    (Ideal.ofBits .f32 0x3F800000#32 + Ideal.exp (Ideal.ofBits .f32 0x00000000#32 - t))) ?_
  unfold logit
  refine congrArg₂ (· + ·) ?_ ?_
  · refine (Cert.LibColumn.shapeCast_a_a1_apply _ _ p u).trans ?_
    refine (Cert.LibRowSum.multiReduction_add_lanes_apply _ _ _ _ _ p).trans ?_
    refine Finset.sum_congr rfl fun k _ => ?_
    show max (extractStridedSlice S2000x64 ![0, 128] v0 slices_S2000x192_o0_128_S2000x64 (ix2 p k)
      + broadcastTo S2000x64 v8 broadcasts_S1x64_S2000x64 (ix2 p k)) _ * broadcastTo S2000x64 v12 broadcasts_S1x64_S2000x64 (ix2 p k) = _
    rw [broadcastTo_1b_ab_apply, broadcastTo_1b_ab_apply,
      slice2_axis1_apply 128 v0 _ p k ⟨128 + k.val, by have := k.isLt; omega⟩ rfl]
    rfl
  · have hu : u = 0 := Subsingleton.elim _ _
    subst hu
    exact broadcastTo_1b_ab_apply v14 _ p 0

/-- The stored second product at (p, q): the gated mixture of the neighbour and self terms of row p against column q
    of the weights. -/
theorem pay1_apply (v19 : FVec Ideal S2000x128 .f32) (v36 : FVec Ideal S2000x1 .f32) (v38 : FVec Ideal S2000x128 .f32)
    (v47 : FVec Ideal S128x128 .f32) (p : Fin 2000) (q : Fin 128) :
    k1_pay1 (F := Ideal) v19 v36 v38 v47 (ix2 p q)
      = ∑ k : Fin 128, ((Ideal.ofBits .f32 0x3F800000#32 - v36 (ix2 p (0 : Fin 1))) * v19 (ix2 p k)
          + v36 (ix2 p (0 : Fin 1)) * v38 (ix2 p k)) * v47 (ix2 k q) := by
  unfold k1_pay1
  refine (Cert.LibBlock.matmul_zero_ix2 dot_S2000x128_S128x128_S2000x128_1_0_0_1_n_n rfl rfl rfl rfl rfl rfl none _ _ p q).trans ?_
  refine Finset.sum_congr rfl fun k _ => ?_
  show (broadcastTo S2000x128 (subf (broadcast S2000x1 (Scalar.ofBits .f32 0x3F800000#32)) v36) broadcasts_S2000x1_S2000x128 (ix2 p k) * v19 (ix2 p k)
      + broadcastTo S2000x128 v36 broadcasts_S2000x1_S2000x128 (ix2 p k) * v38 (ix2 p k)) * v47 (ix2 k q) = _
  rw [Cert.LibColumn.broadcastTo_a1_ab_apply, Cert.LibColumn.broadcastTo_a1_ab_apply]
  rfl

end Cert.KernelIdeal.Pay

end
-- ==== Proof.Blocks1.lean ====
/-
  From blocks to arrays, for the middle region (the gated fusion and the second product).

  Point t of the 25 handles rows [2000 t, 2000 t + 2000): it reads those rows of the projected array Pr [50000, 320] and of
  the aggregated array A [50000, 192], and the whole of the bias rows b1, bl, bs, the weight row wl2, the scalar bl2
  and the weights W2.  With, for a row r,
    logit r  = (sum over k < 64 of max (A (r, 128 + k) + bl (0, k), 0) * wl2 (0, k)) + bl2 (0, 0)
    score r  = 1 / (1 + exp (0 - logit r))
    mix (r, k) = (1 - score r) * max (A (r, k) + b1 (0, k), 0) + score r * (Pr (r, 192 + k) + bs (0, k))
  the two results are, as whole arrays,
    scores (r, 0) = score r      and      second product (r, q) = sum over k < 128 of mix (r, k) * W2 (k, q).
-/
import proofs.«173817_j3994319585552_2_alg».proof.Proof.KernelIdealRegion1
import proofs.«173817_j3994319585552_2_alg».proof.Proof.Payloads1
import Idealize.ShloMosaic.Lib.Pipeline.Value

noncomputable section

open scoped BigOperators

namespace Cert.KernelIdeal.Arr

open Idealize.ShloMosaic Idealize.ShloMosaic.TcCoe Idealize.ShloMosaic.ValueIdx Idealize.SL.Sem
open Cert.KernelIdeal Cert.KernelIdeal.Gen Cert.KernelIdeal.Regs

variable (V : (c : Dev nD) → (b : Ref sig .tc) → Buf (Elt Ideal) ((c : Thread nD τ).loc b))

/-! ## The whole-array functions -/

/-- The logistic form of a logit. -/
def scoreOf (l : EReal) : EReal :=
  Ideal.div (Ideal.ofBits .f32 0x3F800000#32) (Ideal.ofBits .f32 0x3F800000#32 + Ideal.exp (Ideal.ofBits .f32 0x00000000#32 - l))

/-- The leader logit of row r. -/
def logitG (A : S50000x192.Idx → EReal) (bl wl2 : S1x64.Idx → EReal) (bl2 : S1x1.Idx → EReal) (r : Fin 50000) : EReal :=
  (∑ k : Fin 64, max (A (ix2 r (⟨128 + k.val, by have := k.isLt; omega⟩ : Fin 192)) + bl (ix2 (0 : Fin 1) k))
      (Ideal.ofBits .f32 0x00000000#32) * wl2 (ix2 (0 : Fin 1) k)) + bl2 (ix2 (0 : Fin 1) (0 : Fin 1))

/-- The scores as a column. -/
def lsG (A : S50000x192.Idx → EReal) (bl wl2 : S1x64.Idx → EReal) (bl2 : S1x1.Idx → EReal) : S50000x1.Idx → EReal :=
  fun i => scoreOf (logitG A bl wl2 bl2 (⟨(i 0).val, (i 0).isLt⟩ : Fin 50000))

/-- The gated mixture of the neighbour and self terms at (r, k). -/
def mixG (Pr : S50000x320.Idx → EReal) (A : S50000x192.Idx → EReal) (b1 : S1x128.Idx → EReal) (bl : S1x64.Idx → EReal)
    (bs : S1x128.Idx → EReal) (wl2 : S1x64.Idx → EReal) (bl2 : S1x1.Idx → EReal) (r : Fin 50000) (k : Fin 128) : EReal :=
  (Ideal.ofBits .f32 0x3F800000#32 - scoreOf (logitG A bl wl2 bl2 r))
      * max (A (ix2 r (⟨k.val, by have := k.isLt; omega⟩ : Fin 192)) + b1 (ix2 (0 : Fin 1) k)) (Ideal.ofBits .f32 0x00000000#32)
    + scoreOf (logitG A bl wl2 bl2 r) * (Pr (ix2 r (⟨192 + k.val, by have := k.isLt; omega⟩ : Fin 320)) + bs (ix2 (0 : Fin 1) k))

/-- The second product. -/
def hx2G (Pr : S50000x320.Idx → EReal) (A : S50000x192.Idx → EReal) (b1 : S1x128.Idx → EReal) (bl : S1x64.Idx → EReal)
    (bs : S1x128.Idx → EReal) (wl2 : S1x64.Idx → EReal) (bl2 : S1x1.Idx → EReal) (W2 : S128x128.Idx → EReal) :
    S50000x128.Idx → EReal :=
  fun i => ∑ k : Fin 128, mixG Pr A b1 bl bs wl2 bl2 (⟨(i 0).val, (i 0).isLt⟩ : Fin 50000) k
    * W2 (ix2 k (⟨(i 1).val, (i 1).isLt⟩ : Fin 128))

/-! ## The blocks a point reads and writes -/

/-- Row p of point t's block is row 2000 t + p of the array. -/
def row1 (t : Fin cfg1.N) (p : Fin 2000) : Fin 50000 :=
  ⟨t.val * 2000 + p.val, by have h1 := t.isLt; have h2 : cfg1.N = 25 := N_1; have h3 := p.isLt; omega⟩

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

theorem rd1_0 (c : Dev nD) (t : Fin cfg1.N) (p : Fin 2000) (q : Fin 320) :
    iblk1 V c 0 t (ix2 p q) = V c main_v33 (ix2 (row1 t p) q) := by
  obtain ⟨⟨e0, e1⟩, -⟩ := idx_facts1 t
  show V c main_v33 (((cfg1.win 0).blk t).view.emb (ix2 p q)) = V c main_v33 _
  refine congrArg (V c main_v33) (funext fun a => Fin.ext ?_)
  match a with
  | ⟨0, _⟩ => show win1_0.index t (0 : Fin 2) * 2000 + 1 * p.val = t.val * 2000 + p.val; omega
  | ⟨1, _⟩ => show win1_0.index t (1 : Fin 2) * 320 + 1 * q.val = q.val; omega

theorem rd1_1 (c : Dev nD) (t : Fin cfg1.N) (p : Fin 2000) (q : Fin 192) :
    iblk1 V c 1 t (ix2 p q) = V c main_v49 (ix2 (row1 t p) q) := by
  obtain ⟨-, ⟨e0, e1⟩, -⟩ := idx_facts1 t
  show V c main_v49 (((cfg1.win 1).blk t).view.emb (ix2 p q)) = V c main_v49 _
  refine congrArg (V c main_v49) (funext fun a => Fin.ext ?_)
  match a with
  | ⟨0, _⟩ => show win1_1.index t (0 : Fin 2) * 2000 + 1 * p.val = t.val * 2000 + p.val; omega
  | ⟨1, _⟩ => show win1_1.index t (1 : Fin 2) * 192 + 1 * q.val = q.val; omega

theorem rd1_2 (c : Dev nD) (t : Fin cfg1.N) (y : S1x128.Idx) : iblk1 V c 2 t y = V c main_v50 y := by
  obtain ⟨-, -, ⟨e0, e1⟩, -⟩ := idx_facts1 t
  show V c main_v50 (((cfg1.win 2).blk t).view.emb y) = V c main_v50 y
  refine congrArg (V c main_v50) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem rd1_3 (c : Dev nD) (t : Fin cfg1.N) (y : S1x64.Idx) : iblk1 V c 3 t y = V c main_v51 y := by
  obtain ⟨-, -, -, ⟨e0, e1⟩, -⟩ := idx_facts1 t
  show V c main_v51 (((cfg1.win 3).blk t).view.emb y) = V c main_v51 y
  refine congrArg (V c main_v51) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem rd1_4 (c : Dev nD) (t : Fin cfg1.N) (y : S1x128.Idx) : iblk1 V c 4 t y = V c main_v52 y := by
  obtain ⟨-, -, -, -, ⟨e0, e1⟩, -⟩ := idx_facts1 t
  show V c main_v52 (((cfg1.win 4).blk t).view.emb y) = V c main_v52 y
  refine congrArg (V c main_v52) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem rd1_5 (c : Dev nD) (t : Fin cfg1.N) (y : S1x64.Idx) : iblk1 V c 5 t y = V c main_v53 y := by
  obtain ⟨-, -, -, -, -, ⟨e0, e1⟩, -⟩ := idx_facts1 t
  show V c main_v53 (((cfg1.win 5).blk t).view.emb y) = V c main_v53 y
  refine congrArg (V c main_v53) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem rd1_6 (c : Dev nD) (t : Fin cfg1.N) (y : S1x1.Idx) : iblk1 V c 6 t y = V c main_v54 y := by
  obtain ⟨-, -, -, -, -, -, ⟨e0, e1⟩, -⟩ := idx_facts1 t
  show V c main_v54 (((cfg1.win 6).blk t).view.emb y) = V c main_v54 y
  refine congrArg (V c main_v54) (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

theorem rd1_7 (c : Dev nD) (t : Fin cfg1.N) (y : S128x128.Idx) : iblk1 V c 7 t y = V c main_arg5 y := by
  obtain ⟨-, -, -, -, -, -, -, ⟨e0, e1⟩, -⟩ := idx_facts1 t
  show V c main_arg5 (((cfg1.win 7).blk t).view.emb y) = V c main_arg5 y
  refine congrArg (V c main_arg5) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- The columns from 192 on of a [2000, 320] block, read at (p, k). -/
theorem ld_sub (x0 : Vec Ideal S2000x320 .f32) (p : Fin 2000) (k : Fin 128) :
    View.ld (Val := Elt Ideal) x0 r1_0s (ix2 p k) = x0 (ix2 p (⟨192 + k.val, by have := k.isLt; omega⟩ : Fin 320)) := by
  show x0 (r1_0s.emb (ix2 p k)) = _
  refine congrArg x0 (funext fun a => Fin.ext ?_)
  match a with
  | ⟨0, _⟩ => show 0 + 1 * p.val = p.val; omega
  | ⟨1, _⟩ => show 192 + 1 * k.val = 192 + k.val; omega

/-- The logit of row p of point t's block is the logit of row 2000 t + p. -/
theorem logit_blk (c : Dev nD) (t : Fin cfg1.N) (p : Fin 2000) :
    Cert.KernelIdeal.Pay.logit (iblk1 V c 1 t) (iblk1 V c 3 t) (iblk1 V c 5 t) (iblk1 V c 6 t) p
      = logitG (V c main_v49) (V c main_v51) (V c main_v53) (V c main_v54) (row1 t p) := by
  unfold Cert.KernelIdeal.Pay.logit logitG
  refine congrArg₂ (· + ·) (Finset.sum_congr rfl fun k _ => ?_) (rd1_6 V c t _)
  refine congrArg₂ (· * ·) ?_ (rd1_5 V c t _)
  refine congrArg (fun x => max x (Ideal.ofBits .f32 0x00000000#32)) ?_
  exact congrArg₂ (· + ·) (rd1_1 V c t p _) (rd1_3 V c t _)

/-! ## What a point writes back -/

theorem flushed1_9_eq (c : Dev nD) (t : Fin cfg1.N) :
    (dat1 V c).flushed 9 t = ((cfg1.win 9).blk t).view.read (Elt Ideal)
      (lsG (V c main_v49) (V c main_v51) (V c main_v53) (V c main_v54)) := by
  show (cfg1.win 9).cut (grid1.coords t) ((dat1 V c).after 9 t) = _
  rw [after1_9]
  unfold out1_9
  rw [View.canon_unit_zero Cert.LibBlock.hz]
  simp only [View.ld_unit_zero (S := S2000x192) Cert.LibBlock.hz, View.ld_unit_zero (S := S1x64) Cert.LibBlock.hz,
    View.ld_unit_zero (S := S1x1) Cert.LibBlock.hz]
  obtain ⟨-, -, -, -, -, -, -, -, -, ⟨e0, e1⟩⟩ := idx_facts1 t
  funext j
  obtain ⟨p, u, rfl⟩ : ∃ (p : Fin 2000) (u : Fin 1), j = ix2 p u := ⟨j 0, j 1, eq_ix2 j⟩
  show k1_pay4 (F := Ideal) (iblk1 V c 1 t) (iblk1 V c 3 t) (iblk1 V c 5 t) (iblk1 V c 6 t) (ix2 p u)
    = lsG (V c main_v49) (V c main_v51) (V c main_v53) (V c main_v54) (((cfg1.win 9).blk t).view.emb (ix2 p u))
  refine (Cert.KernelIdeal.Pay.pay4_apply _ _ _ _ p u).trans ?_
  unfold lsG
  refine congrArg scoreOf ?_
  refine (logit_blk V c t p).trans (congrArg _ (Fin.ext ?_))
  show t.val * 2000 + p.val = win1_9.index t (0 : Fin 2) * 2000 + 1 * p.val
  omega

theorem flushed1_8_eq (c : Dev nD) (t : Fin cfg1.N) :
    (dat1 V c).flushed 8 t = ((cfg1.win 8).blk t).view.read (Elt Ideal)
      (hx2G (V c main_v33) (V c main_v49) (V c main_v50) (V c main_v51) (V c main_v52) (V c main_v53) (V c main_v54) (V c main_arg5)) := by
  show (cfg1.win 8).cut (grid1.coords t) ((dat1 V c).after 8 t) = _
  rw [after1_8]
  unfold out1_8
  rw [View.canon_unit_zero Cert.LibBlock.hz]
  simp only [View.ld_unit_zero (S := S2000x192) Cert.LibBlock.hz, View.ld_unit_zero (S := S1x64) Cert.LibBlock.hz,
    View.ld_unit_zero (S := S1x1) Cert.LibBlock.hz, View.ld_unit_zero (S := S1x128) Cert.LibBlock.hz,
    View.ld_unit_zero (S := S128x128) Cert.LibBlock.hz]
  obtain ⟨-, -, -, -, -, -, -, -, ⟨e0, e1⟩, -⟩ := idx_facts1 t
  funext j
  obtain ⟨p, q, rfl⟩ : ∃ (p : Fin 2000) (q : Fin 128), j = ix2 p q := ⟨j 0, j 1, eq_ix2 j⟩
  show k1_pay1 (F := Ideal) (k1_pay3 (iblk1 V c 1 t) (iblk1 V c 2 t)) (k1_pay4 (iblk1 V c 1 t) (iblk1 V c 3 t) (iblk1 V c 5 t) (iblk1 V c 6 t))
      (k1_pay5 (View.ld (iblk1 V c 0 t) r1_0s) (iblk1 V c 4 t)) (iblk1 V c 7 t) (ix2 p q)
    = hx2G (V c main_v33) (V c main_v49) (V c main_v50) (V c main_v51) (V c main_v52) (V c main_v53) (V c main_v54) (V c main_arg5)
        (((cfg1.win 8).blk t).view.emb (ix2 p q))
  refine (Cert.KernelIdeal.Pay.pay1_apply _ _ _ _ p q).trans ?_
  unfold hx2G
  have hr : (⟨((((cfg1.win 8).blk t).view.emb (ix2 p q)) 0).val, ((((cfg1.win 8).blk t).view.emb (ix2 p q)) 0).isLt⟩ : Fin 50000) = row1 t p :=
    Fin.ext (by show win1_8.index t (0 : Fin 2) * 2000 + 1 * p.val = t.val * 2000 + p.val; omega)
  have hq : (⟨((((cfg1.win 8).blk t).view.emb (ix2 p q)) 1).val, ((((cfg1.win 8).blk t).view.emb (ix2 p q)) 1).isLt⟩ : Fin 128) = q :=
    Fin.ext (by show win1_8.index t (1 : Fin 2) * 128 + 1 * q.val = q.val; omega)
  rw [hr, hq]
  refine Finset.sum_congr rfl fun k _ => ?_
  refine congrArg₂ (· * ·) ?_ (rd1_7 V c t _)
  unfold mixG
  have hs : k1_pay4 (F := Ideal) (iblk1 V c 1 t) (iblk1 V c 3 t) (iblk1 V c 5 t) (iblk1 V c 6 t) (ix2 p (0 : Fin 1))
      = scoreOf (logitG (V c main_v49) (V c main_v51) (V c main_v53) (V c main_v54) (row1 t p)) :=
    (Cert.KernelIdeal.Pay.pay4_apply _ _ _ _ p 0).trans (congrArg scoreOf (logit_blk V c t p))
  rw [hs]
  refine congrArg₂ (· + ·) (congrArg₂ (· * ·) rfl ?_) (congrArg₂ (· * ·) rfl ?_)
  · refine (Cert.KernelIdeal.Pay.pay3_apply _ _ p k).trans ?_
    refine congrArg (fun x => max x (Ideal.ofBits .f32 0x00000000#32)) ?_
    exact congrArg₂ (· + ·) (rd1_1 V c t p _) (rd1_2 V c t _)
  · refine (Cert.KernelIdeal.Pay.pay5_apply _ _ p k).trans ?_
    refine congrArg₂ (· + ·) ((ld_sub _ p k).trans (rd1_0 V c t p _)) (rd1_4 V c t _)

/-! ## The covers and the arrays -/

theorem mem_blk1_8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v55_0).slice (win1_8.rect t)).set ↔ _
  rw [View.set_slice_whole, Rect.mem_set_unit]
  exact Iff.rfl

theorem mem_blk1_9 (t : Fin cfg1.N) (i : S50000x1.Idx) :
    i ∈ ((cfg1.win 9).blk t).view.set ↔ ∀ a : Fin 2, win1_9.index t a * S2000x1.size a ≤ (i a).val
      ∧ (i a).val < win1_9.index t a * S2000x1.size a + S2000x1.size a := by
  show i ∈ ((View.whole main_v55_1).slice (win1_9.rect t)).set ↔ _
  rw [View.set_slice_whole, Rect.mem_set_unit]
  exact Iff.rfl

theorem cover1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, ⟨e0, e1⟩, -⟩ := idx_facts1 t
  refine ⟨t, flush1_8 t, ?_⟩
  rw [mem_blk1_8]
  intro a
  have ht : t.val = (i 0).val / 2000 := rfl
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

theorem cover1_9 (i : S50000x1.Idx) : ∃ t : Fin cfg1.N, (cfg1.win 9).flush t = true ∧ i ∈ ((cfg1.win 9).blk t).view.set := by
  have hi0 : (i 0).val < 50000 := (i 0).isLt
  have hi1 : (i 1).val < 1 := (i 1).isLt
  have hN : cfg1.N = 25 := N_1
  let t : Fin cfg1.N := ⟨(i 0).val / 2000, by rw [hN]; omega⟩
  obtain ⟨-, -, -, -, -, -, -, -, -, ⟨e0, e1⟩⟩ := idx_facts1 t
  refine ⟨t, flush1_9 t, ?_⟩
  rw [mem_blk1_9]
  intro a
  have ht : t.val = (i 0).val / 2000 := rfl
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 1 ≤ (i 1).val ∧ (i 1).val < win1_9.index t (1 : Fin 2) * 1 + 1; omega

/-- After the middle region the second product's array. -/
theorem final1_8 (c : Dev nD) : (dat1 V c).arrAt 8 cfg1.N
    = hx2G (V c main_v33) (V c main_v49) (V c main_v50) (V c main_v51) (V c main_v52) (V c main_v53) (V c main_v54) (V c main_arg5) :=
  (dat1 V c).arrAt_eq_of_cover 8 _ (fun t _ => flushed1_8_eq V c t) (cover1_8)

/-- After the middle region the scores' array. -/
theorem final1_9 (c : Dev nD) : (dat1 V c).arrAt 9 cfg1.N = lsG (V c main_v49) (V c main_v51) (V c main_v53) (V c main_v54) :=
  (dat1 V c).arrAt_eq_of_cover 9 _ (fun t _ => flushed1_9_eq V c t) (cover1_9)

end Cert.KernelIdeal.Arr

end
-- ==== Proof.KernelVals.lean ====
/- The values the kernel program's buffers hold, on the extended reals, as functions of the thirteen argument arrays.
   Between two items the buffers are the valuations Gen.V0 … Gen.V8 at the chosen contents of the regions' outputs.
   A host line writes the reference's own operation of what the line before left; a buffer no later line writes is
   carried unchanged; a region's output array is the whole-array function of its operand arrays. Chaining these from
   the launch: the edge normalisation and the joined weights before the first region, the first product after it, its
   aggregation, the gate column and the second product after the middle region, and the clamped biased aggregation of
   the second product after the last. -/
import proofs.«173817_j3994319585552_2_alg».proof.Proof.KernelIdealRun
import proofs.«173817_j3994319585552_2_alg».proof.Proof.HostVals
import proofs.«173817_j3994319585552_2_alg».proof.Proof.HostVals2
import proofs.«173817_j3994319585552_2_alg».proof.Proof.HostVals32
import proofs.«173817_j3994319585552_2_alg».proof.Proof.Blocks02
import proofs.«173817_j3994319585552_2_alg».proof.Proof.Blocks1

noncomputable section

namespace Cert.KernelIdeal.KVals

open Idealize.ShloMosaic Idealize.ShloMosaic.TcCoe Idealize.SL.Sem Idealize.ShloMosaic.StableHlo
open Cert.KernelIdeal Cert.KernelIdeal.Gen
open Cert.KernelIdeal.Regs (outs outs_4 outs_6_0 outs_6_1 outs_8 Win0 Win1 Win2)
open Cert.KernelIdeal.HostVal (s0_v5 s0_v6 s0_v8 s0_v13 s0_v14 s0_cst2 s01_v15 s02_v31 s02_v32 s1_v49 s1_v50 s1_v51 s1_v52 s1_v53 s1_v54 s2_v70 s2_v71 normOf wrapCol)

variable (m : (ℓ : Loc nD τ sig) → Buf (Elt Ideal) ℓ) (c : Dev nD)

/-! ## Before the first region -/

/-- The first line: the edge ends with the loops appended, the weights with ones appended, the degree test and the
    inverse square roots, each the reference's stage of the same arguments. -/
theorem v5_1 : (Gen.V1 m c (Proc.devRef .tc main_v5) : (⟨S850000, .i32⟩ : BufTy).Contents (Elt Ideal)) = Cert.ReferenceIdeal.Read.val_main_v6 (F := Ideal) (m ((c.tc : Thread nD τ).loc main_arg1)) := s0_v5 (Gen.V0 m c)
theorem v6_1 : (Gen.V1 m c (Proc.devRef .tc main_v6) : (⟨S850000, .i32⟩ : BufTy).Contents (Elt Ideal)) = Cert.ReferenceIdeal.Read.val_main_v7 (F := Ideal) (m ((c.tc : Thread nD τ).loc main_arg1)) := s0_v6 (Gen.V0 m c)
theorem v8_1 : (Gen.V1 m c (Proc.devRef .tc main_v8) : (⟨S850000, .f32⟩ : BufTy).Contents (Elt Ideal)) = Cert.ReferenceIdeal.Read.val_main_v9 (F := Ideal) (m ((c.tc : Thread nD τ).loc main_arg2)) := s0_v8 (Gen.V0 m c)
theorem v13_1 : (Gen.V1 m c (Proc.devRef .tc main_v13) : (⟨S50000, .i1⟩ : BufTy).Contents (Elt Ideal)) = Cert.ReferenceIdeal.Read.val_main_v14 (F := Ideal) (m ((c.tc : Thread nD τ).loc main_arg1)) (m ((c.tc : Thread nD τ).loc main_arg2)) := s0_v13 (Gen.V0 m c)
theorem v14_1 : (Gen.V1 m c (Proc.devRef .tc main_v14) : (⟨S50000, .f32⟩ : BufTy).Contents (Elt Ideal)) = Cert.ReferenceIdeal.Read.val_main_v15 (F := Ideal) (m ((c.tc : Thread nD τ).loc main_arg1)) (m ((c.tc : Thread nD τ).loc main_arg2)) := s0_v14 (Gen.V0 m c)
theorem cst2_1 : (Gen.V1 m c (Proc.devRef .tc main_cst_2) : (⟨S_, .f32⟩ : BufTy).Contents (Elt Ideal)) = Cert.ReferenceIdeal.Read.val_main_cst_2 (F := Ideal) := s0_cst2 (Gen.V0 m c)

/-- The second line selects the inverse square root where the degree is positive, zero elsewhere. -/
theorem v15_2 : (Gen.V2 m c (Proc.devRef .tc main_v15) : (⟨S50000, .f32⟩ : BufTy).Contents (Elt Ideal)) = Cert.ReferenceIdeal.Read.val_main_v16 (F := Ideal) (m ((c.tc : Thread nD τ).loc main_arg1)) (m ((c.tc : Thread nD τ).loc main_arg2)) :=
  (s01_v15 (Gen.V1 m c)).trans (by rw [v13_1, v14_1, cst2_1]; rfl)
theorem v5_2 : (Gen.V2 m c (Proc.devRef .tc main_v5) : (⟨S850000, .i32⟩ : BufTy).Contents (Elt Ideal)) = Cert.ReferenceIdeal.Read.val_main_v6 (F := Ideal) (m ((c.tc : Thread nD τ).loc main_arg1)) := (Gen.V2_of m c main_v5 (by decide)).trans (v5_1 m c)
theorem v6_2 : (Gen.V2 m c (Proc.devRef .tc main_v6) : (⟨S850000, .i32⟩ : BufTy).Contents (Elt Ideal)) = Cert.ReferenceIdeal.Read.val_main_v7 (F := Ideal) (m ((c.tc : Thread nD τ).loc main_arg1)) := (Gen.V2_of m c main_v6 (by decide)).trans (v6_1 m c)
theorem v8_2 : (Gen.V2 m c (Proc.devRef .tc main_v8) : (⟨S850000, .f32⟩ : BufTy).Contents (Elt Ideal)) = Cert.ReferenceIdeal.Read.val_main_v9 (F := Ideal) (m ((c.tc : Thread nD τ).loc main_arg2)) := (Gen.V2_of m c main_v8 (by decide)).trans (v8_1 m c)
theorem arg3_2 : (Gen.V2 m c (Proc.devRef .tc main_arg3) : (⟨S128x128, .f32⟩ : BufTy).Contents (Elt Ideal)) = (m ((c.tc : Thread nD τ).loc main_arg3)) :=
  (Gen.V2_of m c main_arg3 (by decide)).trans ((Gen.V1_of m c main_arg3 (by decide)).trans (rfl))
theorem arg9_2 : (Gen.V2 m c (Proc.devRef .tc main_arg9) : (⟨S128x64, .f32⟩ : BufTy).Contents (Elt Ideal)) = (m ((c.tc : Thread nD τ).loc main_arg9)) :=
  (Gen.V2_of m c main_arg9 (by decide)).trans ((Gen.V1_of m c main_arg9 (by decide)).trans (rfl))
theorem arg7_2 : (Gen.V2 m c (Proc.devRef .tc main_arg7) : (⟨S128x128, .f32⟩ : BufTy).Contents (Elt Ideal)) = (m ((c.tc : Thread nD τ).loc main_arg7)) :=
  (Gen.V2_of m c main_arg7 (by decide)).trans ((Gen.V1_of m c main_arg7 (by decide)).trans (rfl))
theorem arg0_3 : (Gen.V3 m c (Proc.devRef .tc main_arg0) : (⟨S50000x128, .f32⟩ : BufTy).Contents (Elt Ideal)) = (m ((c.tc : Thread nD τ).loc main_arg0)) :=
  (Gen.V3_of m c main_arg0 (by decide)).trans ((Gen.V2_of m c main_arg0 (by decide)).trans ((Gen.V1_of m c main_arg0 (by decide)).trans (rfl)))

/-- The third line: the edge normalisation, and the three weight matrices side by side. -/
theorem norm_val : (Gen.V3 m c (Proc.devRef .tc main_v31) : (⟨S850000, .f32⟩ : BufTy).Contents (Elt Ideal)) = Cert.ReferenceIdeal.Read.val_main_v32 (F := Ideal) (m ((c.tc : Thread nD τ).loc main_arg1)) (m ((c.tc : Thread nD τ).loc main_arg2)) :=
  (s02_v31 (Gen.V2 m c)).trans (by rw [v15_2, v5_2, v6_2, v8_2]; unfold normOf wrapCol; rfl)
theorem v5_3 : (Gen.V3 m c (Proc.devRef .tc main_v5) : (⟨S850000, .i32⟩ : BufTy).Contents (Elt Ideal)) = Cert.ReferenceIdeal.Read.val_main_v6 (F := Ideal) (m ((c.tc : Thread nD τ).loc main_arg1)) := (Gen.V3_of m c main_v5 (by decide)).trans (v5_2 m c)
theorem v6_3 : (Gen.V3 m c (Proc.devRef .tc main_v6) : (⟨S850000, .i32⟩ : BufTy).Contents (Elt Ideal)) = Cert.ReferenceIdeal.Read.val_main_v7 (F := Ideal) (m ((c.tc : Thread nD τ).loc main_arg1)) := (Gen.V3_of m c main_v6 (by decide)).trans (v6_2 m c)
theorem v32_3 : (Gen.V3 m c (Proc.devRef .tc main_v32) : (⟨S128x320, .f32⟩ : BufTy).Contents (Elt Ideal)) = (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1) :=
  (s02_v32 (Gen.V2 m c)).trans (by rw [arg3_2, arg9_2, arg7_2])

/-! ## The first region and the line after it -/

/-- The first region leaves the product of the node features with the joined weights. -/
theorem proj_val : outs m 4 main_v33 c = (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) :=
  (outs_4 m c).trans ((Arr.final0 (Win0 m) c).trans (by
    show Arr.prodG (Gen.V3 m c (Proc.devRef .tc main_arg0)) (Gen.V3 m c (Proc.devRef .tc main_v32)) = _
    rw [arg0_3, v32_3]))
theorem v33_4 : (Gen.V4 m (outs m) c (Proc.devRef .tc main_v33) : (⟨S50000x320, .f32⟩ : BufTy).Contents (Elt Ideal)) = (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) :=
  (Function.update_self (β := fun b : DevRef τ sig => BufTy.Contents (Elt Ideal) b.ty) (Proc.devRef .tc main_v33) (outs m 4 main_v33 c) (Gen.V3 m c)).trans (proj_val m c)
theorem v5_4 : (Gen.V4 m (outs m) c (Proc.devRef .tc main_v5) : (⟨S850000, .i32⟩ : BufTy).Contents (Elt Ideal)) = Cert.ReferenceIdeal.Read.val_main_v6 (F := Ideal) (m ((c.tc : Thread nD τ).loc main_arg1)) := (Gen.V4_of m (outs m) c main_v5 (by decide)).trans (v5_3 m c)
theorem v6_4 : (Gen.V4 m (outs m) c (Proc.devRef .tc main_v6) : (⟨S850000, .i32⟩ : BufTy).Contents (Elt Ideal)) = Cert.ReferenceIdeal.Read.val_main_v7 (F := Ideal) (m ((c.tc : Thread nD τ).loc main_arg1)) := (Gen.V4_of m (outs m) c main_v6 (by decide)).trans (v6_3 m c)
theorem v31_4 : (Gen.V4 m (outs m) c (Proc.devRef .tc main_v31) : (⟨S850000, .f32⟩ : BufTy).Contents (Elt Ideal)) = Cert.ReferenceIdeal.Read.val_main_v32 (F := Ideal) (m ((c.tc : Thread nD τ).loc main_arg1)) (m ((c.tc : Thread nD τ).loc main_arg2)) := (Gen.V4_of m (outs m) c main_v31 (by decide)).trans (norm_val m c)
theorem arg4_4 : (Gen.V4 m (outs m) c (Proc.devRef .tc main_arg4) : (⟨S128, .f32⟩ : BufTy).Contents (Elt Ideal)) = (m ((c.tc : Thread nD τ).loc main_arg4)) :=
  (Gen.V4_of m (outs m) c main_arg4 (by decide)).trans ((Gen.V3_of m c main_arg4 (by decide)).trans ((Gen.V2_of m c main_arg4 (by decide)).trans ((Gen.V1_of m c main_arg4 (by decide)).trans (rfl))))
theorem arg10_4 : (Gen.V4 m (outs m) c (Proc.devRef .tc main_arg10) : (⟨S64, .f32⟩ : BufTy).Contents (Elt Ideal)) = (m ((c.tc : Thread nD τ).loc main_arg10)) :=
  (Gen.V4_of m (outs m) c main_arg10 (by decide)).trans ((Gen.V3_of m c main_arg10 (by decide)).trans ((Gen.V2_of m c main_arg10 (by decide)).trans ((Gen.V1_of m c main_arg10 (by decide)).trans (rfl))))
theorem arg8_4 : (Gen.V4 m (outs m) c (Proc.devRef .tc main_arg8) : (⟨S128, .f32⟩ : BufTy).Contents (Elt Ideal)) = (m ((c.tc : Thread nD τ).loc main_arg8)) :=
  (Gen.V4_of m (outs m) c main_arg8 (by decide)).trans ((Gen.V3_of m c main_arg8 (by decide)).trans ((Gen.V2_of m c main_arg8 (by decide)).trans ((Gen.V1_of m c main_arg8 (by decide)).trans (rfl))))
theorem arg11_4 : (Gen.V4 m (outs m) c (Proc.devRef .tc main_arg11) : (⟨S64x1, .f32⟩ : BufTy).Contents (Elt Ideal)) = (m ((c.tc : Thread nD τ).loc main_arg11)) :=
  (Gen.V4_of m (outs m) c main_arg11 (by decide)).trans ((Gen.V3_of m c main_arg11 (by decide)).trans ((Gen.V2_of m c main_arg11 (by decide)).trans ((Gen.V1_of m c main_arg11 (by decide)).trans (rfl))))
theorem arg12_4 : (Gen.V4 m (outs m) c (Proc.devRef .tc main_arg12) : (⟨S1, .f32⟩ : BufTy).Contents (Elt Ideal)) = (m ((c.tc : Thread nD τ).loc main_arg12)) :=
  (Gen.V4_of m (outs m) c main_arg12 (by decide)).trans ((Gen.V3_of m c main_arg12 (by decide)).trans ((Gen.V2_of m c main_arg12 (by decide)).trans ((Gen.V1_of m c main_arg12 (by decide)).trans (rfl))))
theorem arg5_5 : (Gen.V5 m (outs m) c (Proc.devRef .tc main_arg5) : (⟨S128x128, .f32⟩ : BufTy).Contents (Elt Ideal)) = (m ((c.tc : Thread nD τ).loc main_arg5)) :=
  (Gen.V5_of m (outs m) c main_arg5 (by decide)).trans ((Gen.V4_of m (outs m) c main_arg5 (by decide)).trans ((Gen.V3_of m c main_arg5 (by decide)).trans ((Gen.V2_of m c main_arg5 (by decide)).trans ((Gen.V1_of m c main_arg5 (by decide)).trans (rfl)))))

/-- The line after the first region aggregates the product's first 192 columns over the edges and lays the bias
    vectors, the weight column and the scalar bias out as rows. -/
theorem agg_val : (Gen.V5 m (outs m) c (Proc.devRef .tc main_v49) : (⟨S50000x192, .f32⟩ : BufTy).Contents (Elt Ideal)) = (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) :=
  (s1_v49 (Gen.V4 m (outs m) c)).trans (by rw [v33_4, v5_4, v6_4, v31_4])
theorem v50_5 : (Gen.V5 m (outs m) c (Proc.devRef .tc main_v50) : (⟨S1x128, .f32⟩ : BufTy).Contents (Elt Ideal)) = (shapeCast S1x128 (m ((c.tc : Thread nD τ).loc main_arg4)) shapeCasts_S128_S1x128) :=
  (s1_v50 (Gen.V4 m (outs m) c)).trans (by rw [arg4_4])
theorem v51_5 : (Gen.V5 m (outs m) c (Proc.devRef .tc main_v51) : (⟨S1x64, .f32⟩ : BufTy).Contents (Elt Ideal)) = (shapeCast S1x64 (m ((c.tc : Thread nD τ).loc main_arg10)) shapeCasts_S64_S1x64) :=
  (s1_v51 (Gen.V4 m (outs m) c)).trans (by rw [arg10_4])
theorem v52_5 : (Gen.V5 m (outs m) c (Proc.devRef .tc main_v52) : (⟨S1x128, .f32⟩ : BufTy).Contents (Elt Ideal)) = (shapeCast S1x128 (m ((c.tc : Thread nD τ).loc main_arg8)) shapeCasts_S128_S1x128) :=
  (s1_v52 (Gen.V4 m (outs m) c)).trans (by rw [arg8_4])
theorem v53_5 : (Gen.V5 m (outs m) c (Proc.devRef .tc main_v53) : (⟨S1x64, .f32⟩ : BufTy).Contents (Elt Ideal)) = (shapeCast S1x64 (m ((c.tc : Thread nD τ).loc main_arg11)) shapeCasts_S64x1_S1x64) :=
  (s1_v53 (Gen.V4 m (outs m) c)).trans (by rw [arg11_4])
theorem v54_5 : (Gen.V5 m (outs m) c (Proc.devRef .tc main_v54) : (⟨S1x1, .f32⟩ : BufTy).Contents (Elt Ideal)) = (shapeCast S1x1 (m ((c.tc : Thread nD τ).loc main_arg12)) shapeCasts_S1_S1x1) :=
  (s1_v54 (Gen.V4 m (outs m) c)).trans (by rw [arg12_4])
theorem v33_5 : (Gen.V5 m (outs m) c (Proc.devRef .tc main_v33) : (⟨S50000x320, .f32⟩ : BufTy).Contents (Elt Ideal)) = (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) := (Gen.V5_of m (outs m) c main_v33 (by decide)).trans (v33_4 m c)

/-! ## The middle region and the line after it -/

/-- The middle region leaves the gate column -/
theorem ls_out : outs m 6 main_v55_1 c = (Arr.lsG (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x64 (m ((c.tc : Thread nD τ).loc main_arg10)) shapeCasts_S64_S1x64) (shapeCast S1x64 (m ((c.tc : Thread nD τ).loc main_arg11)) shapeCasts_S64x1_S1x64) (shapeCast S1x1 (m ((c.tc : Thread nD τ).loc main_arg12)) shapeCasts_S1_S1x1)) :=
  (outs_6_1 m c).trans ((Arr.final1_9 (Win1 m) c).trans (by
    show Arr.lsG (Gen.V5 m (outs m) c (Proc.devRef .tc main_v49)) (Gen.V5 m (outs m) c (Proc.devRef .tc main_v51))
      (Gen.V5 m (outs m) c (Proc.devRef .tc main_v53)) (Gen.V5 m (outs m) c (Proc.devRef .tc main_v54)) = _
    rw [agg_val, v51_5, v53_5, v54_5]))
/-- and the second product. -/
theorem hx2_val : outs m 6 main_v55_0 c = (Arr.hx2G (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x128 (m ((c.tc : Thread nD τ).loc main_arg4)) shapeCasts_S128_S1x128) (shapeCast S1x64 (m ((c.tc : Thread nD τ).loc main_arg10)) shapeCasts_S64_S1x64) (shapeCast S1x128 (m ((c.tc : Thread nD τ).loc main_arg8)) shapeCasts_S128_S1x128) (shapeCast S1x64 (m ((c.tc : Thread nD τ).loc main_arg11)) shapeCasts_S64x1_S1x64) (shapeCast S1x1 (m ((c.tc : Thread nD τ).loc main_arg12)) shapeCasts_S1_S1x1) (m ((c.tc : Thread nD τ).loc main_arg5))) :=
  (outs_6_0 m c).trans ((Arr.final1_8 (Win1 m) c).trans (by
    show Arr.hx2G (Gen.V5 m (outs m) c (Proc.devRef .tc main_v33)) (Gen.V5 m (outs m) c (Proc.devRef .tc main_v49))
      (Gen.V5 m (outs m) c (Proc.devRef .tc main_v50)) (Gen.V5 m (outs m) c (Proc.devRef .tc main_v51))
      (Gen.V5 m (outs m) c (Proc.devRef .tc main_v52)) (Gen.V5 m (outs m) c (Proc.devRef .tc main_v53))
      (Gen.V5 m (outs m) c (Proc.devRef .tc main_v54)) (Gen.V5 m (outs m) c (Proc.devRef .tc main_arg5)) = _
    rw [v33_5, agg_val, v50_5, v51_5, v52_5, v53_5, v54_5, arg5_5]))

theorem v55_1_6 : (Gen.V6 m (outs m) c (Proc.devRef .tc main_v55_1) : (⟨S50000x1, .f32⟩ : BufTy).Contents (Elt Ideal)) = (Arr.lsG (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x64 (m ((c.tc : Thread nD τ).loc main_arg10)) shapeCasts_S64_S1x64) (shapeCast S1x64 (m ((c.tc : Thread nD τ).loc main_arg11)) shapeCasts_S64x1_S1x64) (shapeCast S1x1 (m ((c.tc : Thread nD τ).loc main_arg12)) shapeCasts_S1_S1x1)) :=
  (Function.update_self (β := fun b : DevRef τ sig => BufTy.Contents (Elt Ideal) b.ty) (Proc.devRef .tc main_v55_1) (outs m 6 main_v55_1 c) _).trans (ls_out m c)
theorem v55_0_6 : (Gen.V6 m (outs m) c (Proc.devRef .tc main_v55_0) : (⟨S50000x128, .f32⟩ : BufTy).Contents (Elt Ideal)) = (Arr.hx2G (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x128 (m ((c.tc : Thread nD τ).loc main_arg4)) shapeCasts_S128_S1x128) (shapeCast S1x64 (m ((c.tc : Thread nD τ).loc main_arg10)) shapeCasts_S64_S1x64) (shapeCast S1x128 (m ((c.tc : Thread nD τ).loc main_arg8)) shapeCasts_S128_S1x128) (shapeCast S1x64 (m ((c.tc : Thread nD τ).loc main_arg11)) shapeCasts_S64x1_S1x64) (shapeCast S1x1 (m ((c.tc : Thread nD τ).loc main_arg12)) shapeCasts_S1_S1x1) (m ((c.tc : Thread nD τ).loc main_arg5))) :=
  ((Function.update_of_ne (β := fun b : DevRef τ sig => BufTy.Contents (Elt Ideal) b.ty) (StableHlo.devRef_ne_of_ne (by decide) : (Proc.devRef .tc main_v55_0 : DevRef τ sig) ≠ Proc.devRef .tc main_v55_1) (outs m 6 main_v55_1 c) _).trans
    (Function.update_self (β := fun b : DevRef τ sig => BufTy.Contents (Elt Ideal) b.ty) (Proc.devRef .tc main_v55_0) (outs m 6 main_v55_0 c) (Gen.V5 m (outs m) c))).trans (hx2_val m c)
/-- The gate column is the program's second result: nothing after the middle region writes it. -/
theorem ls_val : (Gen.V8 m (outs m) c (Proc.devRef .tc main_v55_1) : (⟨S50000x1, .f32⟩ : BufTy).Contents (Elt Ideal)) = (Arr.lsG (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x64 (m ((c.tc : Thread nD τ).loc main_arg10)) shapeCasts_S64_S1x64) (shapeCast S1x64 (m ((c.tc : Thread nD τ).loc main_arg11)) shapeCasts_S64x1_S1x64) (shapeCast S1x1 (m ((c.tc : Thread nD τ).loc main_arg12)) shapeCasts_S1_S1x1)) := (Gen.V8_of m (outs m) c main_v55_1 (by decide)).trans ((Gen.V7_of m (outs m) c main_v55_1 (by decide)).trans (v55_1_6 m c))
theorem v5_6 : (Gen.V6 m (outs m) c (Proc.devRef .tc main_v5) : (⟨S850000, .i32⟩ : BufTy).Contents (Elt Ideal)) = Cert.ReferenceIdeal.Read.val_main_v6 (F := Ideal) (m ((c.tc : Thread nD τ).loc main_arg1)) := (Gen.V6_of m (outs m) c main_v5 (by decide)).trans ((Gen.V5_of m (outs m) c main_v5 (by decide)).trans (v5_4 m c))
theorem v6_6 : (Gen.V6 m (outs m) c (Proc.devRef .tc main_v6) : (⟨S850000, .i32⟩ : BufTy).Contents (Elt Ideal)) = Cert.ReferenceIdeal.Read.val_main_v7 (F := Ideal) (m ((c.tc : Thread nD τ).loc main_arg1)) := (Gen.V6_of m (outs m) c main_v6 (by decide)).trans ((Gen.V5_of m (outs m) c main_v6 (by decide)).trans (v6_4 m c))
theorem v31_6 : (Gen.V6 m (outs m) c (Proc.devRef .tc main_v31) : (⟨S850000, .f32⟩ : BufTy).Contents (Elt Ideal)) = Cert.ReferenceIdeal.Read.val_main_v32 (F := Ideal) (m ((c.tc : Thread nD τ).loc main_arg1)) (m ((c.tc : Thread nD τ).loc main_arg2)) := (Gen.V6_of m (outs m) c main_v31 (by decide)).trans ((Gen.V5_of m (outs m) c main_v31 (by decide)).trans (v31_4 m c))
theorem arg6_6 : (Gen.V6 m (outs m) c (Proc.devRef .tc main_arg6) : (⟨S128, .f32⟩ : BufTy).Contents (Elt Ideal)) = (m ((c.tc : Thread nD τ).loc main_arg6)) :=
  (Gen.V6_of m (outs m) c main_arg6 (by decide)).trans ((Gen.V5_of m (outs m) c main_arg6 (by decide)).trans ((Gen.V4_of m (outs m) c main_arg6 (by decide)).trans ((Gen.V3_of m c main_arg6 (by decide)).trans ((Gen.V2_of m c main_arg6 (by decide)).trans ((Gen.V1_of m c main_arg6 (by decide)).trans (rfl))))))

/-- The line after the middle region aggregates the second product over the edges and lays the last bias out as a row. -/
theorem v70_7 : (Gen.V7 m (outs m) c (Proc.devRef .tc main_v70) : (⟨S50000x128, .f32⟩ : BufTy).Contents (Elt Ideal)) = (HostVal.agg128 (Arr.hx2G (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x128 (m ((c.tc : Thread nD τ).loc main_arg4)) shapeCasts_S128_S1x128) (shapeCast S1x64 (m ((c.tc : Thread nD τ).loc main_arg10)) shapeCasts_S64_S1x64) (shapeCast S1x128 (m ((c.tc : Thread nD τ).loc main_arg8)) shapeCasts_S128_S1x128) (shapeCast S1x64 (m ((c.tc : Thread nD τ).loc main_arg11)) shapeCasts_S64x1_S1x64) (shapeCast S1x1 (m ((c.tc : Thread nD τ).loc main_arg12)) shapeCasts_S1_S1x1) (m ((c.tc : Thread nD τ).loc main_arg5))) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) :=
  (s2_v70 (Gen.V6 m (outs m) c)).trans (by rw [v55_0_6, v5_6, v6_6, v31_6])
theorem v71_7 : (Gen.V7 m (outs m) c (Proc.devRef .tc main_v71) : (⟨S1x128, .f32⟩ : BufTy).Contents (Elt Ideal)) = (shapeCast S1x128 (m ((c.tc : Thread nD τ).loc main_arg6)) shapeCasts_S128_S1x128) :=
  (s2_v71 (Gen.V6 m (outs m) c)).trans (by rw [arg6_6])

/-! ## The last region -/

/-- The last region leaves the aggregated second product plus the bias row, cut off below at zero: the program's
    first result. -/
theorem out_val : (Gen.V8 m (outs m) c (Proc.devRef .tc main_v72) : (⟨S50000x128, .f32⟩ : BufTy).Contents (Elt Ideal)) = (Arr.biasReluG (HostVal.agg128 (Arr.hx2G (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (HostVal.agg192 (Arr.prodG (m ((c.tc : Thread nD τ).loc main_arg0)) (concatenate S128x320 1 [⟨S128x128, (m ((c.tc : Thread nD τ).loc main_arg3))⟩, ⟨S128x64, (m ((c.tc : Thread nD τ).loc main_arg9))⟩, ⟨S128x128, (m ((c.tc : Thread nD τ).loc main_arg7))⟩] concatenates_S128x128_S128x64_S128x128_S128x320_d1)) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x128 (m ((c.tc : Thread nD τ).loc main_arg4)) shapeCasts_S128_S1x128) (shapeCast S1x64 (m ((c.tc : Thread nD τ).loc main_arg10)) shapeCasts_S64_S1x64) (shapeCast S1x128 (m ((c.tc : Thread nD τ).loc main_arg8)) shapeCasts_S128_S1x128) (shapeCast S1x64 (m ((c.tc : Thread nD τ).loc main_arg11)) shapeCasts_S64x1_S1x64) (shapeCast S1x1 (m ((c.tc : Thread nD τ).loc main_arg12)) shapeCasts_S1_S1x1) (m ((c.tc : Thread nD τ).loc main_arg5))) (Cert.ReferenceIdeal.Read.val_main_v6 (F := Ideal) (m ((c.tc : Thread nD τ).loc main_arg1))) (Cert.ReferenceIdeal.Read.val_main_v7 (F := Ideal) (m ((c.tc : Thread nD τ).loc main_arg1))) (Cert.ReferenceIdeal.Read.val_main_v32 (F := Ideal) (m ((c.tc : Thread nD τ).loc main_arg1)) (m ((c.tc : Thread nD τ).loc main_arg2)))) (shapeCast S1x128 (m ((c.tc : Thread nD τ).loc main_arg6)) shapeCasts_S128_S1x128)) :=
  (Function.update_self (β := fun b : DevRef τ sig => BufTy.Contents (Elt Ideal) b.ty) (Proc.devRef .tc main_v72) (outs m 8 main_v72 c) (Gen.V7 m (outs m) c)).trans
    ((outs_8 m c).trans ((Arr.final2 (Win2 m) c).trans (by
      show Arr.biasReluG (Gen.V7 m (outs m) c (Proc.devRef .tc main_v70)) (Gen.V7 m (outs m) c (Proc.devRef .tc main_v71)) = _
      rw [v70_7, v71_7])))

end Cert.KernelIdeal.KVals

end
-- ==== Proof.BridgeW.lean ====
/-
  The first product against the reference's three separate products.

  The joined weights are W1, Wl, Ws side by side, so the product's columns 0..127, 128..191, 192..319 are the three
  separate products of the reference.
-/
import proofs.«173817_j3994319585552_2_alg».proof.Proof.Blocks02
import proofs.«173817_j3994319585552_2_alg».proof.Proof.Gen.ReferenceIdeal.Read

noncomputable section

open scoped BigOperators

namespace Cert.KernelIdeal.Bridge

open Idealize.ShloMosaic Idealize.ShloMosaic.ValueIdx
open Cert.KernelIdeal Cert.KernelIdeal.Gen Cert.KernelIdeal.Arr

/-! ## The joined weights, column group by column group -/

section Product
variable (X : FVec Ideal S50000x128 .f32) (W1 : FVec Ideal S128x128 .f32) (Wl : FVec Ideal S128x64 .f32)
  (Ws : FVec Ideal S128x128 .f32)

/-- W1, Wl, Ws side by side. -/
def wcat : FVec Ideal S128x320 .f32 :=
  concatenate S128x320 1 [⟨S128x128, W1⟩, ⟨S128x64, Wl⟩, ⟨S128x128, Ws⟩] concatenates_S128x128_S128x64_S128x128_S128x320_d1

theorem wcat_left (k : Fin 128) (j : Fin 128) :
    wcat W1 Wl Ws (ix2 k (⟨j.val, by have := j.isLt; omega⟩ : Fin 320)) = W1 (ix2 k j) := by
  unfold wcat
  refine concatenate_apply_piece (t := S128x320) (1 : Fin 2) [⟨S128x128, W1⟩, ⟨S128x64, Wl⟩, ⟨S128x128, Ws⟩] concatenates_S128x128_S128x64_S128x128_S128x320_d1 _ 0 (by simp) S128x128 W1 rfl rfl 0 rfl (ix2 k j) (fun b hb => ?_) ?_
  · match b with
    | ⟨0, _⟩ => rfl
    | ⟨1, _⟩ => exact absurd rfl hb
  · show 0 + j.val = j.val; omega

theorem wcat_mid (k : Fin 128) (j : Fin 64) :
    wcat W1 Wl Ws (ix2 k (⟨128 + j.val, by have := j.isLt; omega⟩ : Fin 320)) = Wl (ix2 k j) := by
  unfold wcat
  refine concatenate_apply_piece (t := S128x320) (1 : Fin 2) [⟨S128x128, W1⟩, ⟨S128x64, Wl⟩, ⟨S128x128, Ws⟩] concatenates_S128x128_S128x64_S128x128_S128x320_d1 _ 1 (by simp) S128x64 Wl rfl rfl 128 rfl (ix2 k j) (fun b hb => ?_) ?_
  · match b with
    | ⟨0, _⟩ => rfl
    | ⟨1, _⟩ => exact absurd rfl hb
  · rfl

theorem wcat_right (k : Fin 128) (j : Fin 128) :
    wcat W1 Wl Ws (ix2 k (⟨192 + j.val, by have := j.isLt; omega⟩ : Fin 320)) = Ws (ix2 k j) := by
  unfold wcat
  refine concatenate_apply_piece (t := S128x320) (1 : Fin 2) [⟨S128x128, W1⟩, ⟨S128x64, Wl⟩, ⟨S128x128, Ws⟩] concatenates_S128x128_S128x64_S128x128_S128x320_d1 _ 2 (by simp) S128x128 Ws rfl rfl 192 rfl (ix2 k j) (fun b hb => ?_) ?_
  · match b with
    | ⟨0, _⟩ => rfl
    | ⟨1, _⟩ => exact absurd rfl hb
  · rfl

/-- Columns 0..127 of the joined product are the product with W1. -/
theorem prod_left (r : Fin 50000) (j : Fin 128) :
    prodG X (wcat W1 Wl Ws) (ix2 r (⟨j.val, by have := j.isLt; omega⟩ : Fin 320))
      = Cert.ReferenceIdeal.Read.val_main_v4 (F := Ideal) X W1 (ix2 r j) := by
  rw [Cert.ReferenceIdeal.Read.val_main_v4_apply]
  unfold prodG
  refine Finset.sum_congr rfl fun k _ => ?_
  refine congrArg₂ (· * ·) (congrArg X ?_) ((wcat_left W1 Wl Ws k j).trans (congrArg W1 ?_))
  · funext a; match a with
    | ⟨0, _⟩ => rfl
    | ⟨1, _⟩ => rfl
  · funext a; match a with
    | ⟨0, _⟩ => rfl
    | ⟨1, _⟩ => rfl

/-- Columns 128..191 are the product with Wl. -/
theorem prod_mid (r : Fin 50000) (j : Fin 64) :
    prodG X (wcat W1 Wl Ws) (ix2 r (⟨128 + j.val, by have := j.isLt; omega⟩ : Fin 320))
      = Cert.ReferenceIdeal.Read.val_main_v50 (F := Ideal) X Wl (ix2 r j) := by
  rw [Cert.ReferenceIdeal.Read.val_main_v50_apply]
  unfold prodG
  refine Finset.sum_congr rfl fun k _ => ?_
  refine congrArg₂ (· * ·) (congrArg X ?_) ((wcat_mid W1 Wl Ws k j).trans (congrArg Wl ?_))
  · funext a; match a with
    | ⟨0, _⟩ => rfl
    | ⟨1, _⟩ => rfl
  · funext a; match a with
    | ⟨0, _⟩ => rfl
    | ⟨1, _⟩ => rfl

/-- Columns 192..319 are the product with Ws. -/
theorem prod_right (r : Fin 50000) (j : Fin 128) :
    prodG X (wcat W1 Wl Ws) (ix2 r (⟨192 + j.val, by have := j.isLt; omega⟩ : Fin 320))
      = Cert.ReferenceIdeal.Read.val_main_v106 (F := Ideal) X Ws (ix2 r j) := by
  rw [Cert.ReferenceIdeal.Read.val_main_v106_apply]
  unfold prodG
  refine Finset.sum_congr rfl fun k _ => ?_
  refine congrArg₂ (· * ·) (congrArg X ?_) ((wcat_right W1 Wl Ws k j).trans (congrArg Ws ?_))
  · funext a; match a with
    | ⟨0, _⟩ => rfl
    | ⟨1, _⟩ => rfl
  · funext a; match a with
    | ⟨0, _⟩ => rfl
    | ⟨1, _⟩ => rfl

end Product

end Cert.KernelIdeal.Bridge

end
-- ==== Proof.LibGatherScatter.lean ====
/-
  Two index-driven array operations read at one element, for a column of indices.

  A gather of whole rows of an `N × C` array (or of single elements of an `N`-vector) at an `E × 1` column of start
  indices reads the operand at the start index, taken as a signed integer and clamped into `[0, N − 1]`.
  A float scatter-add of `E` rows (or single elements) at an `E × 1` column of scatter indices is, at output row `v`,
  the operand plus the sum over the update rows `e` whose index, taken as a signed integer and NOT clamped, is exactly `v`;
  an update whose index lies outside `[0, N − 1]` contributes nothing. The sums are in the extended reals, an additive
  commutative monoid: no finiteness is assumed.

  Every lemma is generic in the extents and the index width; the dimension numbers are given by equations on the
  record's fields, so a lemma applies to any record with those fields.
-/
import Idealize.ShloMosaic.PureOps.Ideal
import Idealize.ShloMosaic.Lib.ValueIdx

open Idealize.ShloMosaic Idealize.ShloMosaic.ValueIdx
open scoped BigOperators

namespace Cert.GatherScatter

/-! ## Gather of whole rows, and of single elements, at a column of start indices -/

section Gather
variable {α : Type}

/-- The dimension numbers of a gather of whole rows of an `N × C` operand at an `E × 1` column of start indices. -/
private abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

private theorem gather_rows_lit {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the collapsed axis: the clamped start index, no batching and no offset coordinate
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the kept axis: start 0, no batching coordinate, the offset coordinate is the column
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show (1 : Fin 2) ∉ ([0] : List (Fin 2)) by decide)]
    have ho : (rowsDims N E C wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hs, ho]; omega

/-- A gather of whole rows of an `N × C` operand at an `E × 1` column of start indices, read at `(e, c)`: the
    operand's row at the start index `idx[e, 0]`, read signed and clamped into `[0, N − 1]`, at column `c`. -/
theorem gather_rows_apply {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  exact gather_rows_lit hN wf x idx e c

/-- The dimension numbers of a gather of single elements of an `N`-vector at an `E × 1` column of start indices. -/
private abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

private theorem gather_vec_lit {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A gather of single elements of an `N`-vector at an `E × 1` column of start indices, read at `e`: the operand
    at the start index `idx[e, 0]`, read signed and clamped into `[0, N − 1]`. -/
theorem gather_vec_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (⟨min (idx (ix2 e (0 : Fin 1))).toInt.toNat (N - 1), by omega⟩ : Fin N)) := by
  obtain ⟨od, cd, ob, sb, sm, iv, ss, wf⟩ := d
  simp only at hod hcd hob hsb hsm hiv hss
  subst hod hcd hob hsb hsm hiv hss
  exact gather_vec_lit hN wf x idx e

end Gather

/-! ## The float scatter-add of rows, and of single elements, at a column of scatter indices -/

section Scatter

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The dimension numbers of a scatter of `E` rows of length `C` into an `N × C` operand at an `E × 1` column of
    scatter indices. -/
private abbrev sRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the scatter index, read signed. -/
private theorem sRows_start0 :
    (sRowsDims N E C wf).start (ix2 e c) idx 0 = (idx (ix2 e (0 : Fin 1))).toInt := by
  unfold ScatterDims.start
  rw [dif_pos (show (0 : Fin 2) ∈ (sRowsDims N E C wf).scatterDimsToOperandDims from List.mem_singleton.mpr rfl)]
  have hsi : (sRowsDims N E C wf).siIdx (ix2 e c) ⟨List.idxOf (0 : Fin 2) (sRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
private theorem sRows_start1 : (sRowsDims N E C wf).start (ix2 e c) idx 1 = 0 := by
  unfold ScatterDims.start
  rw [dif_neg (show (1 : Fin 2) ∉ ([0] : List (Fin 2)) by decide)]

/-- The row axis is inserted: its window coordinate is `0`. -/
private theorem sRows_window0 : (sRowsDims N E C wf).window (ix2 e c) 0 = 0 := by
  unfold ScatterDims.window
  have hk : (0 : Fin 2) ∉ (sRowsDims N E C wf).sKept :=
    (by decide : (0 : Fin 2) ∉ (List.finRange 2).filter (· ∉ ([0] : List (Fin 2))))
  rw [dif_neg hk]

/-- The column axis's window coordinate is the update's column. -/
private theorem sRows_window1 : (sRowsDims N E C wf).window (ix2 e c) 1 = c.val := by
  unfold ScatterDims.window
  have hk : (1 : Fin 2) ∈ (sRowsDims N E C wf).sKept :=
    (by decide : (1 : Fin 2) ∈ (List.finRange 2).filter (· ∉ ([0] : List (Fin 2))))
  rw [dif_pos hk]
  rfl

/-- Update element `(e, c)` lands on operand element `(v, c')` exactly when its scatter index, read signed, is `v`
    and the columns agree. -/
private theorem sRows_resultIdx_iff (v : Fin N) (c' : Fin C) :
    (sRowsDims N E C wf).resultIdx? (ix2 e c) idx = some (ix2 v c')
      ↔ (idx (ix2 e (0 : Fin 1))).toInt = (v.val : Int) ∧ c = c' := by
  have h0 := sRows_start0 wf idx e c
  have h1 := sRows_start1 wf idx e c
  have w0 := sRows_window0 wf e c
  have w1 := sRows_window1 wf e c
  unfold ScatterDims.resultIdx?
  split
  · rename_i h
    rw [Option.some.injEq]
    constructor
    · intro heq
      have e0 := congrArg Fin.val (congrFun heq 0)
      have e1 := congrArg Fin.val (congrFun heq 1)
      have b0 := (h 0).1
      change (((sRowsDims N E C wf).start (ix2 e c) idx 0 + ((sRowsDims N E C wf).window (ix2 e c) 0 : Nat)).toNat) = v.val at e0
      change (((sRowsDims N E C wf).start (ix2 e c) idx 1 + ((sRowsDims N E C wf).window (ix2 e c) 1 : Nat)).toNat) = c'.val at e1
      rw [h0, w0] at e0 b0
      rw [h1, w1] at e1
      refine ⟨by omega, Fin.ext (by omega)⟩
    · rintro ⟨hv, rfl⟩
      funext a
      refine Fin.ext ?_
      match a with
      | ⟨0, _⟩ =>
        show (((sRowsDims N E C wf).start (ix2 e c) idx 0 + ((sRowsDims N E C wf).window (ix2 e c) 0 : Nat)).toNat) = v.val
        rw [h0, w0]; omega
      | ⟨1, _⟩ =>
        show (((sRowsDims N E C wf).start (ix2 e c) idx 1 + ((sRowsDims N E C wf).window (ix2 e c) 1 : Nat)).toNat) = c.val
        rw [h1, w1]; omega
  · rename_i h
    constructor
    · intro heq; exact absurd heq (by simp)
    · rintro ⟨hv, rfl⟩
      refine absurd (fun a => ?_) h
      match a with
      | ⟨0, _⟩ =>
        show 0 ≤ (sRowsDims N E C wf).start (ix2 e c) idx 0 + ((sRowsDims N E C wf).window (ix2 e c) 0 : Nat)
          ∧ (sRowsDims N E C wf).start (ix2 e c) idx 0 + ((sRowsDims N E C wf).window (ix2 e c) 0 : Nat) < (N : Int)
        rw [h0, w0]; have := v.isLt; omega
      | ⟨1, _⟩ =>
        show 0 ≤ (sRowsDims N E C wf).start (ix2 e c) idx 1 + ((sRowsDims N E C wf).window (ix2 e c) 1 : Nat)
          ∧ (sRowsDims N E C wf).start (ix2 e c) idx 1 + ((sRowsDims N E C wf).window (ix2 e c) 1 : Nat) < (C : Int)
        rw [h1, w1]; have := c.isLt; omega

end Rows

private theorem scatterAdd_rows_lit {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (sRowsDims N E C wf) x idx upd (ix2 v c)
      = x (ix2 v c) + ∑ e ∈ Finset.univ.filter (fun e : Fin E => (idx (ix2 e (0 : Fin 1))).toInt = (v.val : Int)), upd (ix2 e c) := by
  unfold Ideal.hostScatterAdd
  congr 1
  rw [Finset.sum_filter, Finset.sum_filter, sum_idx2]
  refine Finset.sum_congr rfl (fun e _ => ?_)
  simp only [sRows_resultIdx_iff wf idx e _ v c]
  by_cases hv : (idx (ix2 e (0 : Fin 1))).toInt = (v.val : Int)
  · simp only [hv, true_and, if_true]
    exact Finset.sum_ite_eq' Finset.univ c (fun c' => upd (ix2 e c')) |>.trans (if_pos (Finset.mem_univ c))
  · simp only [hv, false_and, if_false]
    exact Finset.sum_const_zero

/-- The host's float scatter-add of `E` rows into an `N × C` operand at an `E × 1` column of scatter indices, read
    at `(v, c)`: the operand plus the sum, over the update rows `e` whose index word `idx[e, 0]`, read signed and not
    clamped, is exactly `v`, of the update's element `(e, c)`. -/
theorem scatterAdd_rows_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal) (v : Fin N) (c : Fin C) :
    Ideal.hostScatterAdd d x idx upd (ix2 v c)
      = x (ix2 v c) + ∑ e ∈ Finset.univ.filter (fun e : Fin E => (idx (ix2 e (0 : Fin 1))).toInt = (v.val : Int)), upd (ix2 e c) := by
  obtain ⟨uw, iw, sd, iv, wf⟩ := d
  simp only at huw hiw hsd hiv
  subst huw hiw hsd hiv
  exact scatterAdd_rows_lit wf x idx upd v c

/-- The dimension numbers of a scatter of `E` single elements into an `N`-vector at an `E × 1` column of scatter
    indices. -/
private abbrev sVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window starts at the scatter index, read signed. -/
private theorem sVec_start0 :
    (sVecDims N E wf).start (ix1 e) idx 0 = (idx (ix2 e (0 : Fin 1))).toInt := by
  unfold ScatterDims.start
  rw [dif_pos (show (0 : Fin 1) ∈ (sVecDims N E wf).scatterDimsToOperandDims from List.mem_singleton.mpr rfl)]
  have hsi : (sVecDims N E wf).siIdx (ix1 e) ⟨List.idxOf (0 : Fin 1) (sVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- That axis is inserted: its window coordinate is `0`. -/
private theorem sVec_window0 : (sVecDims N E wf).window (ix1 e) 0 = 0 := by
  unfold ScatterDims.window
  have hk : (0 : Fin 1) ∉ (sVecDims N E wf).sKept :=
    (by decide : (0 : Fin 1) ∉ (List.finRange 1).filter (· ∉ ([0] : List (Fin 1))))
  rw [dif_neg hk]

/-- Update element `e` lands on operand element `v` exactly when its scatter index, read signed, is `v`. -/
private theorem sVec_resultIdx_iff (v : Fin N) :
    (sVecDims N E wf).resultIdx? (ix1 e) idx = some (ix1 v) ↔ (idx (ix2 e (0 : Fin 1))).toInt = (v.val : Int) := by
  have h0 := sVec_start0 wf idx e
  have w0 := sVec_window0 wf e
  unfold ScatterDims.resultIdx?
  split
  · rename_i h
    rw [Option.some.injEq]
    constructor
    · intro heq
      have e0 := congrArg Fin.val (congrFun heq 0)
      have b0 := (h 0).1
      change (((sVecDims N E wf).start (ix1 e) idx 0 + ((sVecDims N E wf).window (ix1 e) 0 : Nat)).toNat) = v.val at e0
      rw [h0, w0] at e0 b0
      omega
    · intro hv
      funext a
      refine Fin.ext ?_
      match a with
      | ⟨0, _⟩ =>
        show (((sVecDims N E wf).start (ix1 e) idx 0 + ((sVecDims N E wf).window (ix1 e) 0 : Nat)).toNat) = v.val
        rw [h0, w0]; omega
  · rename_i h
    constructor
    · intro heq; exact absurd heq (by simp)
    · intro hv
      refine absurd (fun a => ?_) h
      match a with
      | ⟨0, _⟩ =>
        show 0 ≤ (sVecDims N E wf).start (ix1 e) idx 0 + ((sVecDims N E wf).window (ix1 e) 0 : Nat)
          ∧ (sVecDims N E wf).start (ix1 e) idx 0 + ((sVecDims N E wf).window (ix1 e) 0 : Nat) < (N : Int)
        rw [h0, w0]; have := v.isLt; omega

end Vec

private theorem scatterAdd_vec_lit {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (sVecDims N E wf) x idx upd (ix1 v)
      = x (ix1 v) + ∑ e ∈ Finset.univ.filter (fun e : Fin E => (idx (ix2 e (0 : Fin 1))).toInt = (v.val : Int)), upd (ix1 e) := by
  unfold Ideal.hostScatterAdd
  congr 1
  rw [Finset.sum_filter, Finset.sum_filter, sum_idx1]
  refine Finset.sum_congr rfl (fun e _ => ?_)
  simp only [sVec_resultIdx_iff wf idx e v]

/-- The host's float scatter-add of `E` single elements into an `N`-vector at an `E × 1` column of scatter indices,
    read at `v`: the operand plus the sum, over the updates `e` whose index word `idx[e, 0]`, read signed and not
    clamped, is exactly `v`, of the update's element `e`. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal) (v : Fin N) :
    Ideal.hostScatterAdd d x idx upd (ix1 v)
      = x (ix1 v) + ∑ e ∈ Finset.univ.filter (fun e : Fin E => (idx (ix2 e (0 : Fin 1))).toInt = (v.val : Int)), upd (ix1 e) := by
  obtain ⟨uw, iw, sd, iv, wf⟩ := d
  simp only at huw hiw hsd hiv
  subst huw hiw hsd hiv
  exact scatterAdd_vec_lit wf x idx upd v

end Scatter

end Cert.GatherScatter
-- ==== Proof.LibEdgeNorm.lean ====
/-
  A normalised neighbourhood sum read at one element.

  Rows of an N × C table are gathered at an E × 1 column of source indices, every gathered row e is scaled by a factor
  nrm e (the factor spread over the row), and the scaled rows are scatter-added into an N × C array at an E × 1 column of
  destination indices.  At (v, c) the result is the operand plus the sum, over the edges e whose destination word read
  signed is exactly v, of the table's column c at the source word read signed and clamped into [0, N − 1], times nrm e.
  Only column c of the table matters: the sum is stated over that column as a function of the row, so two tables of
  different widths with a common column give the same sum.  Sums in the extended reals; no finiteness is needed.
  Generic in N, E, C and the dimension-number records (given by equations on their fields).
-/
import proofs.«173817_j3994319585552_2_alg».proof.Proof.LibGatherScatter
import Idealize.ShloMosaic.Lib.Pipeline.Value

noncomputable section

open Idealize.ShloMosaic Idealize.ShloMosaic.ValueIdx
open scoped BigOperators

namespace Cert.LibEdgeNorm

/-- The sum over the edges into v of a column's value at the edge's (clamped) source times the edge's factor. -/
def edgeSum {N E : Nat} (hN : 0 < N) (col : Fin N → EReal) (sc dc : IVec ⟨2, ![E, 1]⟩ 32)
    (nrm : (⟨1, ![E]⟩ : Shape).Idx → EReal) (v : Fin N) : EReal :=
  ∑ e ∈ Finset.univ.filter (fun e : Fin E => (dc (ix2 e (0 : Fin 1))).toInt = (v.val : Int)),
    col (⟨min (sc (ix2 e (0 : Fin 1))).toInt.toNat (N - 1), by omega⟩ : Fin N) * nrm (ix1 e)

/-- A per-edge factor laid out as a column and spread over C lanes reads, at (e, c), the factor of edge e. -/
theorem spread_apply {E C : Nat} (nrm : (⟨1, ![E]⟩ : Shape).Idx → EReal)
    (h1 : (⟨1, ![E]⟩ : Shape).BroadcastsInDim ⟨2, ![E, 1]⟩ ![0])
    (h2 : (⟨2, ![E, 1]⟩ : Shape).BroadcastsInDim ⟨2, ![E, C]⟩ ![0, 1]) (e : Fin E) (c : Fin C) :
    broadcastInDim ⟨2, ![E, C]⟩ ![0, 1] h2 (broadcastInDim ⟨2, ![E, 1]⟩ ![0] h1 nrm) (ix2 e c) = nrm (ix1 e) := by
  refine (broadcastInDim_apply _ h2 _ (ix2 e c) (ix2 e (0 : Fin 1)) fun a => ?_).trans ?_
  · match a with
    | ⟨0, _⟩ =>
      show e.val = if E = 1 then 0 else e.val
      split
      · have := e.isLt; omega
      · rfl
    | ⟨1, _⟩ => rfl
  · refine broadcastInDim_apply _ h1 _ (ix2 e (0 : Fin 1)) (ix1 e) fun a => ?_
    match a with
    | ⟨0, _⟩ =>
      show e.val = if E = 1 then 0 else e.val
      split
      · have := e.isLt; omega
      · rfl

/-- The scatter-add of gathered, scaled rows read at (v, c). -/
theorem scatter_gather_apply {N E C : Nat} (hN : 0 < N)
    (gd : GatherDims ⟨2, ![N, C]⟩ ⟨2, ![E, 1]⟩ ⟨2, ![E, C]⟩)
    (hod : gd.offsetDims = [1]) (hcd : gd.collapsedSliceDims = [0]) (hob : gd.operandBatchingDims = [])
    (hsb : gd.startIndicesBatchingDims = []) (hsm : gd.startIndexMap = [0]) (hiv : gd.indexVectorDim = 1)
    (hss : gd.sliceSizes = ![1, C])
    (sd : ScatterDims ⟨2, ![N, C]⟩ ⟨2, ![E, 1]⟩ ⟨2, ![E, C]⟩)
    (huw : sd.updateWindowDims = [1]) (hiw : sd.insertedWindowDims = [0]) (hsd : sd.scatterDimsToOperandDims = [0])
    (hiv' : sd.indexVectorDim = 1)
    (z tbl : (⟨2, ![N, C]⟩ : Shape).Idx → EReal) (sc dc : IVec ⟨2, ![E, 1]⟩ 32) (nrm : (⟨1, ![E]⟩ : Shape).Idx → EReal)
    (h1 : (⟨1, ![E]⟩ : Shape).BroadcastsInDim ⟨2, ![E, 1]⟩ ![0])
    (h2 : (⟨2, ![E, 1]⟩ : Shape).BroadcastsInDim ⟨2, ![E, C]⟩ ![0, 1]) (v : Fin N) (c : Fin C) :
    Ideal.hostScatterAdd sd z dc
        (fun i => Host.gather gd tbl sc i * broadcastInDim ⟨2, ![E, C]⟩ ![0, 1] h2 (broadcastInDim ⟨2, ![E, 1]⟩ ![0] h1 nrm) i) (ix2 v c)
      = z (ix2 v c) + edgeSum hN (fun r => tbl (ix2 r c)) sc dc nrm v := by
  rw [Cert.GatherScatter.scatterAdd_rows_apply sd huw hiw hsd hiv']
  refine congrArg (z (ix2 v c) + ·) (Finset.sum_congr rfl fun e _ => ?_)
  show Host.gather gd tbl sc (ix2 e c) * _ = _
  rw [Cert.GatherScatter.gather_rows_apply hN gd hod hcd hob hsb hsm hiv hss, spread_apply]

/-- The same in the host program's spelling: the host's scatter-add of the elementwise product of the gathered rows with
    the spread factors. -/
theorem host_scatter_gather_apply {N E C : Nat} (hN : 0 < N)
    (gd : GatherDims ⟨2, ![N, C]⟩ ⟨2, ![E, 1]⟩ ⟨2, ![E, C]⟩)
    (hod : gd.offsetDims = [1]) (hcd : gd.collapsedSliceDims = [0]) (hob : gd.operandBatchingDims = [])
    (hsb : gd.startIndicesBatchingDims = []) (hsm : gd.startIndexMap = [0]) (hiv : gd.indexVectorDim = 1)
    (hss : gd.sliceSizes = ![1, C])
    (sd : ScatterDims ⟨2, ![N, C]⟩ ⟨2, ![E, 1]⟩ ⟨2, ![E, C]⟩)
    (huw : sd.updateWindowDims = [1]) (hiw : sd.insertedWindowDims = [0]) (hsd : sd.scatterDimsToOperandDims = [0])
    (hiv' : sd.indexVectorDim = 1)
    (z tbl : FVec Ideal ⟨2, ![N, C]⟩ .f32) (sc dc : IVec ⟨2, ![E, 1]⟩ 32) (nrm : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, C]⟩ ![0, 1]) (v : Fin N) (c : Fin C) :
    Host.scatterAdd sd z dc
        (mulf (F := Ideal) (φ := .f32) (Host.gather gd tbl sc)
          (broadcastInDim ⟨2, ![E, C]⟩ ![0, 1] h2 (broadcastInDim ⟨2, ![E, 1]⟩ ![0] h1 nrm))) (ix2 v c)
      = z (ix2 v c) + edgeSum hN (fun r => tbl (ix2 r c)) sc dc nrm v :=
  scatter_gather_apply hN gd hod hcd hob hsb hsm hiv hss sd huw hiw hsd hiv' z tbl sc dc nrm h1 h2 v c

/-- The same when the gathered rows pass through a narrower float format and back: on the extended reals a change of
    format is the identity. -/
theorem host_scatter_gather_fmt_apply {N E C : Nat} (hN : 0 < N)
    (gd : GatherDims ⟨2, ![N, C]⟩ ⟨2, ![E, 1]⟩ ⟨2, ![E, C]⟩)
    (hod : gd.offsetDims = [1]) (hcd : gd.collapsedSliceDims = [0]) (hob : gd.operandBatchingDims = [])
    (hsb : gd.startIndicesBatchingDims = []) (hsm : gd.startIndexMap = [0]) (hiv : gd.indexVectorDim = 1)
    (hss : gd.sliceSizes = ![1, C])
    (sd : ScatterDims ⟨2, ![N, C]⟩ ⟨2, ![E, 1]⟩ ⟨2, ![E, C]⟩)
    (huw : sd.updateWindowDims = [1]) (hiw : sd.insertedWindowDims = [0]) (hsd : sd.scatterDimsToOperandDims = [0])
    (hiv' : sd.indexVectorDim = 1)
    (z tbl : FVec Ideal ⟨2, ![N, C]⟩ .f32) (sc dc : IVec ⟨2, ![E, 1]⟩ 32) (nrm : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, C]⟩ ![0, 1])
    (hb : FTy.bf16.bits < FTy.f32.bits) (v : Fin N) (c : Fin C) :
    Host.scatterAdd sd z dc
        (mulf (F := Ideal) (φ := .f32) (extf .f32 (Host.gather gd (truncf .bf16 tbl hb) sc) hb)
          (broadcastInDim ⟨2, ![E, C]⟩ ![0, 1] h2 (broadcastInDim ⟨2, ![E, 1]⟩ ![0] h1 nrm))) (ix2 v c)
      = z (ix2 v c) + edgeSum hN (fun r => tbl (ix2 r c)) sc dc nrm v :=
  scatter_gather_apply hN gd hod hcd hob hsb hsm hiv hss sd huw hiw hsd hiv' z tbl sc dc nrm h1 h2 v c

end Cert.LibEdgeNorm

end
-- ==== Proof.BridgeAgg.lean ====
/-
  The kernel's two aggregations read at an element: each is the zero array plus a neighbourhood sum of one column of its
  table (the roundings of the gathered rows to the narrow float format and back are the identity on the extended reals).
-/
import proofs.«173817_j3994319585552_2_alg».proof.Proof.HostVals2
import proofs.«173817_j3994319585552_2_alg».proof.Proof.LibEdgeNorm
import Idealize.ShloMosaic.Lib.ValueLayout

noncomputable section

open scoped BigOperators

namespace Cert.KernelIdeal.Bridge

open Idealize.ShloMosaic Idealize.ShloMosaic.ValueIdx
open Cert.KernelIdeal Cert.KernelIdeal.Gen Cert.KernelIdeal.HostVal Cert.LibEdgeNorm

/-! ## The aggregations read at an element -/

section Agg
variable (P : FVec Ideal S50000x320 .f32) (H : FVec Ideal S50000x128 .f32) (s d : IVec S850000 32)
  (nrm : FVec Ideal S850000 .f32)

/-- The zero array read anywhere is zero (as the zero word's value). -/
theorem zeros192_apply (i : S50000x192.Idx) :
    broadcastInDim S50000x192 ![] bcast_S_S50000x192 (constant (F := Ideal) S_ .f32 0x00000000#32) i
      = Ideal.ofBits .f32 0x00000000#32 :=
  (broadcastInDim_apply _ bcast_S_S50000x192 _ i (fun a => a.elim0) (fun a => a.elim0)).trans rfl
theorem zeros128_apply (i : S50000x128.Idx) :
    broadcastInDim S50000x128 ![] bcast_S_S50000x128 (constant (F := Ideal) S_ .f32 0x00000000#32) i
      = Ideal.ofBits .f32 0x00000000#32 :=
  (broadcastInDim_apply _ bcast_S_S50000x128 _ i (fun a => a.elim0) (fun a => a.elim0)).trans rfl

theorem agg192_apply (v : Fin 50000) (c : Fin 192) :
    agg192 P s d nrm (ix2 v c) = Ideal.ofBits .f32 0x00000000#32
      + edgeSum (N := 50000) (E := 850000) (by norm_num)
          (fun r => P (ix2 r (⟨c.val, by have := c.isLt; omega⟩ : Fin 320))) (wrapCol s) (dstCol d) nrm v := by
  unfold agg192
  have h := (host_scatter_gather_fmt_apply (by norm_num)
    gather_S50000x192_S850000x1_S850000x192_1_0_n_n_0_1_1192 rfl rfl rfl rfl rfl rfl rfl
    scatter_S50000x192_S850000x1_S850000x192_1_0_0_1 rfl rfl rfl rfl
    (broadcastInDim S50000x192 ![] bcast_S_S50000x192 (constant (F := Ideal) S_ .f32 0x00000000#32))
    (extractStridedSlice S50000x192 ![0, 0] P slices_S50000x320_S50000x192_0_0) (wrapCol s) (dstCol d) nrm
    bcast_S850000_S850000x1_0 bcast_S850000x1_S850000x192_0_1 bitsLt_bf16_f32 v c)
  rw [h]
  refine congrArg₂ (· + ·) (zeros192_apply _) (congrArg (fun col => edgeSum _ col (wrapCol s) (dstCol d) nrm v) (funext fun r => ?_))
  exact slice2_axis1_apply 0 P _ r c ⟨c.val, by have := c.isLt; omega⟩ (by simp)

theorem agg128_apply (v : Fin 50000) (c : Fin 128) :
    agg128 H s d nrm (ix2 v c) = Ideal.ofBits .f32 0x00000000#32
      + edgeSum (N := 50000) (E := 850000) (by norm_num) (fun r => H (ix2 r c)) (wrapCol s) (dstCol d) nrm v := by
  unfold agg128
  have h := (host_scatter_gather_fmt_apply (by norm_num)
    gather_S50000x128_S850000x1_S850000x128_1_0_n_n_0_1_1128 rfl rfl rfl rfl rfl rfl rfl
    scatter_S50000x128_S850000x1_S850000x128_1_0_0_1 rfl rfl rfl rfl
    (broadcastInDim S50000x128 ![] bcast_S_S50000x128 (constant (F := Ideal) S_ .f32 0x00000000#32))
    H (wrapCol s) (dstCol d) nrm
    bcast_S850000_S850000x1_0 bcast_S850000x1_S850000x128_0_1 bitsLt_bf16_f32 v c)
  rw [h]
  exact congrArg₂ (· + ·) (zeros128_apply _) rfl

end Agg

end Cert.KernelIdeal.Bridge

end
-- ==== Proof.BridgeB.lean ====
/-
  The reference's aggregations read at an element, and the kernel's joined aggregation against them.

  The reference computes the edge ends, the edge weights and the edge normalisation three times over, by the same lines;
  the three copies are one term.  Its aggregation of the product with W1 (128 columns) and of the product with Wl
  (64 columns) are neighbourhood sums; the kernel's aggregation of the joined 192 columns agrees with them column by
  column, because a neighbourhood sum at (v, c) reads only column c of its table.
-/
import proofs.«173817_j3994319585552_2_alg».proof.Proof.BridgeW
import proofs.«173817_j3994319585552_2_alg».proof.Proof.BridgeAgg

noncomputable section

open scoped BigOperators

namespace Cert.KernelIdeal.Bridge

open Idealize.ShloMosaic Idealize.ShloMosaic.ValueIdx
open Cert.KernelIdeal Cert.KernelIdeal.Gen Cert.KernelIdeal.HostVal Cert.KernelIdeal.Arr Cert.LibEdgeNorm

variable (a0 : FVec Ideal S50000x128 .f32) (a1 : IVec S2x800000 32) (a2 : FVec Ideal S800000 .f32)
  (a3 : FVec Ideal S128x128 .f32) (a9 : FVec Ideal S128x64 .f32) (a7 : FVec Ideal S128x128 .f32)

/-! ## The three copies of the edge data are one -/

theorem src_eq2 : Cert.ReferenceIdeal.Read.val_main_v84 (F := Ideal) a1 = wrapCol (Cert.ReferenceIdeal.Read.val_main_v6 (F := Ideal) a1) := rfl
theorem src_eq1 : Cert.ReferenceIdeal.Read.val_main_v38 (F := Ideal) a1 = wrapCol (Cert.ReferenceIdeal.Read.val_main_v6 (F := Ideal) a1) := rfl
theorem src_eq3 : Cert.ReferenceIdeal.Read.val_main_v151 (F := Ideal) a1 = wrapCol (Cert.ReferenceIdeal.Read.val_main_v6 (F := Ideal) a1) := rfl
theorem dst_eq1 : Cert.ReferenceIdeal.Read.val_main_v44 (F := Ideal) a1 = dstCol (Cert.ReferenceIdeal.Read.val_main_v7 (F := Ideal) a1) := rfl
theorem dst_eq2 : Cert.ReferenceIdeal.Read.val_main_v90 (F := Ideal) a1 = dstCol (Cert.ReferenceIdeal.Read.val_main_v7 (F := Ideal) a1) := rfl
theorem dst_eq3 : Cert.ReferenceIdeal.Read.val_main_v157 (F := Ideal) a1 = dstCol (Cert.ReferenceIdeal.Read.val_main_v7 (F := Ideal) a1) := rfl
theorem norm_eq2 : Cert.ReferenceIdeal.Read.val_main_v78 (F := Ideal) a1 a2 = Cert.ReferenceIdeal.Read.val_main_v32 (F := Ideal) a1 a2 := rfl
theorem norm_eq3 : Cert.ReferenceIdeal.Read.val_main_v145 (F := Ideal) a1 a2 = Cert.ReferenceIdeal.Read.val_main_v32 (F := Ideal) a1 a2 := rfl

/-! ## The reference's two first aggregations read at an element -/

theorem ref_agg1_apply (v : Fin 50000) (c : Fin 128) :
    Cert.ReferenceIdeal.Read.val_main_v45 (F := Ideal) a0 a1 a2 a3 (ix2 v c) = Ideal.ofBits .f32 0x00000000#32
      + edgeSum (N := 50000) (E := 850000) (by norm_num)
          (fun r => Cert.ReferenceIdeal.Read.val_main_v4 (F := Ideal) a0 a3 (ix2 r c))
          (wrapCol (Cert.ReferenceIdeal.Read.val_main_v6 (F := Ideal) a1)) (dstCol (Cert.ReferenceIdeal.Read.val_main_v7 (F := Ideal) a1))
          (Cert.ReferenceIdeal.Read.val_main_v32 (F := Ideal) a1 a2) v := by
  unfold Cert.ReferenceIdeal.Read.val_main_v45 Cert.ReferenceIdeal.Read.val_main_v42 Cert.ReferenceIdeal.Read.val_main_v39
    Cert.ReferenceIdeal.Read.val_main_v41 Cert.ReferenceIdeal.Read.val_main_v40
  have h := (host_scatter_gather_apply (by norm_num)
    Cert.ReferenceIdeal.gather_S50000x128_S850000x1_S850000x128_1_0_n_n_0_1_1128 rfl rfl rfl rfl rfl rfl rfl
    Cert.ReferenceIdeal.scatter_S50000x128_S850000x1_S850000x128_1_0_0_1 rfl rfl rfl rfl
    (Cert.ReferenceIdeal.Read.val_main_v43 (F := Ideal)) (Cert.ReferenceIdeal.Read.val_main_v4 (F := Ideal) a0 a3)
    (Cert.ReferenceIdeal.Read.val_main_v38 (F := Ideal) a1) (Cert.ReferenceIdeal.Read.val_main_v44 (F := Ideal) a1)
    (Cert.ReferenceIdeal.Read.val_main_v32 (F := Ideal) a1 a2)
    Cert.ReferenceIdeal.Facts₀.bcast_S850000_S850000x1_0 Cert.ReferenceIdeal.Facts₀.bcast_S850000x1_S850000x128_0_1 v c)
  rw [h]
  rw [src_eq1, dst_eq1]
  exact congrArg₂ (· + ·) ((Cert.ReferenceIdeal.Read.val_main_v43_apply _).trans rfl) rfl

theorem ref_agg2_apply (v : Fin 50000) (c : Fin 64) :
    Cert.ReferenceIdeal.Read.val_main_v91 (F := Ideal) a0 a1 a2 a9 (ix2 v c) = Ideal.ofBits .f32 0x00000000#32
      + edgeSum (N := 50000) (E := 850000) (by norm_num)
          (fun r => Cert.ReferenceIdeal.Read.val_main_v50 (F := Ideal) a0 a9 (ix2 r c))
          (wrapCol (Cert.ReferenceIdeal.Read.val_main_v6 (F := Ideal) a1)) (dstCol (Cert.ReferenceIdeal.Read.val_main_v7 (F := Ideal) a1))
          (Cert.ReferenceIdeal.Read.val_main_v32 (F := Ideal) a1 a2) v := by
  unfold Cert.ReferenceIdeal.Read.val_main_v91 Cert.ReferenceIdeal.Read.val_main_v88 Cert.ReferenceIdeal.Read.val_main_v85
    Cert.ReferenceIdeal.Read.val_main_v87 Cert.ReferenceIdeal.Read.val_main_v86
  have h := (host_scatter_gather_apply (by norm_num)
    Cert.ReferenceIdeal.gather_S50000x64_S850000x1_S850000x64_1_0_n_n_0_1_164 rfl rfl rfl rfl rfl rfl rfl
    Cert.ReferenceIdeal.scatter_S50000x64_S850000x1_S850000x64_1_0_0_1 rfl rfl rfl rfl
    (Cert.ReferenceIdeal.Read.val_main_v89 (F := Ideal)) (Cert.ReferenceIdeal.Read.val_main_v50 (F := Ideal) a0 a9)
    (Cert.ReferenceIdeal.Read.val_main_v84 (F := Ideal) a1) (Cert.ReferenceIdeal.Read.val_main_v90 (F := Ideal) a1)
    (Cert.ReferenceIdeal.Read.val_main_v78 (F := Ideal) a1 a2)
    Cert.ReferenceIdeal.Facts₀.bcast_S850000_S850000x1_0 Cert.ReferenceIdeal.Facts₀.bcast_S850000x1_S850000x64_0_1 v c)
  rw [h]
  rw [src_eq2, dst_eq2, norm_eq2]
  exact congrArg₂ (· + ·) ((Cert.ReferenceIdeal.Read.val_main_v89_apply _).trans rfl) rfl

/-! ## The joined aggregation, column group by column group -/

/-- The kernel's aggregated array: the joined product aggregated over the edges the reference's lines compute. -/
def aggK : FVec Ideal S50000x192 .f32 :=
  agg192 (prodG a0 (wcat a3 a9 a7)) (Cert.ReferenceIdeal.Read.val_main_v6 (F := Ideal) a1)
    (Cert.ReferenceIdeal.Read.val_main_v7 (F := Ideal) a1) (Cert.ReferenceIdeal.Read.val_main_v32 (F := Ideal) a1 a2)

theorem aggK_left (v : Fin 50000) (c : Fin 128) :
    aggK a0 a1 a2 a3 a9 a7 (ix2 v (⟨c.val, by have := c.isLt; omega⟩ : Fin 192))
      = Cert.ReferenceIdeal.Read.val_main_v45 (F := Ideal) a0 a1 a2 a3 (ix2 v c) := by
  unfold aggK
  rw [agg192_apply, ref_agg1_apply]
  refine congrArg₂ (· + ·) rfl (congrArg (fun col => edgeSum _ col _ _ _ v) (funext fun r => ?_))
  exact prod_left a0 a3 a9 a7 r c

theorem aggK_mid (v : Fin 50000) (c : Fin 64) :
    aggK a0 a1 a2 a3 a9 a7 (ix2 v (⟨128 + c.val, by have := c.isLt; omega⟩ : Fin 192))
      = Cert.ReferenceIdeal.Read.val_main_v91 (F := Ideal) a0 a1 a2 a9 (ix2 v c) := by
  unfold aggK
  rw [agg192_apply, ref_agg2_apply]
  refine congrArg₂ (· + ·) rfl (congrArg (fun col => edgeSum _ col _ _ _ v) (funext fun r => ?_))
  exact prod_mid a0 a3 a9 a7 r c

end Cert.KernelIdeal.Bridge

end
-- ==== Proof.BridgeC.lean ====
/-
  The gated fusion and the second product, against the reference's stages, element by element.

  With the aggregated array's two column groups identified with the reference's two aggregations and the joined
  product's last column group with the reference's self projection, every line of the reference from the leader logit
  to the second product is the kernel body's formula at the same element:
    the reference negates the logit where the body subtracts it from zero (0 - l = -l on the extended reals);
    the reference's product with the weight column [64, 1] is the body's lane sum against the weight row [1, 64];
    the bias vectors enter the reference spread over the rows, the body as one-row matrices.
-/
import proofs.«173817_j3994319585552_2_alg».proof.Proof.BridgeB
import proofs.«173817_j3994319585552_2_alg».proof.Proof.Blocks1

noncomputable section

open scoped BigOperators

namespace Cert.KernelIdeal.Bridge

open Idealize.ShloMosaic Idealize.ShloMosaic.ValueIdx
open Cert.KernelIdeal Cert.KernelIdeal.Gen Cert.KernelIdeal.HostVal Cert.KernelIdeal.Arr Cert.LibEdgeNorm

variable (a0 : FVec Ideal S50000x128 .f32) (a1 : IVec S2x800000 32) (a2 : FVec Ideal S800000 .f32)
  (a3 : FVec Ideal S128x128 .f32) (a4 : FVec Ideal S128 .f32) (a5 : FVec Ideal S128x128 .f32) (a6 : FVec Ideal S128 .f32)
  (a7 : FVec Ideal S128x128 .f32) (a8 : FVec Ideal S128 .f32) (a9 : FVec Ideal S128x64 .f32) (a10 : FVec Ideal S64 .f32)
  (a11 : FVec Ideal S64x1 .f32) (a12 : FVec Ideal S1 .f32)

/-! ## The bias vectors and the weight column as rows -/

/-- The weight column [64, 1] laid out as the row [1, 64] reads, at (0, k), the column's entry k. -/
theorem wl2_row (k : Fin 64) :
    shapeCast S1x64 a11 shapeCasts_S64x1_S1x64 (ix2 (0 : Fin 1) k) = a11 (ix2 k (0 : Fin 1)) :=
  shapeCast_apply a11 _ _ _ (by
    rw [Shape.rowMajor_val_two, Shape.rowMajor_val_two]
    show k.val * 1 + 0 = 0 * 64 + k.val
    omega)

/-! ## The reference's index maps at coordinates -/

theorem ix_v93 (r : Fin 50000) (k : Fin 64) :
    Cert.ReferenceIdeal.Read.idx_main_v92 (Cert.ReferenceIdeal.Read.idx_main_v93 (ix2 r k)) = ix1 k := by
  funext a; match a with
  | ⟨0, _⟩ => rfl
theorem ix_v47 (r : Fin 50000) (k : Fin 128) :
    Cert.ReferenceIdeal.Read.idx_main_v46 (Cert.ReferenceIdeal.Read.idx_main_v47 (ix2 r k)) = ix1 k := by
  funext a; match a with
  | ⟨0, _⟩ => rfl
theorem ix_v108 (r : Fin 50000) (k : Fin 128) :
    Cert.ReferenceIdeal.Read.idx_main_v107 (Cert.ReferenceIdeal.Read.idx_main_v108 (ix2 r k)) = ix1 k := by
  funext a; match a with
  | ⟨0, _⟩ => rfl
theorem ix_v112 (r : Fin 50000) (k : Fin 128) :
    Cert.ReferenceIdeal.Read.idx_main_v112 (ix2 r k) = ix2 r (0 : Fin 1) := by
  funext a; match a with
  | ⟨0, _⟩ => rfl
  | ⟨1, _⟩ => rfl
theorem ix_v114 (r : Fin 50000) (k : Fin 128) :
    Cert.ReferenceIdeal.Read.idx_main_v114 (ix2 r k) = ix2 r (0 : Fin 1) := by
  funext a; match a with
  | ⟨0, _⟩ => rfl
  | ⟨1, _⟩ => rfl

/-! ## The leader score -/

/-- The cut-off, biased second column group is the reference's stage before its product with the weight column. -/
theorem lsh_eq (r : Fin 50000) (k : Fin 64) :
    max (aggK a0 a1 a2 a3 a9 a7 (ix2 r (⟨128 + k.val, by have := k.isLt; omega⟩ : Fin 192))
        + shapeCast S1x64 a10 shapeCasts_S64_S1x64 (ix2 (0 : Fin 1) k)) (Ideal.ofBits .f32 0x00000000#32)
      = Cert.ReferenceIdeal.Read.val_main_v95 (F := Ideal) a0 a1 a2 a9 a10 (ix2 r k) := by
  rw [Cert.ReferenceIdeal.Read.val_main_v95_apply, Cert.ReferenceIdeal.Read.val_main_v94_apply,
    Cert.ReferenceIdeal.Read.val_main_v93_apply, Cert.ReferenceIdeal.Read.val_main_v92_apply,
    Cert.ReferenceIdeal.Read.val_main_call3_v0_apply, aggK_mid, shapeCast_a_1a_apply, ix_v93]
  rfl

theorem logit_eq (r : Fin 50000) :
    logitG (aggK a0 a1 a2 a3 a9 a7) (shapeCast S1x64 a10 shapeCasts_S64_S1x64) (shapeCast S1x64 a11 shapeCasts_S64x1_S1x64)
        (shapeCast S1x1 a12 shapeCasts_S1_S1x1) r
      = Cert.ReferenceIdeal.Read.val_main_v99 (F := Ideal) a0 a1 a2 a9 a10 a11 a12 (ix2 r (0 : Fin 1)) := by
  rw [Cert.ReferenceIdeal.Read.val_main_v99_apply, Cert.ReferenceIdeal.Read.val_main_v96_apply,
    Cert.ReferenceIdeal.Read.val_main_v98_apply, Cert.ReferenceIdeal.Read.val_main_v97_apply]
  unfold logitG
  refine congrArg₂ (· + ·) (Finset.sum_congr rfl fun k _ => ?_) ?_
  · refine congrArg₂ (· * ·) ((lsh_eq a0 a1 a2 a3 a7 a9 a10 r k).trans (congrArg (Cert.ReferenceIdeal.Read.val_main_v95 (F := Ideal) a0 a1 a2 a9 a10) ?_)) ((wl2_row a11 k).trans (congrArg a11 ?_))
    · funext a; match a with
      | ⟨0, _⟩ => rfl
      | ⟨1, _⟩ => rfl
    · funext a; match a with
      | ⟨0, _⟩ => rfl
      | ⟨1, _⟩ => rfl
  · refine (shapeCast_a_1a_apply a12 _ 0 0).trans (congrArg a12 ?_)
    funext a; match a with
    | ⟨0, _⟩ => rfl

/-- 0 - l = -l on the extended reals. -/
theorem zero_word_sub (l : EReal) : Ideal.ofBits .f32 0x00000000#32 - l = -l := by
  rw [Ideal.ofBits_zero_f32, zero_sub]

theorem score_eq (r : Fin 50000) :
    scoreOf (logitG (aggK a0 a1 a2 a3 a9 a7) (shapeCast S1x64 a10 shapeCasts_S64_S1x64)
        (shapeCast S1x64 a11 shapeCasts_S64x1_S1x64) (shapeCast S1x1 a12 shapeCasts_S1_S1x1) r)
      = Cert.ReferenceIdeal.Read.val_main_v105 (F := Ideal) a0 a1 a2 a9 a10 a11 a12 (ix2 r (0 : Fin 1)) := by
  rw [Cert.ReferenceIdeal.Read.val_main_v105_apply, Cert.ReferenceIdeal.Read.val_main_v104_apply,
    Cert.ReferenceIdeal.Read.val_main_v103_apply, Cert.ReferenceIdeal.Read.val_main_v102_apply,
    Cert.ReferenceIdeal.Read.val_main_v101_apply, Cert.ReferenceIdeal.Read.val_main_v100_apply,
    ← logit_eq a0 a1 a2 a3 a7 a9 a10 a11 a12 r]
  unfold scoreOf
  rw [zero_word_sub, Cert.ReferenceIdeal.Read.val_main_cst_21_apply, Cert.ReferenceIdeal.Read.val_main_cst_20_apply]
  simp only [Ideal.ofBits_def, Ideal.hostDivf_def, Ideal.hostUnary_exp_def, Ideal.hostNegf_def, Ideal.negf_def, Ideal.addf_def]

/-- The scores' array is the reference's leader score. -/
theorem ls_eq :
    lsG (aggK a0 a1 a2 a3 a9 a7) (shapeCast S1x64 a10 shapeCasts_S64_S1x64) (shapeCast S1x64 a11 shapeCasts_S64x1_S1x64)
        (shapeCast S1x1 a12 shapeCasts_S1_S1x1)
      = Cert.ReferenceIdeal.Read.val_main_v105 (F := Ideal) a0 a1 a2 a9 a10 a11 a12 := by
  funext i
  obtain ⟨r, u, rfl⟩ : ∃ (r : Fin 50000) (u : Fin 1), i = ix2 r u := ⟨i 0, i 1, eq_ix2 i⟩
  have hu : u = 0 := Subsingleton.elim _ _
  subst hu
  unfold lsG
  exact score_eq a0 a1 a2 a3 a7 a9 a10 a11 a12 r

/-! ## The gated mixture and the second product -/

theorem mix_eq (r : Fin 50000) (k : Fin 128) :
    mixG (prodG a0 (wcat a3 a9 a7)) (aggK a0 a1 a2 a3 a9 a7) (shapeCast S1x128 a4 shapeCasts_S128_S1x128)
        (shapeCast S1x64 a10 shapeCasts_S64_S1x64) (shapeCast S1x128 a8 shapeCasts_S128_S1x128)
        (shapeCast S1x64 a11 shapeCasts_S64x1_S1x64) (shapeCast S1x1 a12 shapeCasts_S1_S1x1) r k
      = Cert.ReferenceIdeal.Read.val_main_v116 (F := Ideal) a0 a1 a2 a3 a4 a7 a8 a9 a10 a11 a12 (ix2 r k) := by
  rw [Cert.ReferenceIdeal.Read.val_main_v116_apply, Cert.ReferenceIdeal.Read.val_main_v113_apply,
    Cert.ReferenceIdeal.Read.val_main_v115_apply, Cert.ReferenceIdeal.Read.val_main_v112_apply,
    Cert.ReferenceIdeal.Read.val_main_v114_apply, Cert.ReferenceIdeal.Read.val_main_v111_apply,
    Cert.ReferenceIdeal.Read.val_main_v110_apply, Cert.ReferenceIdeal.Read.val_main_v49_apply,
    Cert.ReferenceIdeal.Read.val_main_v48_apply, Cert.ReferenceIdeal.Read.val_main_v47_apply,
    Cert.ReferenceIdeal.Read.val_main_v46_apply, Cert.ReferenceIdeal.Read.val_main_call1_v0_apply,
    Cert.ReferenceIdeal.Read.val_main_v109_apply, Cert.ReferenceIdeal.Read.val_main_v108_apply,
    Cert.ReferenceIdeal.Read.val_main_v107_apply]
  unfold mixG
  rw [score_eq a0 a1 a2 a3 a7 a9 a10 a11 a12 r, aggK_left, prod_right, shapeCast_a_1a_apply, shapeCast_a_1a_apply,
    ix_v47, ix_v108, ix_v112, ix_v114]
  rfl

/-- The second product's array is the reference's. -/
theorem hx2_eq :
    hx2G (prodG a0 (wcat a3 a9 a7)) (aggK a0 a1 a2 a3 a9 a7) (shapeCast S1x128 a4 shapeCasts_S128_S1x128)
        (shapeCast S1x64 a10 shapeCasts_S64_S1x64) (shapeCast S1x128 a8 shapeCasts_S128_S1x128)
        (shapeCast S1x64 a11 shapeCasts_S64x1_S1x64) (shapeCast S1x1 a12 shapeCasts_S1_S1x1) a5
      = Cert.ReferenceIdeal.Read.val_main_v117 (F := Ideal) a0 a1 a2 a3 a4 a5 a7 a8 a9 a10 a11 a12 := by
  funext i
  obtain ⟨r, q, rfl⟩ : ∃ (r : Fin 50000) (q : Fin 128), i = ix2 r q := ⟨i 0, i 1, eq_ix2 i⟩
  rw [Cert.ReferenceIdeal.Read.val_main_v117_apply]
  unfold hx2G
  refine Finset.sum_congr rfl fun k _ => ?_
  refine congrArg₂ (· * ·) ((mix_eq a0 a1 a2 a3 a4 a7 a8 a9 a10 a11 a12 r k).trans (congrArg (Cert.ReferenceIdeal.Read.val_main_v116 (F := Ideal) a0 a1 a2 a3 a4 a7 a8 a9 a10 a11 a12) ?_)) (congrArg a5 ?_)
  · funext a; match a with
    | ⟨0, _⟩ => rfl
    | ⟨1, _⟩ => rfl
  · funext a; match a with
    | ⟨0, _⟩ => rfl
    | ⟨1, _⟩ => rfl

end Cert.KernelIdeal.Bridge

end
-- ==== Proof.BridgeD.lean ====
/-
  The second aggregation and the final bias and cut-off, against the reference's last stages.

  The second product's array is the reference's (element by element), so its aggregation over the same edges with the
  same normalisation is the reference's third aggregation; the last region adds the bias row and cuts off at zero as
  the reference's last two lines do.
-/
import proofs.«173817_j3994319585552_2_alg».proof.Proof.BridgeC

noncomputable section

open scoped BigOperators

namespace Cert.KernelIdeal.Bridge

open Idealize.ShloMosaic Idealize.ShloMosaic.ValueIdx
open Cert.KernelIdeal Cert.KernelIdeal.Gen Cert.KernelIdeal.HostVal Cert.KernelIdeal.Arr Cert.LibEdgeNorm

variable (a0 : FVec Ideal S50000x128 .f32) (a1 : IVec S2x800000 32) (a2 : FVec Ideal S800000 .f32)
  (a3 : FVec Ideal S128x128 .f32) (a4 : FVec Ideal S128 .f32) (a5 : FVec Ideal S128x128 .f32) (a6 : FVec Ideal S128 .f32)
  (a7 : FVec Ideal S128x128 .f32) (a8 : FVec Ideal S128 .f32) (a9 : FVec Ideal S128x64 .f32) (a10 : FVec Ideal S64 .f32)
  (a11 : FVec Ideal S64x1 .f32) (a12 : FVec Ideal S1 .f32)

/-- The reference's third aggregation read at an element. -/
theorem ref_agg3_apply (v : Fin 50000) (c : Fin 128) :
    Cert.ReferenceIdeal.Read.val_main_v158 (F := Ideal) a0 a1 a2 a3 a4 a5 a7 a8 a9 a10 a11 a12 (ix2 v c)
      = Ideal.ofBits .f32 0x00000000#32
        + edgeSum (N := 50000) (E := 850000) (by norm_num)
          (fun r => Cert.ReferenceIdeal.Read.val_main_v117 (F := Ideal) a0 a1 a2 a3 a4 a5 a7 a8 a9 a10 a11 a12 (ix2 r c))
          (wrapCol (Cert.ReferenceIdeal.Read.val_main_v6 (F := Ideal) a1)) (dstCol (Cert.ReferenceIdeal.Read.val_main_v7 (F := Ideal) a1))
          (Cert.ReferenceIdeal.Read.val_main_v32 (F := Ideal) a1 a2) v := by
  unfold Cert.ReferenceIdeal.Read.val_main_v158 Cert.ReferenceIdeal.Read.val_main_v155 Cert.ReferenceIdeal.Read.val_main_v152
    Cert.ReferenceIdeal.Read.val_main_v154 Cert.ReferenceIdeal.Read.val_main_v153
  have h := (host_scatter_gather_apply (by norm_num)
    Cert.ReferenceIdeal.gather_S50000x128_S850000x1_S850000x128_1_0_n_n_0_1_1128 rfl rfl rfl rfl rfl rfl rfl
    Cert.ReferenceIdeal.scatter_S50000x128_S850000x1_S850000x128_1_0_0_1 rfl rfl rfl rfl
    (Cert.ReferenceIdeal.Read.val_main_v156 (F := Ideal))
    (Cert.ReferenceIdeal.Read.val_main_v117 (F := Ideal) a0 a1 a2 a3 a4 a5 a7 a8 a9 a10 a11 a12)
    (Cert.ReferenceIdeal.Read.val_main_v151 (F := Ideal) a1) (Cert.ReferenceIdeal.Read.val_main_v157 (F := Ideal) a1)
    (Cert.ReferenceIdeal.Read.val_main_v145 (F := Ideal) a1 a2)
    Cert.ReferenceIdeal.Facts₀.bcast_S850000_S850000x1_0 Cert.ReferenceIdeal.Facts₀.bcast_S850000x1_S850000x128_0_1 v c)
  rw [h]
  rw [src_eq3, dst_eq3, norm_eq3]
  exact congrArg₂ (· + ·) ((Cert.ReferenceIdeal.Read.val_main_v156_apply _).trans rfl) rfl

/-- The kernel's second aggregation is the reference's third. -/
theorem agg2_eq :
    agg128 (hx2G (prodG a0 (wcat a3 a9 a7)) (aggK a0 a1 a2 a3 a9 a7) (shapeCast S1x128 a4 shapeCasts_S128_S1x128)
        (shapeCast S1x64 a10 shapeCasts_S64_S1x64) (shapeCast S1x128 a8 shapeCasts_S128_S1x128)
        (shapeCast S1x64 a11 shapeCasts_S64x1_S1x64) (shapeCast S1x1 a12 shapeCasts_S1_S1x1) a5)
      (Cert.ReferenceIdeal.Read.val_main_v6 (F := Ideal) a1) (Cert.ReferenceIdeal.Read.val_main_v7 (F := Ideal) a1)
      (Cert.ReferenceIdeal.Read.val_main_v32 (F := Ideal) a1 a2)
      = Cert.ReferenceIdeal.Read.val_main_v158 (F := Ideal) a0 a1 a2 a3 a4 a5 a7 a8 a9 a10 a11 a12 := by
  funext i
  obtain ⟨v, c, rfl⟩ : ∃ (v : Fin 50000) (c : Fin 128), i = ix2 v c := ⟨i 0, i 1, eq_ix2 i⟩
  rw [agg128_apply, ref_agg3_apply, hx2_eq]

theorem ix_v160 (r : Fin 50000) (q : Fin 128) :
    Cert.ReferenceIdeal.Read.idx_main_v159 (Cert.ReferenceIdeal.Read.idx_main_v160 (ix2 r q)) = ix1 q := by
  funext a; match a with
  | ⟨0, _⟩ => rfl

/-- The final node features are the reference's. -/
theorem out_eq :
    biasReluG (agg128 (hx2G (prodG a0 (wcat a3 a9 a7)) (aggK a0 a1 a2 a3 a9 a7) (shapeCast S1x128 a4 shapeCasts_S128_S1x128)
          (shapeCast S1x64 a10 shapeCasts_S64_S1x64) (shapeCast S1x128 a8 shapeCasts_S128_S1x128)
          (shapeCast S1x64 a11 shapeCasts_S64x1_S1x64) (shapeCast S1x1 a12 shapeCasts_S1_S1x1) a5)
        (Cert.ReferenceIdeal.Read.val_main_v6 (F := Ideal) a1) (Cert.ReferenceIdeal.Read.val_main_v7 (F := Ideal) a1)
        (Cert.ReferenceIdeal.Read.val_main_v32 (F := Ideal) a1 a2))
      (shapeCast S1x128 a6 shapeCasts_S128_S1x128)
      = Cert.ReferenceIdeal.Read.val_main_v162 (F := Ideal) a0 a1 a2 a3 a4 a5 a6 a7 a8 a9 a10 a11 a12 := by
  rw [agg2_eq]
  funext i
  obtain ⟨r, q, rfl⟩ : ∃ (r : Fin 50000) (q : Fin 128), i = ix2 r q := ⟨i 0, i 1, eq_ix2 i⟩
  rw [Cert.ReferenceIdeal.Read.val_main_v162_apply, Cert.ReferenceIdeal.Read.val_main_v161_apply,
    Cert.ReferenceIdeal.Read.val_main_v160_apply, Cert.ReferenceIdeal.Read.val_main_v159_apply,
    Cert.ReferenceIdeal.Read.val_main_call5_v0_apply]
  unfold biasReluG
  rw [shapeCast_a_1a_apply, ix_v160]
  rfl

end Cert.KernelIdeal.Bridge

end
-- ==== Proof.BridgeFinal.lean ====
/-
  The two results of the kernel program, as functions of the thirteen arguments, are the reference's two results.
-/
import proofs.«173817_j3994319585552_2_alg».proof.Proof.BridgeD

noncomputable section

open scoped BigOperators

namespace Cert.KernelIdeal.Bridge

open Idealize.ShloMosaic Idealize.ShloMosaic.ValueIdx
open Cert.KernelIdeal Cert.KernelIdeal.Gen Cert.KernelIdeal.HostVal Cert.KernelIdeal.Arr

variable (a0 : FVec Ideal S50000x128 .f32) (a1 : IVec S2x800000 32) (a2 : FVec Ideal S800000 .f32)
  (a3 : FVec Ideal S128x128 .f32) (a4 : FVec Ideal S128 .f32) (a5 : FVec Ideal S128x128 .f32) (a6 : FVec Ideal S128 .f32)
  (a7 : FVec Ideal S128x128 .f32) (a8 : FVec Ideal S128 .f32) (a9 : FVec Ideal S128x64 .f32) (a10 : FVec Ideal S64 .f32)
  (a11 : FVec Ideal S64x1 .f32) (a12 : FVec Ideal S1 .f32)

/-- The leader scores. -/
theorem ls_final :
    lsG (agg192 (prodG a0 (concatenate S128x320 1 [⟨S128x128, a3⟩, ⟨S128x64, a9⟩, ⟨S128x128, a7⟩] concatenates_S128x128_S128x64_S128x128_S128x320_d1))
          (Cert.ReferenceIdeal.Read.val_main_v6 (F := Ideal) a1) (Cert.ReferenceIdeal.Read.val_main_v7 (F := Ideal) a1)
          (Cert.ReferenceIdeal.Read.val_main_v32 (F := Ideal) a1 a2))
        (shapeCast S1x64 a10 shapeCasts_S64_S1x64) (shapeCast S1x64 a11 shapeCasts_S64x1_S1x64) (shapeCast S1x1 a12 shapeCasts_S1_S1x1)
      = Cert.ReferenceIdeal.Read.val_main_v105 (F := Ideal) a0 a1 a2 a9 a10 a11 a12 :=
  ls_eq a0 a1 a2 a3 a7 a9 a10 a11 a12

/-- The final node features. -/
theorem out_final :
    biasReluG (agg128
        (hx2G (prodG a0 (concatenate S128x320 1 [⟨S128x128, a3⟩, ⟨S128x64, a9⟩, ⟨S128x128, a7⟩] concatenates_S128x128_S128x64_S128x128_S128x320_d1))
          (agg192 (prodG a0 (concatenate S128x320 1 [⟨S128x128, a3⟩, ⟨S128x64, a9⟩, ⟨S128x128, a7⟩] concatenates_S128x128_S128x64_S128x128_S128x320_d1))
            (Cert.ReferenceIdeal.Read.val_main_v6 (F := Ideal) a1) (Cert.ReferenceIdeal.Read.val_main_v7 (F := Ideal) a1)
            (Cert.ReferenceIdeal.Read.val_main_v32 (F := Ideal) a1 a2))
          (shapeCast S1x128 a4 shapeCasts_S128_S1x128) (shapeCast S1x64 a10 shapeCasts_S64_S1x64) (shapeCast S1x128 a8 shapeCasts_S128_S1x128)
          (shapeCast S1x64 a11 shapeCasts_S64x1_S1x64) (shapeCast S1x1 a12 shapeCasts_S1_S1x1) a5)
        (Cert.ReferenceIdeal.Read.val_main_v6 (F := Ideal) a1) (Cert.ReferenceIdeal.Read.val_main_v7 (F := Ideal) a1)
        (Cert.ReferenceIdeal.Read.val_main_v32 (F := Ideal) a1 a2))
      (shapeCast S1x128 a6 shapeCasts_S128_S1x128)
      = Cert.ReferenceIdeal.Read.val_main_v162 (F := Ideal) a0 a1 a2 a3 a4 a5 a6 a7 a8 a9 a10 a11 a12 :=
  out_eq a0 a1 a2 a3 a4 a5 a6 a7 a8 a9 a10 a11 a12

end Cert.KernelIdeal.Bridge

end
-- ==== Proof.lean ====
/- The proof of `Cert.Claim` (the five conjuncts of proofs.«173817_j3994319585552_2_alg».proof.Defs).

   THE PROGRAM. One layer of a gated graph convolution on 50000 nodes with 128 features each (X), over 800000
   weighted directed edges. Every node gets a loop of weight 1; deg v is the sum of the weights of the edges into v;
   dinv v = 1 / sqrt (deg v) where deg v > 0 and 0 elsewhere; an edge e from s to d of weight w carries
   norm e = dinv s * w * dinv d. With W1 (128×128), Wl (128×64), Ws (128×128) side by side as Wc (128×320):
     P = X · Wc                                   (operands rounded to the narrow float format, sums in the wide one);
     A = Σ over edges e into a node of norm e * (first 192 columns of P at the source of e)        (50000×192);
     h = max (A[:, 0:128] + b1, 0);   g = max (A[:, 128:192] + bl, 0);   ls = 1 / (1 + exp (−(g · wl2 + bl2)))  (50000×1);
     mix = (1 − ls) * h + ls * (P[:, 192:320] + bs);   H = mix · W2;
     out = max ((Σ over edges e into a node of norm e * (H at the source of e)) + b2, 0)           (50000×128).
   The results are out and ls. The kernel program computes P, (ls, H) and out in three kernel calls, each a pipeline
   over 25 blocks of 2000 rows, with the edge sums done on the host between them; the reference program is host
   operations only. On the extended reals the roundings are the identity.

   HOW THE PROOF IS CUT.
   * The regions' frames (KernelRegion0..2, KernelRun; KernelIdealRegion0..2, KernelIdealRun, the same text at the
     other reading of the floats). Per region: the block each window shows a grid point, the buffer the body leaves
     as a function of the input blocks, the body's triple, the pipeline's proof data and body obligation. The contents
     the regions leave in their output arrays are chosen as what the write-backs fold to; with that choice each region is
     a segment between the valuations the generated Regions module names, and its conditional frame gives
     `frame_Kernel` and `frame_KernelIdeal`. The reference's frame is its generated run with the two results dropped.
   * The kernel's values, region by region (KernelVals, over HostVals*, Blocks02, Blocks1). The same launch read at every
     buffer says the final memory is the last valuation; each host line writes the reference's own operation of what the
     line before left, a buffer no later line writes is carried unchanged, and a region's output array is one
     whole-array function of its operand arrays (the blocks tile it). So the two results are explicit functions of
     the thirteen argument arrays.
   * The reference's stages (the generated Read module): its run ends with the results at the stages `val_main_v162`
     and `val_main_v105` of the arguments.
   * The bridge (BridgeFinal): column by column, the kernel's two functions of the arguments are those two stages.
   From memories that agree on the arguments both programs therefore end with the same results and unchanged arguments:
   `algebraic_KernelIdeal_ReferenceIdeal`. The ideal pass rewrote no operation, so `preserves_Kernel_KernelIdeal` states
   nothing to prove. -/
import proofs.«173817_j3994319585552_2_alg».proof.Defs
import proofs.«173817_j3994319585552_2_alg».proof.Proof.Gen.Kernel
import proofs.«173817_j3994319585552_2_alg».proof.Proof.Gen.Kernel.Skeleton
import proofs.«173817_j3994319585552_2_alg».proof.Proof.Gen.Kernel.Launch
import proofs.«173817_j3994319585552_2_alg».proof.Proof.Gen.Kernel.Regions
import proofs.«173817_j3994319585552_2_alg».proof.Proof.Gen.Kernel.Points
import proofs.«173817_j3994319585552_2_alg».proof.Proof.Gen.KernelIdeal
import proofs.«173817_j3994319585552_2_alg».proof.Proof.Gen.KernelIdeal.Skeleton
import proofs.«173817_j3994319585552_2_alg».proof.Proof.Gen.KernelIdeal.Launch
import proofs.«173817_j3994319585552_2_alg».proof.Proof.Gen.KernelIdeal.Regions
import proofs.«173817_j3994319585552_2_alg».proof.Proof.Gen.KernelIdeal.Points
import proofs.«173817_j3994319585552_2_alg».proof.Proof.Gen.ReferenceIdeal
import proofs.«173817_j3994319585552_2_alg».proof.Proof.Gen.ReferenceIdeal.Run
import proofs.«173817_j3994319585552_2_alg».proof.Proof.Gen.ReferenceIdeal.Read
import proofs.«173817_j3994319585552_2_alg».proof.Proof.Gen.Pre_finite_inputs
import proofs.«173817_j3994319585552_2_alg».proof.Proof.KernelRun
import proofs.«173817_j3994319585552_2_alg».proof.Proof.KernelIdealRun
import proofs.«173817_j3994319585552_2_alg».proof.Proof.KernelVals
import proofs.«173817_j3994319585552_2_alg».proof.Proof.BridgeFinal
import Idealize.ShloMosaic.Adequacy
import Idealize.ShloMosaic.Init

noncomputable section

namespace Cert.Proof

open Idealize.ShloMosaic Idealize.SL.Sem

/-! ## The reference's two result stages respect equal arguments -/

section Congr
open Cert.ReferenceIdeal

theorem v162_congr
    {x0 y0 : (⟨S50000x128, .f32⟩ : BufTy).Contents (Elt Ideal)} {x1 y1 : (⟨S2x800000, .i32⟩ : BufTy).Contents (Elt Ideal)} {x2 y2 : (⟨S800000, .f32⟩ : BufTy).Contents (Elt Ideal)} {x3 y3 : (⟨S128x128, .f32⟩ : BufTy).Contents (Elt Ideal)} {x4 y4 : (⟨S128, .f32⟩ : BufTy).Contents (Elt Ideal)} {x5 y5 : (⟨S128x128, .f32⟩ : BufTy).Contents (Elt Ideal)} {x6 y6 : (⟨S128, .f32⟩ : BufTy).Contents (Elt Ideal)} {x7 y7 : (⟨S128x128, .f32⟩ : BufTy).Contents (Elt Ideal)} {x8 y8 : (⟨S128, .f32⟩ : BufTy).Contents (Elt Ideal)} {x9 y9 : (⟨S128x64, .f32⟩ : BufTy).Contents (Elt Ideal)} {x10 y10 : (⟨S64, .f32⟩ : BufTy).Contents (Elt Ideal)} {x11 y11 : (⟨S64x1, .f32⟩ : BufTy).Contents (Elt Ideal)} {x12 y12 : (⟨S1, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.Read.val_main_v162 (F := Ideal) x0 x1 x2 x3 x4 x5 x6 x7 x8 x9 x10 x11 x12 = Cert.ReferenceIdeal.Read.val_main_v162 (F := Ideal) y0 y1 y2 y3 y4 y5 y6 y7 y8 y9 y10 y11 y12 := by
  subst h0; subst h1; subst h2; subst h3; subst h4; subst h5; subst h6; subst h7; subst h8; subst h9; subst h10; subst h11; subst h12; rfl

theorem v105_congr
    {x0 y0 : (⟨S50000x128, .f32⟩ : BufTy).Contents (Elt Ideal)} {x1 y1 : (⟨S2x800000, .i32⟩ : BufTy).Contents (Elt Ideal)} {x2 y2 : (⟨S800000, .f32⟩ : BufTy).Contents (Elt Ideal)} {x9 y9 : (⟨S128x64, .f32⟩ : BufTy).Contents (Elt Ideal)} {x10 y10 : (⟨S64, .f32⟩ : BufTy).Contents (Elt Ideal)} {x11 y11 : (⟨S64x1, .f32⟩ : BufTy).Contents (Elt Ideal)} {x12 y12 : (⟨S1, .f32⟩ : BufTy).Contents (Elt Ideal)}
    (h0 : x0 = y0) (h1 : x1 = y1) (h2 : x2 = y2) (h9 : x9 = y9) (h10 : x10 = y10) (h11 : x11 = y11) (h12 : x12 = y12) :
    Cert.ReferenceIdeal.Read.val_main_v105 (F := Ideal) x0 x1 x2 x9 x10 x11 x12 = Cert.ReferenceIdeal.Read.val_main_v105 (F := Ideal) y0 y1 y2 y9 y10 y11 y12 := by
  subst h0; subst h1; subst h2; subst h9; subst h10; subst h11; subst h12; rfl

end Congr

/-! ## The claims -/

theorem frame_k : Cert.frame_Kernel := fun m ρ _ => Cert.Kernel.Regs.frame m ρ
theorem frame_ki : Cert.frame_KernelIdeal := fun m ρ _ => Cert.KernelIdeal.Regs.frame m ρ
/-- The reference's run says where its two results and its arguments end; the frame keeps the arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals, from memories agreeing on the arguments: the kernel program's final memory is its last
    valuation, whose two result buffers are explicit functions of the arguments (the values region by region), and
    those functions are the reference's stages (the bridge); the reference ends at its stages of its own arguments,
    which are the kernel's. -/
theorem algebraic : Cert.algebraic_KernelIdeal_ReferenceIdeal := by
  intro m ρ m' ρ' _ hagree
  refine ⟨fun c => Cert.ReferenceIdeal.Read.val_main_v162 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Regs.run_named m ρ)
    have hm : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).1, Proc.devRef .tc b) = Cert.KernelIdeal.Gen.V8 m (Cert.KernelIdeal.Regs.outs m) c (Proc.devRef .tc b) :=
      fun b hb => h c _ (Finset.mem_filter.mpr ⟨StableHlo.devRef_mem_tcRefs b, hb⟩)
    exact ⟨(hm Cert.KernelIdeal.main_v72 (by decide)).trans ((Cert.KernelIdeal.KVals.out_val m c).trans
        (Cert.KernelIdeal.Bridge.out_final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))),
      (hm Cert.KernelIdeal.main_v55_1 (by decide)).trans ((Cert.KernelIdeal.KVals.ls_val m c).trans
        (Cert.KernelIdeal.Bridge.ls_final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))),
      (hm Cert.KernelIdeal.main_arg0 (by decide)).trans (Cert.KernelIdeal.Gen.V8_main_arg0 m (Cert.KernelIdeal.Regs.outs m) c),
      (hm Cert.KernelIdeal.main_arg1 (by decide)).trans (Cert.KernelIdeal.Gen.V8_main_arg1 m (Cert.KernelIdeal.Regs.outs m) c),
      (hm Cert.KernelIdeal.main_arg2 (by decide)).trans (Cert.KernelIdeal.Gen.V8_main_arg2 m (Cert.KernelIdeal.Regs.outs m) c),
      (hm Cert.KernelIdeal.main_arg3 (by decide)).trans (Cert.KernelIdeal.Gen.V8_main_arg3 m (Cert.KernelIdeal.Regs.outs m) c),
      (hm Cert.KernelIdeal.main_arg4 (by decide)).trans (Cert.KernelIdeal.Gen.V8_main_arg4 m (Cert.KernelIdeal.Regs.outs m) c),
      (hm Cert.KernelIdeal.main_arg5 (by decide)).trans (Cert.KernelIdeal.Gen.V8_main_arg5 m (Cert.KernelIdeal.Regs.outs m) c),
      (hm Cert.KernelIdeal.main_arg6 (by decide)).trans (Cert.KernelIdeal.Gen.V8_main_arg6 m (Cert.KernelIdeal.Regs.outs m) c),
      (hm Cert.KernelIdeal.main_arg7 (by decide)).trans (Cert.KernelIdeal.Gen.V8_main_arg7 m (Cert.KernelIdeal.Regs.outs m) c),
      (hm Cert.KernelIdeal.main_arg8 (by decide)).trans (Cert.KernelIdeal.Gen.V8_main_arg8 m (Cert.KernelIdeal.Regs.outs m) c),
      (hm Cert.KernelIdeal.main_arg9 (by decide)).trans (Cert.KernelIdeal.Gen.V8_main_arg9 m (Cert.KernelIdeal.Regs.outs m) c),
      (hm Cert.KernelIdeal.main_arg10 (by decide)).trans (Cert.KernelIdeal.Gen.V8_main_arg10 m (Cert.KernelIdeal.Regs.outs m) c),
      (hm Cert.KernelIdeal.main_arg11 (by decide)).trans (Cert.KernelIdeal.Gen.V8_main_arg11 m (Cert.KernelIdeal.Regs.outs m) c),
      (hm Cert.KernelIdeal.main_arg12 (by decide)).trans (Cert.KernelIdeal.Gen.V8_main_arg12 m (Cert.KernelIdeal.Regs.outs m) c)⟩
  · refine (θ_run Cert.ReferenceIdeal.defs _ _).mono (fun r h c => ?_) (Cert.ReferenceIdeal.Value.run (F := Ideal) m' ρ')
    obtain ⟨h162, h105, hargs⟩ := h c
    exact ⟨h162.trans ((Cert.ReferenceIdeal.Read.val_main_v162_eq m' c).trans
        (v162_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2)),
      h105.trans ((Cert.ReferenceIdeal.Read.val_main_v105_eq m' c).trans
        (v105_congr (hagree c).1 (hagree c).2.1 (hagree c).2.2.1 (hagree c).2.2.2.2.2.2.2.2.2.1 (hagree c).2.2.2.2.2.2.2.2.2.2.1 (hagree c).2.2.2.2.2.2.2.2.2.2.2.1 (hagree c).2.2.2.2.2.2.2.2.2.2.2.2)),
      hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
